-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S2048x256 : Shape := ⟨2, ![2048, 256]⟩
abbrev S512x256 : Shape := ⟨2, ![512, 256]⟩
abbrev S2048x1 : Shape := ⟨2, ![2048, 1]⟩
abbrev S2048x512 : Shape := ⟨2, ![2048, 512]⟩
abbrev S2048 : Shape := ⟨1, ![2048]⟩
abbrev S4096 : Shape := ⟨1, ![4096]⟩

abbrev nBuf : Space → Nat
  | .hbm => 31
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192x1, .f32⟩
  | .hbm, ⟨15, _⟩ => ⟨S8192, .f32⟩
  | .hbm, ⟨16, _⟩ => ⟨S8192x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S2048x512_d0_w32 : S2048x512.Iotas .tc 32 [0]
  iota_S2048x512_d1_w32 : S2048x512.Iotas .tc 32 [1]
  reduces_S2048x512_S2048 : S2048x512.Reduces [1] S2048
  shapeCasts_S2048_S2048x1 : S2048.ShapeCasts S2048x1
  broadcasts_S2048x1_S2048x512 : S2048x1.Broadcasts S2048x512
  shapeCasts_S8192x1_S8192 : S8192x1.ShapeCasts S8192
  slices_S8192x256_S4096x256_0_0 : S8192x256.Slices ![0, 0] S4096x256
  slices_S8192x256_S4096x256_4096_0 : S8192x256.Slices ![4096, 0] S4096x256
  reducesTo_S4096x256_S4096_d1 : S4096x256.ReducesTo [1] S4096
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S2048x256_S512x256_S2048x512_1_1_0_0_n_n_wf : DotDims.WF S2048x256 S512x256 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf

abbrev win0_0 : Pipeline.Window sig grid0 :=
  Pipeline.Window.ofSpec (Memref.whole main_v9) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2048x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S8192x2 : Shape := ⟨2, ![8192, 2]⟩
abbrev S4096 : Shape := ⟨1, ![4096]⟩

abbrev nBuf : Space → Nat
  | .hbm => 83
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1, .i32⟩
  | .hbm, ⟨35, _⟩ => ⟨S8192x2, .i32⟩
  | .hbm, ⟨36, _⟩ => ⟨S_, .f32⟩
  | .hbm, ⟨37, _⟩ => ⟨S8192, .f32⟩
  | .hbm, ⟨38, _⟩ => ⟨S8192x8192, .f32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S8192, .i32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S8192x1, .f32⟩
  | .hbm, ⟨58, _⟩ => ⟨S8192x8192, .f32⟩
  | .hbm, ⟨59, _⟩ => ⟨S8192x8192, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i1⟩
  | .hbm, ⟨70, _⟩ => ⟨S_, .i32⟩
  | .hbm, ⟨71, _⟩ => ⟨S8192, .i32⟩
  | .hbm, ⟨72, _⟩ => ⟨S8192, .i32⟩
  | .hbm, ⟨73, _⟩ => ⟨S8192, .i32⟩
  | .hbm, ⟨74, _⟩ => ⟨S8192x1, .i32⟩
  | .hbm, ⟨75, _⟩ => ⟨S8192x1, .i32⟩
  | .hbm, ⟨76, _⟩ => ⟨S8192x2, .i32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_cst_1 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_v34 : Ref sig .tc := ⟨.hbm, 59, rfl⟩
abbrev main_c_7 : Ref sig .tc := ⟨.hbm, 60, rfl⟩
abbrev main_v35 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_9 : Ref sig .tc := ⟨.hbm, 67, rfl⟩
abbrev main_v40 : Ref sig .tc := ⟨.hbm, 68, rfl⟩
abbrev main_v41 : Ref sig .tc := ⟨.hbm, 69, rfl⟩
abbrev main_c_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_cst_12 : Ref sig .tc := ⟨.hbm, 81, rfl⟩
abbrev main_v51 : Ref sig .tc := ⟨.hbm, 82, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S8192x1_S8192x8192_0_1 : S8192x1.BroadcastsInDim S8192x8192 (![0, 1] : Fin 2 → Fin S8192x8192.rank)
  reducesTo_S8192_S_d0 : S8192.ReducesTo [0] S_
  dot_S8192x256_S256x8192_S8192x8192_1_0_0_1_n_n_wf : DotDims.WF S8192x256 S256x8192 S8192x8192 [1] [0] [0] [1] [] []
  scatter_S8192x8192_S8192x2_S8192_n_01_01_1_wf : ScatterDims.WF S8192x8192 S8192x2 S8192 [] [0, 1] [0, 1] 1
  gather_S8192x8192_S8192x2_S8192_n_01_n_n_01_1_11_wf : GatherDims.WF S8192x8192 S8192x2 S8192 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.BRuns.lean ====
/-
  The streaming kernel's frame, first part: what its three case-by-case runs share.

  @main is twelve host operations (the rows joined, squared, summed, rooted, clamped from below, divided: the normalized
  matrix), one kernel region on a 4 × 16 grid, and sixteen host operations after it. The region's windows: a block of
  2048 rows (window 0) and a block of 512 rows (window 1) of the SAME normalized matrix, and a 2048 × 1 block of the
  result (window 2), written back once per row block, at the last of its 16 column steps. Between the column steps of
  a row block the body keeps a running maximum and a running sum in two 2048 × 1 scratch buffers; it resets them at
  column step 0 and stores into the result's block only at column step 15. So a grid point is in one of three cases:
  column step 0 (reset), 1 … 14 (accumulate), 15 (accumulate and finish).
-/
import proofs.«142451_j57836029608255_1_alg».proof.Proof.Gen.Kernel.Launch
import proofs.«142451_j57836029608255_1_alg».proof.Proof.Gen.Kernel.Skeleton
import proofs.«142451_j57836029608255_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the twelve operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the sixteen later operations, at the contents after the twelve earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The input windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block's staging buffer holds its block at every point, fetched there or not (its index does not move within
    a row block), for any proof data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the column block's staging buffer (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "This is column step 0": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column step 15": the condition of the final store. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from column step 15 the result's block is neither stored into nor written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At column step 15 it is stored into. -/
theorem liveAt0_2 : ∀ t : Fin cfg0.N, cond0_1 (grid0.coords t) → cfg0.idle 2 (grid0.coords t) = false := by decide +kernel

/-! ## The memrefs the body is called with -/

abbrev VO0_2 : View sig .tc .vmem S2048x1 .f32 := (Memref.whole cc0_stg2_0 : Memref sig .tc .vmem S2048x1 .f32).view
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The running maximum's and the running sum's scratch buffers. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BRunA.lean ====
/-
  The streaming kernel's frame: the body's run in case A — column step 0: both scratch buffers are reset, then the step's block is folded in; nothing is stored into the result's block.
-/
import proofs.«142451_j57836029608255_1_alg».proof.Proof.BRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers in case A, with the proof that on whole memrefs —
    the two input blocks at their contents `x0`, `x1`, the result's block at contents handed back untouched — the body runs to its return holding the inputs as
    they were and each buffer it stored into with those pieces written. -/
noncomputable def kernelRun0_A (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__flash_lse_kernel i arg2 harg2 arg3 harg3 arg4 harg4 arg5 harg5 arg6 harg6) K } := by
  refine ⟨[], ?_, ?_, fun xi2 E K => ?run⟩
  case run =>
    simp only [cc0__flash_lse_kernel_eq_skeleton]; unfold cc0__flash_lse_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.BRunB.lean ====
/-
  The streaming kernel's frame: the body's run in case B — column steps 1 … 14: the step's block is folded into the running maximum and sum the step before left; nothing is stored into the result's block.
-/
import proofs.«142451_j57836029608255_1_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers in case B, with the proof that on whole memrefs —
    the two input blocks at their contents `x0`, `x1`, the result's block at contents handed back untouched — the body runs to its return holding the inputs as
    they were and each buffer it stored into with those pieces written. -/
noncomputable def kernelRun0_B (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__flash_lse_kernel i arg2 harg2 arg3 harg3 arg4 harg4 arg5 harg5 arg6 harg6) K } := by
  refine ⟨[], ?_, ?_, fun xi2 E K => ?run⟩
  case run =>
    simp only [cc0__flash_lse_kernel_eq_skeleton]; unfold cc0__flash_lse_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.BRunC.lean ====
/-
  The streaming kernel's frame: the body's run in case C — column step 15: the last block is folded in and maximum + log(sum) is stored into the result's block.
-/
import proofs.«142451_j57836029608255_1_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers and in the result's block in case C, with the proof that on whole memrefs —
    the two input blocks at their contents `x0`, `x1` — the body runs to its return holding the inputs as
    they were and each buffer it stored into with those pieces written. -/
noncomputable def kernelRun0_C (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) :
    Σ' (L2 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__flash_lse_kernel i arg2 harg2 arg3 harg3 arg4 harg4 arg5 harg5 arg6 harg6) K } := by
  refine ⟨?_, ?_, ?_, fun E K => ?run⟩
  case run =>
    simp only [cc0__flash_lse_kernel_eq_skeleton]; unfold cc0__flash_lse_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.BFrame.lean ====
/-
  The streaming kernel's frame, last part: what the scratch buffers and the result's block hold after each grid point,
  the proof data, and the body obligation.

  After the body at point `n` the two scratch buffers hold the running maximum and the running sum of the row block's
  first `n % 16 + 1` column blocks (`outsAt0`'s second and third components): at column step 0 they are computed from the
  reset values, at later steps from what the step before left. At column step 15 the result's block holds
  maximum + log(sum) (`outsAt0`'s first component); at the other steps it is not stored into and not written back.
  The normalized matrix is read through two windows; the proof data deal its share as the left half to the row-block
  window and the right half to the column-block window.
-/
import proofs.«142451_j57836029608255_1_alg».proof.Proof.BRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the result's block (nothing is stored there: a placeholder nothing consults). -/
def out0_A_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) : Vec F S2048x1 .f32 :=
  VO0_2.read (Elt F) (VO0_2.writes (Elt F) VO0_2.junk (kernelRun0_A c i arg2 harg2 arg3 harg3 arg4 harg4 arg5 harg5 arg6 harg6 hc0 hc1 x0 x1).1)

/-- Case A's stores into the running maximum's buffer cover it. -/
theorem scover0_A_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) (y : S2048x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S2048x1.size (by sl_kernel_rfl) y

/-- What case A leaves in the running maximum's buffer. -/
def sout0_A_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) : Vec F S2048x1 .f32 :=
  VS0_0.read (Elt F) (VS0_0.writes (Elt F) VS0_0.junk (kernelRun0_A c i arg2 harg2 arg3 harg3 arg4 harg4 arg5 harg5 arg6 harg6 hc0 hc1 x0 x1).2.1)

/-- Case A's stores into the running sum's buffer cover it. -/
theorem scover0_A_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) (y : S2048x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S2048x1.size (by sl_kernel_rfl) y

/-- What case A leaves in the running sum's buffer. -/
def sout0_A_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) : Vec F S2048x1 .f32 :=
  VS0_1.read (Elt F) (VS0_1.writes (Elt F) VS0_1.junk (kernelRun0_A c i arg2 harg2 arg3 harg3 arg4 harg4 arg5 harg5 arg6 harg6 hc0 hc1 x0 x1).2.2.1)

/-- What case B leaves in the result's block (nothing is stored there: a placeholder nothing consults). -/
def out0_B_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) : Vec F S2048x1 .f32 :=
  VO0_2.read (Elt F) (VO0_2.writes (Elt F) VO0_2.junk (kernelRun0_B c i arg2 harg2 arg3 harg3 arg4 harg4 arg5 harg5 arg6 harg6 hc0 hc1 x0 x1 xs0 xs1).1)

/-- Case B's stores into the running maximum's buffer cover it. -/
theorem scover0_B_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) (y : S2048x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S2048x1.size (by sl_kernel_rfl) y

/-- What case B leaves in the running maximum's buffer. -/
def sout0_B_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- Case B's stores into the running sum's buffer cover it. -/
theorem scover0_B_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) (y : S2048x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S2048x1.size (by sl_kernel_rfl) y

/-- What case B leaves in the running sum's buffer. -/
def sout0_B_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- What case C leaves in the result's block: its one store read back. -/
def out0_C_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) : Vec F S2048x1 .f32 :=
  VO0_2.read (Elt F) (VO0_2.writes (Elt F) VO0_2.junk (kernelRun0_C c i arg2 harg2 arg3 harg3 arg4 harg4 arg5 harg5 arg6 harg6 hc0 hc1 x0 x1 xs0 xs1).1)

theorem cover0_C_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) (y : S2048x1.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S2048x1.size (by sl_kernel_rfl) y

/-- Case C's stores into the running maximum's buffer cover it. -/
theorem scover0_C_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) (y : S2048x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S2048x1.size (by sl_kernel_rfl) y

/-- What case C leaves in the running maximum's buffer. -/
def sout0_C_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- Case C's stores into the running sum's buffer cover it. -/
theorem scover0_C_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) (y : S2048x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S2048x1.size (by sl_kernel_rfl) y

/-- What case C leaves in the running sum's buffer. -/
def sout0_C_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## What the buffers hold after each point -/

/-- After the body at position `n`: the result's block, the running maximum, the running sum. -/
def outsAt0 (c : Dev nD) : (n : ℕ) → n < cfg0.N → Vec F S2048x1 .f32 × Vec F S2048x1 .f32 × Vec F S2048x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 16 = 0) (h1 : ¬t.val % 16 = 15) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers at anything; afterwards each
    at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The proof data on core `c`: the arrays as the region finds them; after the body each input's buffer at its block, the
    result's at `outsAt0`'s first component; the invariant above; nothing owed; the normalized matrix's share dealt as its
    left half to the row-block window and its right half to the column-block window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; that
    case's run applies, handed the scratch buffers at what the point before left (at anything at a column step 0) and
    taking them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 16 = 0
  · by_cases h1 : t.val % 16 = 15
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ )
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ )
          iexact Hg
        isplitl [Ho]; · iexact Ho
        isplitl [H0]; · iexact H0
        isplitl [H1]; · iexact H1
        iexists _; iexact H2
  · by_cases h1 : t.val % 16 = 15
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ )
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1; (try dsimp only)
      have hz : t.val ≠ 0 := by omega
      · rw [PhiS_castSucc m c t, PhiS_pos m c _ _ hz]
        iintro ⟨⟨⟨HS0, HS1⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk m c 0 t) (iblk m c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ )
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- After the last point the invariant gives back what the launch handed it. -/
theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.BEnds.lean ====
/-
  The streaming kernel's frame: the region's two ends.

  The normalized matrix is one buffer read through two windows, so the proof data hold it as two half shares; the other
  array is the result's. At the region's entry the buffer's full share is split into the halves, and at its exit the halves
  are joined again, so that the sixteen host operations after the region — which read the normalized matrix — run on
  whole buffers. Seen through ONE window per distinct buffer (`spec1`: the column-block window and the result's) the
  region's arrays are two distinct whole buffers, which is the form the library's account of operations after a region
  takes.
-/
import proofs.«142451_j57836029608255_1_alg».proof.Proof.BFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One window per distinct buffer -/

/-- The column-block window (on the normalized matrix) and the result's window: between them, every buffer a window stages. -/
abbrev spec1 : Fin 2 → Pipeline.WinSpec sig grid0.rank := fun | 0 => spec0 1 | 1 => spec0 2 | ⟨_ + 2, h⟩ => absurd h (Nat.not_lt.2 (Nat.le_add_left _ _))

theorem arr_inj1 : Function.Injective (Pipeline.arrRef spec1) := by decide
/-- They stage the same buffers as the three windows do. -/
theorem img_eq : Finset.univ.image (Pipeline.arrRef spec1) = Finset.univ.image (Pipeline.arrRef spec0) := by decide

theorem bigSep_W1 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The proof data's arrays at contents `G` on the normalized matrix (through both windows) and `R` on the result are the
    two buffers whole at those contents: the halves joined, -/
theorem pts_of_arrays (c : Dev nD) (G : Buf (Elt F) ((c : Thread nD τ).loc main_v9)) (R : Buf (Elt F) ((c : Thread nD τ).loc main_v10))
    (Fa : (w : Fin cfg0.W) → Buf (Elt F) ((cfg0.win w).arr.view.loc (c : Thread nD τ)))
    (h0 : Fa 0 = G) (h1 : Fa 1 = G) (h2 : Fa 2 = R) :
    (dats m 0 c).arrays Fa ⊢ (iprop((((c : Thread nD τ).loc main_v9) ↦{fullShare} G) ∗ (((c : Thread nD τ).loc main_v10) ↦{fullShare} R)) : sProp 𝕄) := by
  unfold Dat.arrays
  rw [bigSep_W0, (arr_whole0 0).set_eq_univ, (arr_whole0 2).set_eq_univ, share0, share1, share2, h0, h1, h2]
  iintro ⟨H0, H1, H2⟩
  isplitl [H0 H1]
  · iapply (pointsTo_share (PosShare.mem_left_op_right fullShare)).2
    isplitl [H0] <;> iassumption
  · iexact H2

/-- and split again. -/
theorem arrays_of_pts (c : Dev nD) (G : Buf (Elt F) ((c : Thread nD τ).loc main_v9)) (R : Buf (Elt F) ((c : Thread nD τ).loc main_v10))
    (Fa : (w : Fin cfg0.W) → Buf (Elt F) ((cfg0.win w).arr.view.loc (c : Thread nD τ)))
    (h0 : Fa 0 = G) (h1 : Fa 1 = G) (h2 : Fa 2 = R) :
    (iprop((((c : Thread nD τ).loc main_v9) ↦{fullShare} G) ∗ (((c : Thread nD τ).loc main_v10) ↦{fullShare} R)) : sProp 𝕄) ⊢ (dats m 0 c).arrays Fa := by
  unfold Dat.arrays
  rw [bigSep_W0, (arr_whole0 0).set_eq_univ, (arr_whole0 2).set_eq_univ, share0, share1, share2, h0, h1, h2]
  iintro ⟨HG, H2⟩
  ihave HG := (pointsTo_share (PosShare.mem_left_op_right fullShare)).1 $$ HG
  icases HG with ⟨H0, H1⟩
  isplitl [H0]; · iexact H0
  isplitl [H1]; · iexact H1
  iexact H2

end Cert.Kernel.Hand

end
-- ==== Proof.BLaunch.lean ====
/-
  The streaming kernel's frame: the run of @main.

  The library's launch theorem for a region whose windows may share arrays, followed by more host operations, applied
  to the proof data of KFrame: the normalized matrix's share is split between its two windows at the entry and joined
  again at the exit, where the sixteen host operations run on whole buffers. The run ends with every buffer no window
  stages — the two arguments and the scalar result among them — at what the sixteen operations leave from the region's exit
  contents (`Wend`): the normalized matrix as the region found it, the result's array as the write-backs left it.
-/
import proofs.«142451_j57836029608255_1_alg».proof.Proof.BEnds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's exit contents of the two distinct buffers: the normalized matrix as found, the result's array after every write-back. -/
def Aexit (c : Dev nD) : (w : Fin 2) → Buf (Elt F) ((spec1 w).arr.view.loc (c : Thread nD τ)) := fun w => match w with
  | ⟨0, _⟩ => V m c main_v9
  | ⟨1, _⟩ => (dats m 0 c).arrAt 2 cfg0.N

/-- Every buffer's contents when @main returns: the sixteen operations from the region's exit. -/
def Wend (c : Dev nD) : Valuation τ sig (Elt F) :=
  StableHlo.after (List.flatten [hostOps1]) (Pipeline.withArrays spec1 c (V0 m c) (Aexit m c))

theorem arr_unscoped1 : ∀ w, (Pipeline.arrRef spec1 w).isScoped = false := by decide

theorem sfx_sub : ∀ ops ∈ ([hostOps1] : List (List (HloOp τ sig (Elt F)))), ∀ op ∈ ops,
    op.bufs ⊆ Pipeline.tailRefs sig Pipeline.Prefetch.none spec1 := by
  rw [Pipeline.tailRefs_none spec1 arr_unscoped1]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of the sixteen operations writes the normalized matrix or the result's array. -/
theorem sfx_keeps : ∀ ops ∈ ([hostOps1] : List (List (HloOp τ sig (Elt F)))), ∀ op ∈ ops,
    ∀ w, Proc.devRef .tc (Pipeline.arrRef spec1 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- The buffers no window stages are the same for the three windows and for the two. -/
theorem rest_eq (c : Dev nD) (W : (b : Ref sig .tc) → Buf (Elt F) ((c : Thread nD τ).loc b)) :
    (Pipeline.unscopedRestP (Ix := Unit) (Name := ℕ) (U := UR sig nD τ) (Lvl := ℕ) Pipeline.Prefetch.none spec0 c W : sProp 𝕄)
      = Pipeline.unscopedRestP Pipeline.Prefetch.none spec1 c W := by
  unfold Pipeline.unscopedRestP; rw [img_eq]

/-- At the entry: the two distinct buffers whole are the proof data's arrays (the normalized matrix's share split). -/
theorem hsplit (c : Dev nD) : (Pipeline.arrBufs spec0 c (V m c) : sProp 𝕄) ⊢ (dats m 0 c).arrays ((dats m 0 c).arrAt · 0) := by
  have e : (Pipeline.arrBufs spec0 c (V m c) : sProp 𝕄)
      = iprop((((c : Thread nD τ).loc main_v9) ↦{fullShare} V m c main_v9) ∗ (((c : Thread nD τ).loc main_v10) ↦{fullShare} V m c main_v10)) := by
    unfold Pipeline.arrBufs
    rw [← img_eq, show Finset.univ.image (Pipeline.arrRef spec1) = Finset.univ.map ⟨Pipeline.arrRef spec1, arr_inj1⟩ from
      (Finset.map_eq_image ⟨Pipeline.arrRef spec1, arr_inj1⟩ Finset.univ).symm, bigSep_map, bigSep_W1]
    rfl
  rw [e]
  exact arrays_of_pts m c (V m c main_v9) (V m c main_v10) _ (A_eq m c 0) (A_eq m c 1) (A_eq m c 2)

/-- The region's exit, the halves of the normalized matrix joined: the two distinct buffers whole. -/
theorem exit_of_arrays (c : Dev nD) :
    (dats m 0 c).arrays ((dats m 0 c).arrAt · cfg0.N) ⊢ (Pipeline.arrPts spec1 c (Aexit m c) : sProp 𝕄) := by
  have e : (Pipeline.arrPts spec1 c (Aexit m c) : sProp 𝕄)
      = iprop((((c : Thread nD τ).loc main_v9) ↦{fullShare} V m c main_v9) ∗ (((c : Thread nD τ).loc main_v10) ↦{fullShare} (dats m 0 c).arrAt 2 cfg0.N)) := by
    unfold Pipeline.arrPts; rw [bigSep_W1]; rfl
  rw [e]
  exact pts_of_arrays m c (V m c main_v9) ((dats m 0 c).arrAt 2 cfg0.N) _
    (((dats m 0 c).arrAt_in 0 rfl _).trans (A_eq m c 0)) (((dats m 0 c).arrAt_in 1 rfl _).trans (A_eq m c 1)) rfl

theorem arrays_of_exit (c : Dev nD) :
    (Pipeline.arrPts spec1 c (Aexit m c) : sProp 𝕄) ⊢ (dats m 0 c).arrays ((dats m 0 c).arrAt · cfg0.N) := by
  have e : (Pipeline.arrPts spec1 c (Aexit m c) : sProp 𝕄)
      = iprop((((c : Thread nD τ).loc main_v9) ↦{fullShare} V m c main_v9) ∗ (((c : Thread nD τ).loc main_v10) ↦{fullShare} (dats m 0 c).arrAt 2 cfg0.N)) := by
    unfold Pipeline.arrPts; rw [bigSep_W1]; rfl
  rw [e]
  exact arrays_of_pts m c (V m c main_v9) ((dats m 0 c).arrAt 2 cfg0.N) _
    (((dats m 0 c).arrAt_in 0 rfl _).trans (A_eq m c 0)) (((dats m 0 c).arrAt_in 1 rfl _).trans (A_eq m c 1)) rfl

/-- No table is prefetched. -/
abbrev adm : (p : Fin 1) → (pcfgs (F := F) p).Adm := fun p => (cfgs p).toPCfg_adm

set_option backward.isDefEq.respectTransparency.types false in
/-- At the compiled mesh, for any float values, from any memory with zero counters: every weakly fair execution of @main
    terminates, nothing faulting, and every buffer no window stages ends at what the sixteen operations after the region
    leave from the region's exit contents. -/
theorem run_main : θ_run defs (onTc (τ := τ) (main (F := F))) (s₀ m ρ)
    (fun r => ∀ c : Dev nD, ∀ b ∈ Pipeline.restRefsP sig Pipeline.Prefetch.none spec1,
      r.2.mem ((c : Thread nD τ).loc b) = Wend m c (Proc.devRef .tc b)) := by
  classical
  exact Pipeline.θ_run_region_pf_tail (pcfgs (F := F)) adm (dats m) () cellOf_inj 0 winFacts₀0 (Pipeline.OwnSemFacts.none spec0)
    (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec1 c (V m c))
    (Z' := fun c => Pipeline.unscopedRestP (Ix := Unit) (Name := ℕ) (U := UR sig nD τ) (Lvl := ℕ) Pipeline.Prefetch.none spec1 c (fun b => Wend m c (Proc.devRef .tc b)))
    (hX := fun c => by
      rw [rest_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have h := Pipeline.tail_seqs (pcfgs (F := F)) defs₀ Variants.none Pipeline.Prefetch.none spec1 arr_inj1 c (V0 m c) (Aexit m c)
        [hostOps1] sfx_sub sfx_fresh sfx_keeps Q'
      refine BIBase.Entails.trans ?_ h
      iintro ⟨Hk, Hb, Ha, Hz⟩
      isplitl [Hk]
      · iintro ⟨Ha, Hz⟩
        iapply Hk
        isplitl [Ha]
        · iapply (arrays_of_exit m c); iexact Ha
        · iexact Hz
      isplitl [Hb]; · iexact Hb
      isplitl [Ha]
      · iapply (exit_of_arrays m c); iexact Ha
      · iexact Hz)
    (QY := fun c s => ∀ b ∈ Pipeline.restRefsP sig Pipeline.Prefetch.none spec1, s.mem ((c : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec1) (fun b => (c : Thread nD τ).loc b) (fun b => Wend m c (Proc.devRef .tc b)) s')
      isplitl [HU] <;> iassumption)
    (hQ := fun s h c => (h c).2.2)

/-- info: 'Cert.Kernel.Hand.run_main' depends on axioms: [propext, Classical.choice, Quot.sound] -/
#guard_msgs in #print axioms run_main

/-- No host operation writes an argument: each reaches the end as launched. -/
theorem not_written0 (b : Ref sig .tc) (hb : b = main_arg0 ∨ b = main_arg1) :
    ∀ op ∈ (hostOps0 (F := F)), Proc.devRef .tc b ∉ op.writes := by
  intro op hop
  simp only [hostOps0, List.mem_cons, List.mem_nil_iff, or_false] at hop
  rcases hb with rfl | rfl <;>
  (rcases hop with rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide))

theorem not_written1 (b : Ref sig .tc) (hb : b = main_arg0 ∨ b = main_arg1) :
    ∀ op ∈ (hostOps1 (F := F)), Proc.devRef .tc b ∉ op.writes := by
  intro op hop
  simp only [hostOps1, List.mem_cons, List.mem_nil_iff, or_false] at hop
  rcases hb with rfl | rfl <;>
  (rcases hop with rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide))

/-- An argument's final contents are its launch contents. -/
theorem Wend_arg (c : Dev nD) (b : Ref sig .tc) (hb : b = main_arg0 ∨ b = main_arg1) :
    Wend m c (Proc.devRef .tc b) = m ((c : Thread nD τ).loc b) := by
  unfold Wend
  rw [List.flatten_cons, List.flatten_nil, List.append_nil,
    StableHlo.after_of_forall_not_mem (b := Proc.devRef .tc b) hostOps1 _ (not_written1 b hb),
    Pipeline.withArrays_of_ne spec1 c (V0 m c) (Aexit m c) b (by rcases hb with rfl | rfl <;> decide)]
  show StableHlo.after (List.flatten [hostOps0]) (fun b => m (c, b)) (Proc.devRef .tc b) = _
  rw [List.flatten_cons, List.flatten_nil, List.append_nil]
  exact StableHlo.after_of_forall_not_mem (b := Proc.devRef .tc b) hostOps0 _ (not_written0 b hb)

/-- THE FRAME: every weakly fair execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c) main_arg0 (by decide)).trans (Wend_arg m c main_arg0 (.inl rfl)),
    ((h c) main_arg1 (by decide)).trans (Wend_arg m c main_arg1 (.inr rfl))⟩) (run_main m ρ)

end Cert.Kernel.Hand

end
-- ==== Proof.KRuns.lean ====
/-
  The streaming kernel's frame, first part: what its three case-by-case runs share.

  @main is twelve host operations (the rows joined, squared, summed, rooted, clamped from below, divided: the normalized
  matrix), one kernel region on a 4 × 16 grid, and sixteen host operations after it. The region's windows: a block of
  2048 rows (window 0) and a block of 512 rows (window 1) of the SAME normalized matrix, and a 2048 × 1 block of the
  result (window 2), written back once per row block, at the last of its 16 column steps. Between the column steps of
  a row block the body keeps a running maximum and a running sum in two 2048 × 1 scratch buffers; it resets them at
  column step 0 and stores into the result's block only at column step 15. So a grid point is in one of three cases:
  column step 0 (reset), 1 … 14 (accumulate), 15 (accumulate and finish).
-/
import proofs.«142451_j57836029608255_1_alg».proof.Proof.Gen.KernelIdeal.Launch
import proofs.«142451_j57836029608255_1_alg».proof.Proof.Gen.KernelIdeal.Skeleton
import proofs.«142451_j57836029608255_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: the twelve operations before it have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the sixteen later operations, at the contents after the twelve earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The input windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block's staging buffer holds its block at every point, fetched there or not (its index does not move within
    a row block), for any proof data whose array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the column block's staging buffer (fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "This is column step 0": the condition of the reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "This is column step 15": the condition of the final store. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from column step 15 the result's block is neither stored into nor written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At column step 15 it is stored into. -/
theorem liveAt0_2 : ∀ t : Fin cfg0.N, cond0_1 (grid0.coords t) → cfg0.idle 2 (grid0.coords t) = false := by decide +kernel

/-! ## The memrefs the body is called with -/

abbrev VO0_2 : View sig .tc .vmem S2048x1 .f32 := (Memref.whole cc0_stg2_0 : Memref sig .tc .vmem S2048x1 .f32).view
abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .f32 := win0_2.stage (cfg0.slots t 2)
abbrev hs0_2 (t : Fin cfg0.N) : (ms0_2 t).IsWhole := hstage0_2 ((cfg0.slots t 2).cast nbuf0_2)
/-- The running maximum's and the running sum's scratch buffers. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/-
  The streaming kernel's frame: the body's run in case A — column step 0: both scratch buffers are reset, then the step's block is folded in; nothing is stored into the result's block.
-/
import proofs.«142451_j57836029608255_1_alg».proof.Proof.KRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers in case A, with the proof that on whole memrefs —
    the two input blocks at their contents `x0`, `x1`, the result's block at contents handed back untouched — the body runs to its return holding the inputs as
    they were and each buffer it stored into with those pieces written. -/
noncomputable def kernelRun0_A (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__flash_lse_kernel i arg2 harg2 arg3 harg3 arg4 harg4 arg5 harg5 arg6 harg6) K } := by
  refine ⟨[], ?_, ?_, fun xi2 E K => ?run⟩
  case run =>
    simp only [cc0__flash_lse_kernel_eq_skeleton]; unfold cc0__flash_lse_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KRunB.lean ====
/-
  The streaming kernel's frame: the body's run in case B — column steps 1 … 14: the step's block is folded into the running maximum and sum the step before left; nothing is stored into the result's block.
-/
import proofs.«142451_j57836029608255_1_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers in case B, with the proof that on whole memrefs —
    the two input blocks at their contents `x0`, `x1`, the result's block at contents handed back untouched — the body runs to its return holding the inputs as
    they were and each buffer it stored into with those pieces written. -/
noncomputable def kernelRun0_B (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) :
    Σ' (L2 : List (View.Piece (Elt F) S2048x1 .f32)) (LS0 : List (View.Piece (Elt F) S2048x1 .f32)), { LS1 : List (View.Piece (Elt F) S2048x1 .f32) //
      ∀ (xi2 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__flash_lse_kernel i arg2 harg2 arg3 harg3 arg4 harg4 arg5 harg5 arg6 harg6) K } := by
  refine ⟨[], ?_, ?_, fun xi2 E K => ?run⟩
  case run =>
    simp only [cc0__flash_lse_kernel_eq_skeleton]; unfold cc0__flash_lse_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.KRunC.lean ====
/-
  The streaming kernel's frame: the body's run in case C — column step 15: the last block is folded in and maximum + log(sum) is stored into the result's block.
-/
import proofs.«142451_j57836029608255_1_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two scratch buffers and in the result's block in case C, with the proof that on whole memrefs —
    the two input blocks at their contents `x0`, `x1` — the body runs to its return holding the inputs as
    they were and each buffer it stored into with those pieces written. -/
noncomputable def kernelRun0_C (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) :
    Σ' (L2 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__flash_lse_kernel i arg2 harg2 arg3 harg3 arg4 harg4 arg5 harg5 arg6 harg6) K } := by
  refine ⟨?_, ?_, ?_, fun E K => ?run⟩
  case run =>
    simp only [cc0__flash_lse_kernel_eq_skeleton]; unfold cc0__flash_lse_kernel_skel
    simp only [k0_part1_eq_skeleton]; unfold k0_part1_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KFrame.lean ====
/-
  The streaming kernel's frame, last part: what the scratch buffers and the result's block hold after each grid point,
  the proof data, and the body obligation.

  After the body at point `n` the two scratch buffers hold the running maximum and the running sum of the row block's
  first `n % 16 + 1` column blocks (`outsAt0`'s second and third components): at column step 0 they are computed from the
  reset values, at later steps from what the step before left. At column step 15 the result's block holds
  maximum + log(sum) (`outsAt0`'s first component); at the other steps it is not stored into and not written back.
  The normalized matrix is read through two windows; the proof data deal its share as the left half to the row-block
  window and the right half to the column-block window.
-/
import proofs.«142451_j57836029608255_1_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the result's block (nothing is stored there: a placeholder nothing consults). -/
def out0_A_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) : Vec F S2048x1 .f32 :=
  VO0_2.read (Elt F) (VO0_2.writes (Elt F) VO0_2.junk (kernelRun0_A c i arg2 harg2 arg3 harg3 arg4 harg4 arg5 harg5 arg6 harg6 hc0 hc1 x0 x1).1)

/-- Case A's stores into the running maximum's buffer cover it. -/
theorem scover0_A_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) (y : S2048x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S2048x1.size (by sl_kernel_rfl) y

/-- What case A leaves in the running maximum's buffer. -/
def sout0_A_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) : Vec F S2048x1 .f32 :=
  VS0_0.read (Elt F) (VS0_0.writes (Elt F) VS0_0.junk (kernelRun0_A c i arg2 harg2 arg3 harg3 arg4 harg4 arg5 harg5 arg6 harg6 hc0 hc1 x0 x1).2.1)

/-- Case A's stores into the running sum's buffer cover it. -/
theorem scover0_A_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) (y : S2048x1.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S2048x1.size (by sl_kernel_rfl) y

/-- What case A leaves in the running sum's buffer. -/
def sout0_A_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) : Vec F S2048x1 .f32 :=
  VS0_1.read (Elt F) (VS0_1.writes (Elt F) VS0_1.junk (kernelRun0_A c i arg2 harg2 arg3 harg3 arg4 harg4 arg5 harg5 arg6 harg6 hc0 hc1 x0 x1).2.2.1)

/-- What case B leaves in the result's block (nothing is stored there: a placeholder nothing consults). -/
def out0_B_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) : Vec F S2048x1 .f32 :=
  VO0_2.read (Elt F) (VO0_2.writes (Elt F) VO0_2.junk (kernelRun0_B c i arg2 harg2 arg3 harg3 arg4 harg4 arg5 harg5 arg6 harg6 hc0 hc1 x0 x1 xs0 xs1).1)

/-- Case B's stores into the running maximum's buffer cover it. -/
theorem scover0_B_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) (y : S2048x1.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S2048x1.size (by sl_kernel_rfl) y

/-- What case B leaves in the running maximum's buffer. -/
def sout0_B_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 hc0 hc1 x0 x1 xs0 xs1).2.1)

/-- Case B's stores into the running sum's buffer cover it. -/
theorem scover0_B_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) (y : S2048x1.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S2048x1.size (by sl_kernel_rfl) y

/-- What case B leaves in the running sum's buffer. -/
def sout0_B_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 hc0 hc1 x0 x1 xs0 xs1).2.2.1)

/-- What case C leaves in the result's block: its one store read back. -/
def out0_C_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) : Vec F S2048x1 .f32 :=
  VO0_2.read (Elt F) (VO0_2.writes (Elt F) VO0_2.junk (kernelRun0_C c i arg2 harg2 arg3 harg3 arg4 harg4 arg5 harg5 arg6 harg6 hc0 hc1 x0 x1 xs0 xs1).1)

theorem cover0_C_2 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) (y : S2048x1.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S2048x1.size (by sl_kernel_rfl) y

/-- Case C's stores into the running maximum's buffer cover it. -/
theorem scover0_C_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) (y : S2048x1.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S2048x1.size (by sl_kernel_rfl) y

/-- What case C leaves in the running maximum's buffer. -/
def sout0_C_0 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 hc0 hc1 x0 x1 xs0 xs1).2.1)

/-- Case C's stores into the running sum's buffer cover it. -/
theorem scover0_C_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) (y : S2048x1.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S2048x1.size (by sl_kernel_rfl) y

/-- What case C leaves in the running sum's buffer. -/
def sout0_C_1 (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 hc0 hc1 x0 x1 xs0 xs1).2.2.1)

/-! ## What the buffers hold after each point -/

/-- After the body at position `n`: the result's block, the running maximum, the running sum. -/
def outsAt0 (c : Dev nD) : (n : ℕ) → n < cfg0.N → Vec F S2048x1 .f32 × Vec F S2048x1 .f32 × Vec F S2048x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 16 = 0) (h1 : ¬t.val % 16 = 15) :
    outsAt0 m c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both scratch buffers at anything; afterwards each
    at what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The proof data -/

/-- The proof data on core `c`: the arrays as the region finds them; after the body each input's buffer at its block, the
    result's at `outsAt0`'s first component; the invariant above; nothing owed; the normalized matrix's share dealt as its
    left half to the row-block window and its right half to the column-block window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; that
    case's run applies, handed the scratch buffers at what the point before left (at anything at a column step 0) and
    taking them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 16 = 0
  · by_cases h1 : t.val % 16 = 15
    · exfalso; omega
    · rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ )
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1⟩, Hg⟩, Ho, ⟨%d0, H0⟩, ⟨%d1, H1⟩, ⟨%d2, H2⟩⟩
        iapply ((kernelRun0_A c (grid0.coords t) _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexists _; iexact HS0
        isplitl [HS1]; · iexists _; iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ )
          iexact Hg
        isplitl [Ho]; · iexact Ho
        isplitl [H0]; · iexact H0
        isplitl [H1]; · iexact H1
        iexists _; iexact H2
  · by_cases h1 : t.val % 16 = 15
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk m c 0 t) (iblk m c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ )
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _ )
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1; (try dsimp only)
      have hz : t.val ≠ 0 := by omega
      · rw [PhiS_castSucc m c t, PhiS_pos m c _ _ hz]
        iintro ⟨⟨⟨HS0, HS1⟩, Hg⟩, Ho, ⟨%d0, H0⟩, ⟨%d1, H1⟩, ⟨%d2, H2⟩⟩
        iapply ((kernelRun0_B c (grid0.coords t) _ _ _ _ _ _ _ _ _ _ (fun h => h0 ((hcond0_0 t).mp h)) (fun h => h1 ((hcond0_1 t).mp h)) (iblk m c 0 t) (iblk m c 1 t) _ _).2.2.2 _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ )
            · unfold owns; iexists _; isplitr
              swap; · iexact HS1
              ipureintro; exact View.read_writes_of_cover _ _ _ _ _ (scover0_B_1 c _ _ _ _ _ _ _ _ _ _ _ _ _ _ _ _ _ )
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- After the last point the invariant gives back what the launch handed it. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KPieces.lean ====
/-
  The streaming kernel: what each case's stores leave, as the body's arithmetic.

  The body's pure arithmetic is the skeleton's named terms: the masked scaled scores of a row block against a column
  block, the new running maximum from the old one, the new running sum from both, and maximum + log(sum). Read back
  through the whole-buffer stores, case by case: at column step 0 the new pair is computed from the reset values; at a
  later step from the pair the step before left; at column step 15 the result's block is maximum + log(sum) of the new pair.
-/
import proofs.«142451_j57836029608255_1_alg».proof.Proof.KFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- One column step on the running pair `(ms, ls)`, from a row block `x0` and a column block `x1` at grid point `i`. -/
def stepOf (i : grid0.Coords) (x0 : Vec F S2048x256 .bf16) (x1 : Vec F S512x256 .bf16) (ml : Vec F S2048x1 .f32 × Vec F S2048x1 .f32) :
    Vec F S2048x1 .f32 × Vec F S2048x1 .f32 :=
  (k0_pay2 (k0_pay7 i x0 x1 ml.1), k0_pay1 (k0_pay8 i x0 x1 ml.1 ml.1 ml.2))

theorem sout0_A_0_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) :
    sout0_A_0 c i arg2 harg2 arg3 harg3 arg4 harg4 arg5 harg5 arg6 harg6 hc0 hc1 x0 x1 = (k0_pay2 (k0_pay7 i x0 x1 (k0_pay4 (F := F)))) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  first
    | rw [View.canon_unit_zero hz]
    | rw [View.canon_cons_unit_zero (S := S2048x1) hz, View.readCov_unit_zero (S := S2048x1) _ hz]
  simp only [View.readAt_eq_ld, harg2.read_unread, harg3.read_unread, harg4.read_unread, harg5.read_unread, harg6.read_unread,
    View.ld_unit_zero (S := S2048x1) hz, View.ld_unit_zero (S := S2048x256) hz, View.ld_unit_zero (S := S512x256) hz,
    View.readCov_unit_zero (S := S2048x1) _ hz]
  try rfl

theorem sout0_A_1_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i) (hc1 : ¬cond0_1 i)
    (x0 : Vec F S2048x256 .bf16) (x1 : Vec F S512x256 .bf16) :
    sout0_A_1 c i arg2 harg2 arg3 harg3 arg4 harg4 arg5 harg5 arg6 harg6 hc0 hc1 x0 x1 = (k0_pay1 (k0_pay8 i x0 x1 (k0_pay4 (F := F)) (k0_pay4 (F := F)) (k0_pay5 (F := F)))) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  first
    | rw [View.canon_unit_zero hz]
    | rw [View.canon_cons_unit_zero (S := S2048x1) hz, View.readCov_unit_zero (S := S2048x1) _ hz]
  simp only [View.readAt_eq_ld, harg2.read_unread, harg3.read_unread, harg4.read_unread, harg5.read_unread, harg6.read_unread,
    View.ld_unit_zero (S := S2048x1) hz, View.ld_unit_zero (S := S2048x256) hz, View.ld_unit_zero (S := S512x256) hz,
    View.readCov_unit_zero (S := S2048x1) _ hz]
  try rfl

theorem sout0_B_0_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) :
    sout0_B_0 c i arg2 harg2 arg3 harg3 arg4 harg4 arg5 harg5 arg6 harg6 hc0 hc1 x0 x1 xs0 xs1 = (k0_pay2 (k0_pay7 i x0 x1 xs0)) := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  first
    | rw [View.canon_unit_zero hz]
    | rw [View.canon_cons_unit_zero (S := S2048x1) hz, View.readCov_unit_zero (S := S2048x1) _ hz]
  simp only [View.readAt_eq_ld, harg2.read_unread, harg3.read_unread, harg4.read_unread, harg5.read_unread, harg6.read_unread,
    View.ld_unit_zero (S := S2048x1) hz, View.ld_unit_zero (S := S2048x256) hz, View.ld_unit_zero (S := S512x256) hz,
    View.readCov_unit_zero (S := S2048x1) _ hz]
  try rfl

theorem sout0_B_1_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : ¬cond0_1 i)
    (x0 : Vec F S2048x256 .bf16) (x1 : Vec F S512x256 .bf16) (xs0 xs1 : Vec F S2048x1 .f32) :
    sout0_B_1 c i arg2 harg2 arg3 harg3 arg4 harg4 arg5 harg5 arg6 harg6 hc0 hc1 x0 x1 xs0 xs1 = (k0_pay1 (k0_pay8 i x0 x1 xs0 xs0 xs1)) := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  first
    | rw [View.canon_unit_zero hz]
    | rw [View.canon_cons_unit_zero (S := S2048x1) hz, View.readCov_unit_zero (S := S2048x1) _ hz]
  simp only [View.readAt_eq_ld, harg2.read_unread, harg3.read_unread, harg4.read_unread, harg5.read_unread, harg6.read_unread,
    View.ld_unit_zero (S := S2048x1) hz, View.ld_unit_zero (S := S2048x256) hz, View.ld_unit_zero (S := S512x256) hz,
    View.readCov_unit_zero (S := S2048x1) _ hz]
  try rfl

theorem sout0_C_0_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) :
    sout0_C_0 c i arg2 harg2 arg3 harg3 arg4 harg4 arg5 harg5 arg6 harg6 hc0 hc1 x0 x1 xs0 xs1 = (k0_pay2 (k0_pay7 i x0 x1 xs0)) := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  first
    | rw [View.canon_unit_zero hz]
    | rw [View.canon_cons_unit_zero (S := S2048x1) hz, View.readCov_unit_zero (S := S2048x1) _ hz]
  simp only [View.readAt_eq_ld, harg2.read_unread, harg3.read_unread, harg4.read_unread, harg5.read_unread, harg6.read_unread,
    View.ld_unit_zero (S := S2048x1) hz, View.ld_unit_zero (S := S2048x256) hz, View.ld_unit_zero (S := S512x256) hz,
    View.readCov_unit_zero (S := S2048x1) _ hz]
  try rfl

theorem sout0_C_1_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) :
    sout0_C_1 c i arg2 harg2 arg3 harg3 arg4 harg4 arg5 harg5 arg6 harg6 hc0 hc1 x0 x1 xs0 xs1 = (k0_pay1 (k0_pay8 i x0 x1 xs0 xs0 xs1)) := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  first
    | rw [View.canon_unit_zero hz]
    | rw [View.canon_cons_unit_zero (S := S2048x1) hz, View.readCov_unit_zero (S := S2048x1) _ hz]
  simp only [View.readAt_eq_ld, harg2.read_unread, harg3.read_unread, harg4.read_unread, harg5.read_unread, harg6.read_unread,
    View.ld_unit_zero (S := S2048x1) hz, View.ld_unit_zero (S := S2048x256) hz, View.ld_unit_zero (S := S512x256) hz,
    View.readCov_unit_zero (S := S2048x1) _ hz]
  try rfl

theorem out0_C_2_eq (c : Dev nD) (i : grid0.Coords) (arg2 : Memref sig .tc .vmem S2048x256 .bf16) (harg2 : arg2.IsWhole) (arg3 : Memref sig .tc .vmem S512x256 .bf16) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i) (hc1 : cond0_1 i)
    (x0 : Vec F S2048x256 .bf16) (x1 : Vec F S512x256 .bf16) (xs0 xs1 : Vec F S2048x1 .f32) :
    out0_C_2 c i arg2 harg2 arg3 harg3 arg4 harg4 arg5 harg5 arg6 harg6 hc0 hc1 x0 x1 xs0 xs1 = k0_pay3 (k0_pay2 (k0_pay7 i x0 x1 xs0)) (k0_pay1 (k0_pay8 i x0 x1 xs0 xs0 xs1)) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  first
    | rw [View.canon_unit_zero hz]
    | rw [View.canon_cons_unit_zero (S := S2048x1) hz, View.readCov_unit_zero (S := S2048x1) _ hz]
  simp only [View.readAt_eq_ld, harg2.read_unread, harg3.read_unread, harg4.read_unread, harg5.read_unread, harg6.read_unread,
    View.ld_unit_zero (S := S2048x1) hz, View.ld_unit_zero (S := S2048x256) hz, View.ld_unit_zero (S := S512x256) hz,
    View.readCov_unit_zero (S := S2048x1) _ hz]
  try rfl

end Cert.KernelIdeal.Hand

end
-- ==== Proof.KChain.lean ====
/-
  The streaming kernel: the running pair point by point.

  `chain n` is the pair (running maximum, running sum) after grid point `n`: one column step from the reset values when
  `n` is a column step 0, one column step from `chain (n - 1)` otherwise. What the frame's proof data say the scratch
  buffers hold after point `n` is this pair, and at a column step 15 the result's block is maximum + log(sum) of it.
-/
import proofs.«142451_j57836029608255_1_alg».proof.Proof.KPieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The reset values: the running maximum at -∞, the running sum at 0. -/
abbrev reset : Vec F S2048x1 .f32 × Vec F S2048x1 .f32 := (k0_pay4 (F := F), k0_pay5 (F := F))

/-- The running pair after point `n`. -/
def chain (c : Dev nD) : (n : ℕ) → n < cfg0.N → Vec F S2048x1 .f32 × Vec F S2048x1 .f32
  | 0, h => stepOf (grid0.coords ⟨0, h⟩) (iblk m c 0 ⟨0, h⟩) (iblk m c 1 ⟨0, h⟩) reset
  | n + 1, h =>
    if (n + 1) % 16 = 0 then stepOf (grid0.coords ⟨n + 1, h⟩) (iblk m c 0 ⟨n + 1, h⟩) (iblk m c 1 ⟨n + 1, h⟩) reset
    else stepOf (grid0.coords ⟨n + 1, h⟩) (iblk m c 0 ⟨n + 1, h⟩) (iblk m c 1 ⟨n + 1, h⟩) (chain c n (Nat.lt_of_succ_lt h))

theorem chain_zero (c : Dev nD) (h : 0 < cfg0.N) :
    chain m c 0 h = stepOf (grid0.coords ⟨0, h⟩) (iblk m c 0 ⟨0, h⟩) (iblk m c 1 ⟨0, h⟩) reset := rfl

theorem chain_succ_reset (c : Dev nD) (n : ℕ) (h : n + 1 < cfg0.N) (h0 : (n + 1) % 16 = 0) :
    chain m c (n + 1) h = stepOf (grid0.coords ⟨n + 1, h⟩) (iblk m c 0 ⟨n + 1, h⟩) (iblk m c 1 ⟨n + 1, h⟩) reset := by
  show (if (n + 1) % 16 = 0 then _ else _) = _; rw [if_pos h0]

theorem chain_succ_step (c : Dev nD) (n : ℕ) (h : n + 1 < cfg0.N) (h0 : ¬(n + 1) % 16 = 0) :
    chain m c (n + 1) h = stepOf (grid0.coords ⟨n + 1, h⟩) (iblk m c 0 ⟨n + 1, h⟩) (iblk m c 1 ⟨n + 1, h⟩) (chain m c n (Nat.lt_of_succ_lt h)) := by
  show (if (n + 1) % 16 = 0 then _ else _) = _; rw [if_neg h0]

/-- The scratch buffers after point `n` hold the running pair. -/
theorem outsAt_scr (c : Dev nD) : ∀ (n : ℕ) (h : n < cfg0.N), (outsAt0 m c n h).2 = chain m c n h
  | 0, h => by
    rw [outsAt0_A m c ⟨0, h⟩ rfl (by show ¬ (0 % 16 = 15); decide), chain_zero]
    dsimp only
    rw [sout0_A_0_eq, sout0_A_1_eq]; rfl
  | n + 1, h => by
    have hN : cfg0.N = 64 := N_0
    by_cases h0 : (n + 1) % 16 = 0
    · have h1 : ¬(n + 1) % 16 = 15 := by omega
      rw [outsAt0_A m c ⟨n + 1, h⟩ h0 h1, chain_succ_reset m c n h h0]
      dsimp only
      rw [sout0_A_0_eq, sout0_A_1_eq]; rfl
    · have ih := outsAt_scr c n (Nat.lt_of_succ_lt h)
      rw [chain_succ_step m c n h h0, ← ih]
      by_cases h1 : (n + 1) % 16 = 15
      · rw [outsAt0_C m c ⟨n + 1, h⟩ h0 h1]
        dsimp only
        rw [sout0_C_0_eq, sout0_C_1_eq]; rfl
      · rw [outsAt0_B m c ⟨n + 1, h⟩ h0 h1]
        dsimp only
        rw [sout0_B_0_eq, sout0_B_1_eq]; rfl

/-- At a column step 15 the result's block is maximum + log(sum) of the running pair there. -/
theorem outsAt_out (c : Dev nD) (t : Fin cfg0.N) (h1 : t.val % 16 = 15) :
    (outsAt0 m c t.val t.isLt).1 = k0_pay3 (chain m c t.val t.isLt).1 (chain m c t.val t.isLt).2 := by
  have hN : cfg0.N = 64 := N_0
  have h0 : ¬t.val % 16 = 0 := by omega
  obtain ⟨n, h⟩ := t
  cases n with
  | zero => exact absurd h1 (by show ¬ (0 % 16 = 15); decide)
  | succ n =>
    have ih := outsAt_scr m c n (Nat.lt_of_succ_lt h)
    rw [chain_succ_step m c n h h0, ← ih, outsAt0_C m c ⟨n + 1, h⟩ h0 h1]
    dsimp only
    rw [out0_C_2_eq]; rfl

end Cert.KernelIdeal.Hand

end
-- ==== Proof.KEnds.lean ====
/-
  The streaming kernel's frame: the region's two ends.

  The normalized matrix is one buffer read through two windows, so the proof data hold it as two half shares; the other
  array is the result's. At the region's entry the buffer's full share is split into the halves, and at its exit the halves
  are joined again, so that the sixteen host operations after the region — which read the normalized matrix — run on
  whole buffers. Seen through ONE window per distinct buffer (`spec1`: the column-block window and the result's) the
  region's arrays are two distinct whole buffers, which is the form the library's account of operations after a region
  takes.
-/
import proofs.«142451_j57836029608255_1_alg».proof.Proof.KFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One window per distinct buffer -/

/-- The column-block window (on the normalized matrix) and the result's window: between them, every buffer a window stages. -/
abbrev spec1 : Fin 2 → Pipeline.WinSpec sig grid0.rank := fun | 0 => spec0 1 | 1 => spec0 2 | ⟨_ + 2, h⟩ => absurd h (Nat.not_lt.2 (Nat.le_add_left _ _))

theorem arr_inj1 : Function.Injective (Pipeline.arrRef spec1) := by decide
/-- They stage the same buffers as the three windows do. -/
theorem img_eq : Finset.univ.image (Pipeline.arrRef spec1) = Finset.univ.image (Pipeline.arrRef spec0) := by decide

theorem bigSep_W1 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The proof data's arrays at contents `G` on the normalized matrix (through both windows) and `R` on the result are the
    two buffers whole at those contents: the halves joined, -/
theorem pts_of_arrays (c : Dev nD) (G : Buf (Elt F) ((c : Thread nD τ).loc main_v9)) (R : Buf (Elt F) ((c : Thread nD τ).loc main_v10))
    (Fa : (w : Fin cfg0.W) → Buf (Elt F) ((cfg0.win w).arr.view.loc (c : Thread nD τ)))
    (h0 : Fa 0 = G) (h1 : Fa 1 = G) (h2 : Fa 2 = R) :
    (dats m 0 c).arrays Fa ⊢ (iprop((((c : Thread nD τ).loc main_v9) ↦{fullShare} G) ∗ (((c : Thread nD τ).loc main_v10) ↦{fullShare} R)) : sProp 𝕄) := by
  unfold Dat.arrays
  rw [bigSep_W0, (arr_whole0 0).set_eq_univ, (arr_whole0 2).set_eq_univ, share0, share1, share2, h0, h1, h2]
  iintro ⟨H0, H1, H2⟩
  isplitl [H0 H1]
  · iapply (pointsTo_share (PosShare.mem_left_op_right fullShare)).2
    isplitl [H0] <;> iassumption
  · iexact H2

/-- and split again. -/
theorem arrays_of_pts (c : Dev nD) (G : Buf (Elt F) ((c : Thread nD τ).loc main_v9)) (R : Buf (Elt F) ((c : Thread nD τ).loc main_v10))
    (Fa : (w : Fin cfg0.W) → Buf (Elt F) ((cfg0.win w).arr.view.loc (c : Thread nD τ)))
    (h0 : Fa 0 = G) (h1 : Fa 1 = G) (h2 : Fa 2 = R) :
    (iprop((((c : Thread nD τ).loc main_v9) ↦{fullShare} G) ∗ (((c : Thread nD τ).loc main_v10) ↦{fullShare} R)) : sProp 𝕄) ⊢ (dats m 0 c).arrays Fa := by
  unfold Dat.arrays
  rw [bigSep_W0, (arr_whole0 0).set_eq_univ, (arr_whole0 2).set_eq_univ, share0, share1, share2, h0, h1, h2]
  iintro ⟨HG, H2⟩
  ihave HG := (pointsTo_share (PosShare.mem_left_op_right fullShare)).1 $$ HG
  icases HG with ⟨H0, H1⟩
  isplitl [H0]; · iexact H0
  isplitl [H1]; · iexact H1
  iexact H2

end Cert.KernelIdeal.Hand

end
-- ==== Proof.KLaunch.lean ====
/-
  The streaming kernel's frame: the run of @main.

  The library's launch theorem for a region whose windows may share arrays, followed by more host operations, applied
  to the proof data of KFrame: the normalized matrix's share is split between its two windows at the entry and joined
  again at the exit, where the sixteen host operations run on whole buffers. The run ends with every buffer no window
  stages — the two arguments and the scalar result among them — at what the sixteen operations leave from the region's exit
  contents (`Wend`): the normalized matrix as the region found it, the result's array as the write-backs left it.
-/
import proofs.«142451_j57836029608255_1_alg».proof.Proof.KEnds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's exit contents of the two distinct buffers: the normalized matrix as found, the result's array after every write-back. -/
def Aexit (c : Dev nD) : (w : Fin 2) → Buf (Elt F) ((spec1 w).arr.view.loc (c : Thread nD τ)) := fun w => match w with
  | ⟨0, _⟩ => V m c main_v9
  | ⟨1, _⟩ => (dats m 0 c).arrAt 2 cfg0.N

/-- Every buffer's contents when @main returns: the sixteen operations from the region's exit. -/
def Wend (c : Dev nD) : Valuation τ sig (Elt F) :=
  StableHlo.after (List.flatten [hostOps1]) (Pipeline.withArrays spec1 c (V0 m c) (Aexit m c))

theorem arr_unscoped1 : ∀ w, (Pipeline.arrRef spec1 w).isScoped = false := by decide

theorem sfx_sub : ∀ ops ∈ ([hostOps1] : List (List (HloOp τ sig (Elt F)))), ∀ op ∈ ops,
    op.bufs ⊆ Pipeline.tailRefs sig Pipeline.Prefetch.none spec1 := by
  rw [Pipeline.tailRefs_none spec1 arr_unscoped1]
  intro ops hops op hop
  simp only [List.mem_cons, List.mem_nil_iff, or_false] at hops
  rcases hops with rfl
  · exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- None of the sixteen operations writes the normalized matrix or the result's array. -/
theorem sfx_keeps : ∀ ops ∈ ([hostOps1] : List (List (HloOp τ sig (Elt F)))), ∀ op ∈ ops,
    ∀ w, Proc.devRef .tc (Pipeline.arrRef spec1 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.reshape_writes, Finset.mem_singleton] <;> exact StableHlo.devRef_ne_of_ne (by decide)

/-- The buffers no window stages are the same for the three windows and for the two. -/
theorem rest_eq (c : Dev nD) (W : (b : Ref sig .tc) → Buf (Elt F) ((c : Thread nD τ).loc b)) :
    (Pipeline.unscopedRestP (Ix := Unit) (Name := ℕ) (U := UR sig nD τ) (Lvl := ℕ) Pipeline.Prefetch.none spec0 c W : sProp 𝕄)
      = Pipeline.unscopedRestP Pipeline.Prefetch.none spec1 c W := by
  unfold Pipeline.unscopedRestP; rw [img_eq]

/-- At the entry: the two distinct buffers whole are the proof data's arrays (the normalized matrix's share split). -/
theorem hsplit (c : Dev nD) : (Pipeline.arrBufs spec0 c (V m c) : sProp 𝕄) ⊢ (dats m 0 c).arrays ((dats m 0 c).arrAt · 0) := by
  have e : (Pipeline.arrBufs spec0 c (V m c) : sProp 𝕄)
      = iprop((((c : Thread nD τ).loc main_v9) ↦{fullShare} V m c main_v9) ∗ (((c : Thread nD τ).loc main_v10) ↦{fullShare} V m c main_v10)) := by
    unfold Pipeline.arrBufs
    rw [← img_eq, show Finset.univ.image (Pipeline.arrRef spec1) = Finset.univ.map ⟨Pipeline.arrRef spec1, arr_inj1⟩ from
      (Finset.map_eq_image ⟨Pipeline.arrRef spec1, arr_inj1⟩ Finset.univ).symm, bigSep_map, bigSep_W1]
    rfl
  rw [e]
  exact arrays_of_pts m c (V m c main_v9) (V m c main_v10) _ (A_eq m c 0) (A_eq m c 1) (A_eq m c 2)

/-- The region's exit, the halves of the normalized matrix joined: the two distinct buffers whole. -/
theorem exit_of_arrays (c : Dev nD) :
    (dats m 0 c).arrays ((dats m 0 c).arrAt · cfg0.N) ⊢ (Pipeline.arrPts spec1 c (Aexit m c) : sProp 𝕄) := by
  have e : (Pipeline.arrPts spec1 c (Aexit m c) : sProp 𝕄)
      = iprop((((c : Thread nD τ).loc main_v9) ↦{fullShare} V m c main_v9) ∗ (((c : Thread nD τ).loc main_v10) ↦{fullShare} (dats m 0 c).arrAt 2 cfg0.N)) := by
    unfold Pipeline.arrPts; rw [bigSep_W1]; rfl
  rw [e]
  exact pts_of_arrays m c (V m c main_v9) ((dats m 0 c).arrAt 2 cfg0.N) _
    (((dats m 0 c).arrAt_in 0 rfl _).trans (A_eq m c 0)) (((dats m 0 c).arrAt_in 1 rfl _).trans (A_eq m c 1)) rfl

theorem arrays_of_exit (c : Dev nD) :
    (Pipeline.arrPts spec1 c (Aexit m c) : sProp 𝕄) ⊢ (dats m 0 c).arrays ((dats m 0 c).arrAt · cfg0.N) := by
  have e : (Pipeline.arrPts spec1 c (Aexit m c) : sProp 𝕄)
      = iprop((((c : Thread nD τ).loc main_v9) ↦{fullShare} V m c main_v9) ∗ (((c : Thread nD τ).loc main_v10) ↦{fullShare} (dats m 0 c).arrAt 2 cfg0.N)) := by
    unfold Pipeline.arrPts; rw [bigSep_W1]; rfl
  rw [e]
  exact arrays_of_pts m c (V m c main_v9) ((dats m 0 c).arrAt 2 cfg0.N) _
    (((dats m 0 c).arrAt_in 0 rfl _).trans (A_eq m c 0)) (((dats m 0 c).arrAt_in 1 rfl _).trans (A_eq m c 1)) rfl

/-- No table is prefetched. -/
abbrev adm : (p : Fin 1) → (pcfgs (F := F) p).Adm := fun p => (cfgs p).toPCfg_adm

set_option backward.isDefEq.respectTransparency.types false in
/-- At the compiled mesh, for any float values, from any memory with zero counters: every weakly fair execution of @main
    terminates, nothing faulting, and every buffer no window stages ends at what the sixteen operations after the region
    leave from the region's exit contents. -/
theorem run_main : θ_run defs (onTc (τ := τ) (main (F := F))) (s₀ m ρ)
    (fun r => ∀ c : Dev nD, ∀ b ∈ Pipeline.restRefsP sig Pipeline.Prefetch.none spec1,
      r.2.mem ((c : Thread nD τ).loc b) = Wend m c (Proc.devRef .tc b)) := by
  classical
  exact Pipeline.θ_run_region_pf_tail (pcfgs (F := F)) adm (dats m) () cellOf_inj 0 winFacts₀0 (Pipeline.OwnSemFacts.none spec0)
    (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec1 c (V m c))
    (Z' := fun c => Pipeline.unscopedRestP (Ix := Unit) (Name := ℕ) (U := UR sig nD τ) (Lvl := ℕ) Pipeline.Prefetch.none spec1 c (fun b => Wend m c (Proc.devRef .tc b)))
    (hX := fun c => by
      rw [rest_eq]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => by
      have h := Pipeline.tail_seqs (pcfgs (F := F)) defs₀ Variants.none Pipeline.Prefetch.none spec1 arr_inj1 c (V0 m c) (Aexit m c)
        [hostOps1] sfx_sub sfx_fresh sfx_keeps Q'
      refine BIBase.Entails.trans ?_ h
      iintro ⟨Hk, Hb, Ha, Hz⟩
      isplitl [Hk]
      · iintro ⟨Ha, Hz⟩
        iapply Hk
        isplitl [Ha]
        · iapply (arrays_of_exit m c); iexact Ha
        · iexact Hz
      isplitl [Hb]; · iexact Hb
      isplitl [Ha]
      · iapply (exit_of_arrays m c); iexact Ha
      · iexact Hz)
    (QY := fun c s => ∀ b ∈ Pipeline.restRefsP sig Pipeline.Prefetch.none spec1, s.mem ((c : Thread nD τ).loc b) = Wend m c (Proc.devRef .tc b))
    (hY := fun c s' => by
      iintro ⟨-, HU, HSI⟩
      unfold Pipeline.unscopedRestP
      imodintro
      iapply (pointsTo_read_all (Pipeline.restRefsP sig Pipeline.Prefetch.none spec1) (fun b => (c : Thread nD τ).loc b) (fun b => Wend m c (Proc.devRef .tc b)) s')
      isplitl [HU] <;> iassumption)
    (hQ := fun s h c => (h c).2.2)

/-- info: 'Cert.KernelIdeal.Hand.run_main' depends on axioms: [propext, Classical.choice, Quot.sound] -/
#guard_msgs in #print axioms run_main

/-- No host operation writes an argument: each reaches the end as launched. -/
theorem not_written0 (b : Ref sig .tc) (hb : b = main_arg0 ∨ b = main_arg1) :
    ∀ op ∈ (hostOps0 (F := F)), Proc.devRef .tc b ∉ op.writes := by
  intro op hop
  simp only [hostOps0, List.mem_cons, List.mem_nil_iff, or_false] at hop
  rcases hb with rfl | rfl <;>
  (rcases hop with rfl | rfl | rfl | rfl | rfl | rfl | rfl | rfl | rfl | rfl | rfl | rfl <;>
    simp only [StableHlo.unary_writes, StableHlo.binary_writes, StableHlo.nullary_writes, Finset.mem_singleton] <;>
    exact StableHlo.devRef_ne_of_ne (by decide))

theorem not_written1 (b : Ref sig .tc) (hb : b = main_arg0 ∨ b = main_arg1) :
    ∀ op ∈ (hostOps1 (F := F)), Proc.devRef .tc b ∉ op.writes := by
  intro op hop
  simp only [hostOps1, List.mem_cons, List.mem_nil_iff, or_false] at hop
  rcases hb with rfl | rfl <;>
  (rcases hop with rfl | rfl | rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by decide))

/-- An argument's final contents are its launch contents. -/
theorem Wend_arg (c : Dev nD) (b : Ref sig .tc) (hb : b = main_arg0 ∨ b = main_arg1) :
    Wend m c (Proc.devRef .tc b) = m ((c : Thread nD τ).loc b) := by
  unfold Wend
  rw [List.flatten_cons, List.flatten_nil, List.append_nil,
    StableHlo.after_of_forall_not_mem (b := Proc.devRef .tc b) hostOps1 _ (not_written1 b hb),
    Pipeline.withArrays_of_ne spec1 c (V0 m c) (Aexit m c) b (by rcases hb with rfl | rfl <;> decide)]
  show StableHlo.after (List.flatten [hostOps0]) (fun b => m (c, b)) (Proc.devRef .tc b) = _
  rw [List.flatten_cons, List.flatten_nil, List.append_nil]
  exact StableHlo.after_of_forall_not_mem (b := Proc.devRef .tc b) hostOps0 _ (not_written0 b hb)

/-- THE FRAME: every weakly fair execution terminates, nothing faulting, with both arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c) main_arg0 (by decide)).trans (Wend_arg m c main_arg0 (.inl rfl)),
    ((h c) main_arg1 (by decide)).trans (Wend_arg m c main_arg1 (.inr rfl))⟩) (run_main m ρ)

end Cert.KernelIdeal.Hand

end
-- ==== Proof.Spec.lean ====
/-
  The NT-Xent (normalized temperature-scaled cross entropy) loss of 8192 unit rows of length 256, written twice over the
  extended reals, index by index.

  `Z r d` is entry `d` of the `r`-th normalized row. The similarity of rows `r` and `c` is their inner product
  (`gram`) divided by the temperature 1/2 — written as a product with 2 in one program and as a quotient by 1/2 in the
  other — except on the diagonal, where both programs put the same large negative fill. Row `r`'s partner is row
  `r + 4096` (mod 8192). The loss is the mean over rows of  logsumexp(row r of the scores) − score(r, partner r).

  One program computes the logsumexp in one pass over the whole row (row maximum `M`, then `M + log Σ exp(s − M)`); the
  other streams the row in 16 blocks of 512 columns, carrying a running maximum `m` and a running sum `l` rescaled by
  `exp(m_old − m_new)` at each block (`online`), and ends with `m + log l`.
-/
import Idealize.ShloMosaic.PureOps.Ideal
import Mathlib.Data.EReal.Basic

noncomputable section

namespace NTXent

open Idealize.ShloMosaic

/-- The fill both programs put on the diagonal of the score matrix: the f32 nearest to -10^9. -/
def fill : EReal := Ideal.ofBits .f32 0xCE6E6B28#32
/-- The f32 2.0: the inverse temperature, as a factor. -/
def two : EReal := Ideal.ofBits .f32 0x40000000#32
/-- The f32 0.5: the temperature, as a divisor. -/
def half : EReal := Ideal.ofBits .f32 0x3F000000#32
/-- The f32 8192.0: the number of rows. -/
def cnt : EReal := Ideal.ofBits .f32 0x46000000#32

/-- The inner product of rows `r` and `c`. -/
def gram (Z : Fin 8192 → Fin 256 → EReal) (r c : Fin 8192) : EReal := ∑ d : Fin 256, Z r d * Z c d

/-- The scores with the temperature as a factor 2. -/
def scoreMul (Z : Fin 8192 → Fin 256 → EReal) (r c : Fin 8192) : EReal :=
  if r = c then fill else gram Z r c * two

/-- The scores with the temperature as a divisor 1/2. -/
def scoreDiv (Z : Fin 8192 → Fin 256 → EReal) (r c : Fin 8192) : EReal :=
  if r = c then fill else Ideal.div (gram Z r c) half

/-- The lower row of the pair `r` belongs to: `r` itself below 4096, `r − 4096` from there on. -/
def lo (r : Fin 8192) : Fin 8192 := ⟨r.val % 4096, by omega⟩
/-- The upper row of that pair. -/
def hi (r : Fin 8192) : Fin 8192 := ⟨r.val % 4096 + 4096, by omega⟩
/-- The partner of row `r`: the other row of its pair. -/
def partner (r : Fin 8192) : Fin 8192 := ⟨(r.val + 4096) % 8192, by omega⟩

/-- One pass: the maximum of a row of scores, -/
def rowMax (s : Fin 8192 → EReal) : EReal := Finset.univ.sup s
/-- the sum of the exponentials of the row shifted by its maximum, -/
def rowSumExp (s : Fin 8192 → EReal) : EReal := ∑ c : Fin 8192, Ideal.exp (s c - rowMax s)
/-- and the logsumexp of the row. -/
def lse (s : Fin 8192 → EReal) : EReal := rowMax s + Ideal.log (rowSumExp s)

/-- Block `k` (of 16) of a row: its columns `512 k … 512 k + 511`. -/
def blk (s : Fin 8192 → EReal) (k : Fin 16) (q : Fin 512) : EReal := s ⟨512 * k.val + q.val, by omega⟩

/-- One streaming step on a block `S` from the running maximum `ml.1` and the running sum `ml.2`. -/
def step (S : Fin 512 → EReal) (ml : EReal × EReal) : EReal × EReal :=
  (max ml.1 (Finset.univ.sup S),
   Ideal.exp (ml.1 - max ml.1 (Finset.univ.sup S)) * ml.2 + ∑ q : Fin 512, Ideal.exp (S q - max ml.1 (Finset.univ.sup S)))

/-- The running pair after the first `k` blocks of the row, from `(-∞, 0)`. -/
def online (s : Fin 8192 → EReal) : ℕ → EReal × EReal
  | 0 => (⊥, 0)
  | k + 1 => if h : k < 16 then step (blk s ⟨k, h⟩) (online s k) else online s k

/-- The streamed logsumexp: `m + log l` after all 16 blocks. -/
def lseOnline (s : Fin 8192 → EReal) : EReal := (online s 16).1 + Ideal.log (online s 16).2

/-- The positive-pair score as the streaming program computes it: the inner product of the pair's lower and upper rows,
    times 2 — the same number for both rows of a pair. -/
def posPair (Z : Fin 8192 → Fin 256 → EReal) (r : Fin 8192) : EReal := gram Z (lo r) (hi r) * two

/-- The loss as the streaming program computes it. -/
def lossStream (Z : Fin 8192 → Fin 256 → EReal) : EReal :=
  Ideal.div (∑ r : Fin 8192, (lseOnline (scoreMul Z r) - posPair Z r)) cnt

/-- The loss as the one-pass program computes it: minus the sum of the log-softmax entries at the partners' columns. -/
def lossOnePass (Z : Fin 8192 → Fin 256 → EReal) : EReal :=
  Ideal.div (-(∑ r : Fin 8192,
    ((scoreDiv Z r (partner r) - rowMax (scoreDiv Z r)) - Ideal.log (rowSumExp (scoreDiv Z r))))) cnt

end NTXent

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibMaxTimes.lean ====
/-
  The max-times ("tropical") product of two matrices over the extended reals,
      (L ⊗ C) (b, o) = max over k of L (b, k) · C (o, k),
  the maximum taken from -∞, and the two ways a program spells it, each read at one entry:

  * row by row on the vector unit — one row of L, stored as a 1 × K matrix, broadcast down the rows of an n × K block
    of C, multiplied entry by entry and reduced by a maximum along the rows (a change of float format in between is
    the identity on the extended reals): entry j of the resulting vector is max_k row (0, k) · C (j, k);
  * all at once on the host — L and C each given a unit axis and broadcast to B × N × K, multiplied and reduced by a
    maximum over the last axis from the initial value -∞: entry (b, o) is max_k L (b, k) · C (o, k).

  Both are folds of `max` from `⊥` over `Fin K` of the same products, so they agree entry by entry; no property
  of the entries is used (no finiteness: a maximum of products needs none).
  All extents are variables.
-/
import Idealize.ShloMosaic.PureOps.Ideal.Laws
import Idealize.ShloMosaic.Lib.ValueIdx
import Idealize.ShloMosaic.Lib.Pipeline.Value

noncomputable section

namespace MaxTimes

open Idealize.ShloMosaic Idealize.ShloMosaic.ValueIdx

/-- The bf16 pattern of -∞ is the bottom of the extended reals. -/
theorem ofBits_neg_inf_bf16 : Ideal.ofBits .bf16 0xFF80#16 = (⊥ : EReal) := by simp [Ideal.ofBits, Ideal.ieee]

/-- The f32 pattern of -∞ is the bottom of the extended reals. -/
theorem ofBits_neg_inf_f32 : Ideal.ofBits .f32 0xFF800000#32 = (⊥ : EReal) := by simp [Ideal.ofBits, Ideal.ieee]

/-- A coordinate below an extent is itself, or zero when the extent is one: the side condition a broadcast's reading
    asks on every axis, at any extent. -/
theorem val_eq_ite {n : Nat} (a : Fin n) : a.val = if n = 1 then 0 else a.val := by
  split
  · have := a.isLt; omega
  · rfl

/-- The max-times product: entry (b, o) is the maximum over k, from -∞, of L (b, k) · C (o, k). -/
def maxTimes {B N K : Nat} (L : (⟨2, ![B, K]⟩ : Shape).Idx → EReal) (C : (⟨2, ![N, K]⟩ : Shape).Idx → EReal) :
    (⟨2, ![B, N]⟩ : Shape).Idx → EReal :=
  fun i => (Finset.univ : Finset (Fin K)).fold max ⊥ fun k => L (ix2 (i 0) k) * C (ix2 (i 1) k)

theorem maxTimes_apply {B N K : Nat} (L : (⟨2, ![B, K]⟩ : Shape).Idx → EReal) (C : (⟨2, ![N, K]⟩ : Shape).Idx → EReal)
    (b : Fin B) (o : Fin N) :
    maxTimes L C (ix2 b o) = (Finset.univ : Finset (Fin K)).fold max ⊥ fun k => L (ix2 b k) * C (ix2 o k) := rfl

/-- Reducing an n × K matrix along its rows: the source index over result entry j with coordinate k on the reduced
    axis is (j, k). -/
theorem lift_rows {n K : Nat} (h : (⟨2, ![n, K]⟩ : Shape).Reduces [(1 : Fin 2)] ⟨1, ![n]⟩) (j : Fin n) (k : Fin K) :
    h.lift (ix1 j) k = ix2 j k := by
  funext c
  apply Fin.ext
  show h.liftVal (ix1 j) k.val c = (ix2 j k c).val
  unfold Shape.Reduces.liftVal
  match c with
  | ⟨0, _⟩ => simp
  | ⟨1, _⟩ => simp

/-- ONE ROW ON THE VECTOR UNIT: the row (a 1 × K matrix, cast to its own shape, its format changed) broadcast down the
    rows of the n × K block `cm` (its format changed too), multiplied entry by entry, reduced by a maximum along each
    row from the bf16 -∞: entry j is the maximum over k of row (0, k) · cm (j, k). -/
theorem rowMax_apply {n K : Nat} (cm : FVec Ideal ⟨2, ![n, K]⟩ .f32) (row : FVec Ideal ⟨2, ![1, K]⟩ .f32)
    (hsc : (⟨2, ![1, K]⟩ : Shape).ShapeCasts ⟨2, ![1, K]⟩) (hb : FTy.bf16.bits < FTy.f32.bits)
    (hbr : (⟨2, ![1, K]⟩ : Shape).Broadcasts ⟨2, ![n, K]⟩)
    (hred : (⟨2, ![n, K]⟩ : Shape).Reduces [(1 : Fin 2)] ⟨1, ![n]⟩)
    (hφ : FKind.Formats .bf16) (hacc : (0xFF80#16 : BitVec FTy.bf16.bits) = FKind.maximumf.neutral .bf16 hφ) (j : Fin n) :
    multiReduction .maximumf [(1 : Fin 2)] ⟨1, ![n]⟩
        (mulf (broadcastTo ⟨2, ![n, K]⟩ (truncf .bf16 (shapeCast ⟨2, ![1, K]⟩ row hsc) hb) hbr) (truncf .bf16 cm hb))
        0xFF80#16 hred hφ hacc (ix1 j)
      = (Finset.univ : Finset (Fin K)).fold max ⊥ fun k => row (ix2 0 k) * cm (ix2 j k) := by
  rw [Ideal.multiReduction_maximumf_single]
  show Finset.fold max (Ideal.ofBits .bf16 0xFF80#16) _ _ = _
  rw [ofBits_neg_inf_bf16]
  refine congrArg (fun f => (Finset.univ : Finset (Fin K)).fold max ⊥ f) (funext fun k => ?_)
  show mulf _ _ (hred.lift (ix1 j) k) = _
  rw [lift_rows hred j k, mulf_apply, truncf_apply, shapeCast_self]
  refine congrArg (· * cm (ix2 j k)) ?_
  rw [broadcastTo_apply _ hbr (ix2 j k) (ix2 0 k) (fun a => by
    match a with
    | ⟨0, _⟩ => show (0 : Nat) = if (1 : Nat) = 1 then 0 else _; rw [if_pos rfl]
    | ⟨1, _⟩ => exact val_eq_ite (n := K) k)]
  exact truncf_apply _ _ _

/-- The same with each factor NAMED: whatever the row and the block are known to be at the entries the maximum reads
    (`hr`, `hc`: a loaded block read through its window), the maximum is over those products. -/
theorem rowMax_apply_of {n K : Nat} (cm : FVec Ideal ⟨2, ![n, K]⟩ .f32) (row : FVec Ideal ⟨2, ![1, K]⟩ .f32)
    (hsc : (⟨2, ![1, K]⟩ : Shape).ShapeCasts ⟨2, ![1, K]⟩) (hb : FTy.bf16.bits < FTy.f32.bits)
    (hbr : (⟨2, ![1, K]⟩ : Shape).Broadcasts ⟨2, ![n, K]⟩)
    (hred : (⟨2, ![n, K]⟩ : Shape).Reduces [(1 : Fin 2)] ⟨1, ![n]⟩)
    (hφ : FKind.Formats .bf16) (hacc : (0xFF80#16 : BitVec FTy.bf16.bits) = FKind.maximumf.neutral .bf16 hφ) (j : Fin n)
    (r c : Fin K → EReal) (hr : ∀ k, row (ix2 0 k) = r k) (hc : ∀ k, cm (ix2 j k) = c k) :
    multiReduction .maximumf [(1 : Fin 2)] ⟨1, ![n]⟩
        (mulf (broadcastTo ⟨2, ![n, K]⟩ (truncf .bf16 (shapeCast ⟨2, ![1, K]⟩ row hsc) hb) hbr) (truncf .bf16 cm hb))
        0xFF80#16 hred hφ hacc (ix1 j)
      = (Finset.univ : Finset (Fin K)).fold max ⊥ fun k => r k * c k := by
  rw [rowMax_apply]
  refine congrArg (fun f => (Finset.univ : Finset (Fin K)).fold max ⊥ f) (funext fun k => ?_)
  rw [hr, hc]

/-- Reducing a B × N × K array over its last axis: the source index over result entry (b, o) with coordinate k on the
    reduced axis is (b, o, k). -/
theorem lift_last {B N K : Nat} (h : (⟨3, ![B, N, K]⟩ : Shape).Reduces [(2 : Fin 3)] ⟨2, ![B, N]⟩) (b : Fin B) (o : Fin N)
    (k : Fin K) : h.lift (ix2 b o) k = ix3 b o k := by
  funext c
  apply Fin.ext
  show h.liftVal (ix2 b o) k.val c = (ix3 b o k c).val
  unfold Shape.Reduces.liftVal
  match c with
  | ⟨0, _⟩ => simp
  | ⟨1, _⟩ => simp
  | ⟨2, _⟩ => simp

/-- ALL AT ONCE ON THE HOST: L broadcast to B × 1 × K and then to B × N × K, C to 1 × N × K and then to B × N × K,
    multiplied, and reduced by a maximum over the last axis from the f32 -∞: the max-times product. -/
theorem hostMaxTimes_apply {B N K : Nat} (L : FVec Ideal ⟨2, ![B, K]⟩ .f32) (C : FVec Ideal ⟨2, ![N, K]⟩ .f32)
    (h1 : (⟨2, ![B, K]⟩ : Shape).BroadcastsInDim ⟨3, ![B, 1, K]⟩ (![0, 2] : Fin 2 → Fin 3))
    (h2 : (⟨3, ![B, 1, K]⟩ : Shape).BroadcastsInDim ⟨3, ![B, N, K]⟩ (![0, 1, 2] : Fin 3 → Fin 3))
    (h3 : (⟨2, ![N, K]⟩ : Shape).BroadcastsInDim ⟨3, ![1, N, K]⟩ (![1, 2] : Fin 2 → Fin 3))
    (h4 : (⟨3, ![1, N, K]⟩ : Shape).BroadcastsInDim ⟨3, ![B, N, K]⟩ (![0, 1, 2] : Fin 3 → Fin 3))
    (h' : (⟨3, ![B, N, K]⟩ : Shape).ReducesTo [(2 : Fin 3)] ⟨2, ![B, N]⟩)
    (hr : (⟨3, ![B, N, K]⟩ : Shape).Reduces [(2 : Fin 3)] ⟨2, ![B, N]⟩)
    (hu : 0 < (⟨0, ![]⟩ : Shape).numel) (b : Fin B) (o : Fin N) :
    Host.reduce (FloatOps.maximumf (F := Ideal) (φ := .f32))
        (mulf (broadcastInDim ⟨3, ![B, N, K]⟩ ![0, 1, 2] h2 (broadcastInDim ⟨3, ![B, 1, K]⟩ ![0, 2] h1 L))
          (broadcastInDim ⟨3, ![B, N, K]⟩ ![0, 1, 2] h4 (broadcastInDim ⟨3, ![1, N, K]⟩ ![1, 2] h3 C)))
        (constant (F := Ideal) ⟨0, ![]⟩ .f32 0xFF800000#32) h' hu (ix2 b o)
      = maxTimes L C (ix2 b o) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  rw [Host.reduce_eq_fold_single _ _ _ h' hr hu, maxTimes_apply]
  show Finset.fold max (Ideal.ofBits .f32 0xFF800000#32) _ _ = _
  rw [ofBits_neg_inf_f32]
  refine congrArg (fun f => (Finset.univ : Finset (Fin K)).fold max ⊥ f) (funext fun k => ?_)
  show mulf _ _ (hr.lift (ix2 b o) k) = _
  rw [lift_last hr b o k, mulf_apply]
  have eL : broadcastInDim ⟨3, ![B, N, K]⟩ ![0, 1, 2] h2 (broadcastInDim ⟨3, ![B, 1, K]⟩ ![0, 2] h1 L) (ix3 b o k)
      = L (ix2 b k) := by
    rw [broadcastInDim_apply _ h2 _ (ix3 b o k) (ix3 b 0 k) (fun a => by
      match a with
      | ⟨0, _⟩ => exact val_eq_ite b
      | ⟨1, _⟩ => show (0 : Nat) = if (1 : Nat) = 1 then 0 else _; rw [if_pos rfl]
      | ⟨2, _⟩ => exact val_eq_ite (n := K) k)]
    exact broadcastInDim_apply _ h1 L (ix3 b 0 k) (ix2 b k) (fun a => by
      match a with
      | ⟨0, _⟩ => exact val_eq_ite b
      | ⟨1, _⟩ => exact val_eq_ite (n := K) k)
  have eC : broadcastInDim ⟨3, ![B, N, K]⟩ ![0, 1, 2] h4 (broadcastInDim ⟨3, ![1, N, K]⟩ ![1, 2] h3 C) (ix3 b o k)
      = C (ix2 o k) := by
    rw [broadcastInDim_apply _ h4 _ (ix3 b o k) (ix3 0 o k) (fun a => by
      match a with
      | ⟨0, _⟩ => show (0 : Nat) = if (1 : Nat) = 1 then 0 else _; rw [if_pos rfl]
      | ⟨1, _⟩ => exact val_eq_ite o
      | ⟨2, _⟩ => exact val_eq_ite (n := K) k)]
    exact broadcastInDim_apply _ h3 C (ix3 0 o k) (ix2 o k) (fun a => by
      match a with
      | ⟨0, _⟩ => exact val_eq_ite o
      | ⟨1, _⟩ => exact val_eq_ite (n := K) k)
  rw [eL, eC]

end MaxTimes

end
-- ==== Proof.KPay.lean ====
/-
  The streamed kernel's arithmetic read entry by entry on the extended reals.

  At grid point (i₀, i₁) the kernel holds rows 2048 i₀ … 2048 i₀ + 2047 and columns 512 i₁ … 512 i₁ + 511 of the score
  matrix.  Entry (p, q) of its block of scores is the diagonal fill where the row's number equals the column's and twice
  the inner product of row p of the row block with row q of the column block elsewhere; the new running maximum of a
  row is the maximum of the old one and of the block's row; the new running sum is the old one rescaled by
  exp (old maximum − new maximum) plus the sum over the block's row of exp (score − new maximum); the result written
  at the last column block is maximum + log sum; the two running values start at −∞ and at 0.
-/
import proofs.«142451_j57836029608255_1_alg».proof.Proof.Gen.KernelIdeal.Skeleton
import proofs.«142451_j57836029608255_1_alg».proof.Proof.Spec
import proofs.«142451_j57836029608255_1_alg».proof.Proof.LibLayout
import proofs.«142451_j57836029608255_1_alg».proof.Proof.LibMaxTimes
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-! ## Words: the row's number against the column's -/

/-- Two numbers below 2³² are equal exactly when their 32-bit words are. -/
theorem ofNat32_eq_iff (m n : Nat) (hm : m < 2 ^ 32) (hn : n < 2 ^ 32) : BitVec.ofNat 32 m = BitVec.ofNat 32 n ↔ m = n := by
  constructor
  · intro e
    have h := congrArg BitVec.toNat e
    rw [BitVec.toNat_ofNat, BitVec.toNat_ofNat, Nat.mod_eq_of_lt hm, Nat.mod_eq_of_lt hn] at h
    exact h
  · intro e; rw [e]

/-- The comparison the kernel makes between the number of a row, 2048 a + p, and of a column, 512 b + q, on 32-bit words:
    nothing wraps at these sizes, so the bit is that of the equality of the two numbers. -/
theorem diag_word (a b p q : Nat) (ha : a < 4) (hb : b < 16) (hp : p < 2048) (hq : q < 512) :
    IntOp.cmpi .eq (IntOp.addi (Scalar.muli (BitVec.ofNat 32 a) 2048#32) (BitVec.ofNat 32 p))
        (IntOp.addi (Scalar.muli (BitVec.ofNat 32 b) 512#32) (BitVec.ofNat 32 q))
      = if a * 2048 + p = b * 512 + q then 1#1 else 0#1 := by
  have e1 : IntOp.addi (Scalar.muli (BitVec.ofNat 32 a) 2048#32) (BitVec.ofNat 32 p) = BitVec.ofNat 32 (a * 2048 + p) := by
    show BitVec.ofNat 32 a * BitVec.ofNat 32 2048 + BitVec.ofNat 32 p = _
    rw [← BitVec.ofNat_mul, ← BitVec.ofNat_add]
  have e2 : IntOp.addi (Scalar.muli (BitVec.ofNat 32 b) 512#32) (BitVec.ofNat 32 q) = BitVec.ofNat 32 (b * 512 + q) := by
    show BitVec.ofNat 32 b * BitVec.ofNat 32 512 + BitVec.ofNat 32 q = _
    rw [← BitVec.ofNat_mul, ← BitVec.ofNat_add]
  rw [e1, e2]
  show BitVec.ofBool (BitVec.ofNat 32 (a * 2048 + p) == BitVec.ofNat 32 (b * 512 + q)) = _
  by_cases h : a * 2048 + p = b * 512 + q
  · rw [if_pos h, h, beq_self_eq_true]; rfl
  · rw [if_neg h]
    have hne : ¬ BitVec.ofNat 32 (a * 2048 + p) = BitVec.ofNat 32 (b * 512 + q) := fun e =>
      h ((ofNat32_eq_iff _ _ (by omega) (by omega)).mp e)
    rw [beq_eq_false_iff_ne.mpr hne]; rfl

/-! ## The dimension numbers of the block product: rows against rows -/

theorem dot_lhs0 (j : S2048x512.Idx) (k : dot_S2048x256_S512x256_S2048x512_1_1_0_0_n_n.contr.Idx) :
    (dot_S2048x256_S512x256_S2048x512_1_1_0_0_n_n.lhsIdx j k 0).val = (j 0).val := by
  unfold DotDims.lhsIdx
  rw [dif_neg (show ¬(0 : Fin S2048x256.rank) ∈ dot_S2048x256_S512x256_S2048x512_1_1_0_0_n_n.lhsBatch by decide),
    dif_pos (show (0 : Fin S2048x256.rank) ∈ dot_S2048x256_S512x256_S2048x512_1_1_0_0_n_n.lhsNonContracting by decide)]
  rfl

theorem dot_rhs0 (j : S2048x512.Idx) (k : dot_S2048x256_S512x256_S2048x512_1_1_0_0_n_n.contr.Idx) :
    (dot_S2048x256_S512x256_S2048x512_1_1_0_0_n_n.rhsIdx j k 0).val = (j 1).val := by
  unfold DotDims.rhsIdx
  rw [dif_neg (show ¬(0 : Fin S512x256.rank) ∈ dot_S2048x256_S512x256_S2048x512_1_1_0_0_n_n.rhsBatch by decide),
    dif_pos (show (0 : Fin S512x256.rank) ∈ dot_S2048x256_S512x256_S2048x512_1_1_0_0_n_n.rhsNonContracting by decide)]
  rfl

/-! ## A maximum folded from −∞ is the supremum -/

theorem fold_max_bot_eq_sup {ι : Type} (s : Finset ι) (f : ι → EReal) : s.fold max ⊥ f = s.sup f := by
  classical
  induction s using Finset.induction_on with
  | empty => rfl
  | insert a s ha ih => rw [Finset.fold_insert ha, Finset.sup_insert, ih]

/-! ## The payloads -/

/-- An exponential of a vector at an index. -/
theorem vexp_apply {s : Shape} {φ : FTy} (a : FVec Ideal s φ) (j : s.Idx) : exp a j = Ideal.exp (a j) := rfl

/-- The bit of "this entry is on the diagonal" at (p, q) of the block at grid point i. -/
theorem diag_bit (i : grid0.Coords) (p : Fin 2048) (q : Fin 512) :
    cmpi .eq
        (addi (broadcast S2048x512 (Scalar.muli (BitVec.ofNat 32 (i 0).val) 2048#32)) (iota .tc S2048x512 32 [0] iota_S2048x512_d0_w32))
        (addi (broadcast S2048x512 (Scalar.muli (BitVec.ofNat 32 (i 1).val) 512#32)) (iota .tc S2048x512 32 [1] iota_S2048x512_d1_w32))
        (ix2 p q)
      = if (i 0).val * 2048 + p.val = (i 1).val * 512 + q.val then 1#1 else 0#1 := by
  show IntOp.cmpi .eq
      (IntOp.addi (Scalar.muli (BitVec.ofNat 32 (i 0).val) 2048#32) (iota .tc S2048x512 32 [0] iota_S2048x512_d0_w32 (ix2 p q)))
      (IntOp.addi (Scalar.muli (BitVec.ofNat 32 (i 1).val) 512#32) (iota .tc S2048x512 32 [1] iota_S2048x512_d1_w32 (ix2 p q))) = _
  rw [iota_single_apply, iota_single_apply]
  exact diag_word (i 0).val (i 1).val p.val q.val (i 0).isLt (i 1).isLt p.isLt q.isLt

/-- The block product at (p, q): the inner product of row p of the row block with row q of the column block. -/
theorem block_dot (v3 : FVec Ideal S2048x256 .bf16) (v5 : FVec Ideal S512x256 .bf16) (p : Fin 2048) (q : Fin 512) :
    matmul (φ₁ := .bf16) (φ₂ := .bf16) dot_S2048x256_S512x256_S2048x512_1_1_0_0_n_n none
        (shapeCast S2048x256 v3 shapeCasts_S2048x256_S2048x256) (shapeCast S512x256 v5 shapeCasts_S512x256_S512x256)
        (constant (F := Ideal) S2048x512 .f32 0x00000000#32) (ix2 p q)
      = ∑ k : Fin 256, v3 (ix2 p k) * v5 (ix2 q k) := by
  rw [shapeCast_self, shapeCast_self]
  exact Cert.LibLayout.matmul_rows_rows_apply dot_S2048x256_S512x256_S2048x512_1_1_0_0_n_n rfl rfl rfl rfl dot_lhs0 dot_rhs0
    none v3 v5 p q

/-- The block of scores at (p, q). -/
theorem pay6_apply (i : grid0.Coords) (v3 : Vec Ideal S2048x256 .bf16) (v5 : Vec Ideal S512x256 .bf16) (p : Fin 2048) (q : Fin 512) :
    k0_pay6 (F := Ideal) i v3 v5 (ix2 p q)
      = if (i 0).val * 2048 + p.val = (i 1).val * 512 + q.val then NTXent.fill
        else (∑ k : Fin 256, v3 (ix2 p k) * v5 (ix2 q k)) * NTXent.two := by
  unfold k0_pay6
  refine (select_apply _ _ _ _).trans ?_
  refine (congrArg (fun c => Scalar.select c _ _) (diag_bit i p q)).trans ?_
  by_cases h : (i 0).val * 2048 + p.val = (i 1).val * 512 + q.val
  · rw [if_pos h, if_pos h]
    exact select_one _ _
  · rw [if_neg h, if_neg h]
    refine (select_zero _ _).trans ?_
    refine (mulf_apply _ _ _).trans ?_
    exact congrArg (· * NTXent.two) (block_dot v3 v5 p q)

/-- The new running maximum of row p: the old one against the block's row. -/
theorem pay7_apply (i : grid0.Coords) (v3 : Vec Ideal S2048x256 .bf16) (v5 : Vec Ideal S512x256 .bf16)
    (v23 : Vec Ideal S2048x1 .f32) (p : Fin 2048) :
    k0_pay7 (F := Ideal) i v3 v5 v23 (ix2 p 0)
      = max (v23 (ix2 p 0)) (Finset.univ.sup fun q : Fin 512 => k0_pay6 (F := Ideal) i v3 v5 (ix2 p q)) := by
  unfold k0_pay7
  refine (maximumf_apply _ _ _).trans ?_
  refine congrArg (max _) ?_
  refine (Cert.LibLayout.shapeCast_a_a1_apply _ _ p 0).trans ?_
  refine (Cert.LibLayout.max_rows_apply _ _ _ _ p).trans ?_
  exact (congrArg (fun b => Finset.fold max b _ Finset.univ) MaxTimes.ofBits_neg_inf_f32).trans (fold_max_bot_eq_sup _ _)

/-- The new running sum of row p: the old one rescaled to the new maximum, plus the block's row of exponentials. -/
theorem pay8_apply (i : grid0.Coords) (v3 : Vec Ideal S2048x256 .bf16) (v5 : Vec Ideal S512x256 .bf16)
    (v23 v25 v31 : Vec Ideal S2048x1 .f32) (p : Fin 2048) :
    k0_pay8 (F := Ideal) i v3 v5 v23 v25 v31 (ix2 p 0)
      = Ideal.exp (v25 (ix2 p 0) - k0_pay7 (F := Ideal) i v3 v5 v23 (ix2 p 0)) * v31 (ix2 p 0)
        + ∑ q : Fin 512, Ideal.exp (k0_pay6 (F := Ideal) i v3 v5 (ix2 p q) - k0_pay7 (F := Ideal) i v3 v5 v23 (ix2 p 0)) := by
  unfold k0_pay8
  refine (addf_apply _ _ _).trans ?_
  refine congrArg₂ (· + ·) ?_ ?_
  · refine (mulf_apply _ _ _).trans ?_
    refine congrArg (· * _) ?_
    refine (vexp_apply _ _).trans ?_
    exact congrArg Ideal.exp (subf_apply _ _ _)
  · refine (Cert.LibLayout.shapeCast_a_a1_apply _ _ p 0).trans ?_
    refine (Cert.LibLayout.sum_rows_apply _ _ _ _ p).trans ?_
    refine Finset.sum_congr rfl fun q _ => ?_
    refine (vexp_apply _ _).trans ?_
    refine congrArg Ideal.exp ?_
    refine (subf_apply _ _ _).trans ?_
    exact congrArg (_ - ·) (Cert.LibLayout.broadcastTo_a1_ab_apply _ _ p q)

/-- The value written at the last column block: maximum + log sum. -/
theorem pay3_apply (v45 v46 : Vec Ideal S2048x1 .f32) (j : S2048x1.Idx) :
    k0_pay3 (F := Ideal) v45 v46 j = v45 j + Ideal.log (v46 j) := rfl

/-- The running maximum starts at −∞. -/
theorem pay4_apply (j : S2048x1.Idx) : k0_pay4 (F := Ideal) j = ⊥ := by
  unfold k0_pay4
  rw [shapeCast_self]
  exact MaxTimes.ofBits_neg_inf_f32

/-- The running sum starts at 0. -/
theorem pay5_apply (j : S2048x1.Idx) : k0_pay5 (F := Ideal) j = 0 := by
  unfold k0_pay5
  rw [shapeCast_self]
  exact Ideal.ofBits_zero_f32

/-- The values carried to the next column block are stored as they are. -/
theorem pay1_eq (v : FVec Ideal S2048x1 .f32) : k0_pay1 (F := Ideal) v = v := shapeCast_self v _

theorem pay2_eq (v : FVec Ideal S2048x1 .f32) : k0_pay2 (F := Ideal) v = v := shapeCast_self v _

end Cert.KernelIdeal.Pay

end
-- ==== Proof.SpecOnline.lean ====
/-
  The streamed logsumexp of a real row equals its one-pass logsumexp.

  The row's 8192 columns are cut into 16 blocks of 512. Write A_k for the columns before block k and B_k for the
  columns of block k, so A_0 is empty, A_{k+1} = A_k ∪ B_k (disjointly) and A_16 is everything. The claim carried
  through the 16 steps is: after k blocks the running maximum is the maximum M_k of the row over A_k (-∞ for k = 0)
  and the running sum is  Σ_{c ∈ A_k} exp(s c − M_k).

  One step from (M_k, l_k) on block B_k gives the maximum  m = max M_k (max over B_k) = M_{k+1}  and the sum
      exp(M_k − m) · Σ_{A_k} exp(s c − M_k) + Σ_{B_k} exp(s c − m).
  For k = 0 the factor is exp(-∞) = 0 and the old sum is empty. From k = 1 on every quantity is a real and
      exp(a − m) · exp(x − a) = exp(x − m),
  so the first term is Σ_{A_k} exp(s c − m) and the two terms add up to the sum over A_k ∪ B_k. No property of the
  maximum is used in this step beyond its being a real: the identity holds for any reals a and m.
-/
import proofs.«142451_j57836029608255_1_alg».proof.Proof.Spec

noncomputable section

namespace NTXent

open Idealize.ShloMosaic

namespace Online

/-- A finite sum of reals read in the extended reals is the reading of the sum. -/
theorem coe_sum {ι : Type} (A : Finset ι) (f : ι → ℝ) :
    (∑ c ∈ A, ((f c : ℝ) : EReal)) = ((∑ c ∈ A, f c : ℝ) : EReal) := by
  classical
  induction A using Finset.induction_on with
  | empty => simp
  | insert a A ha ih => rw [Finset.sum_insert ha, Finset.sum_insert ha, ih, EReal.coe_add]

/-- The maximum of two reals read in the extended reals is the reading of the maximum. -/
theorem coe_max (a b : ℝ) : max (a : EReal) (b : EReal) = ((max a b : ℝ) : EReal) :=
  (EReal.coe_strictMono.monotone.map_max).symm

/-- A real-valued family, as a family of reals. -/
theorem exists_real_family {ι : Type} (s : ι → EReal) (hs : ∀ c, ∃ x : ℝ, s c = (x : EReal)) :
    ∃ t : ι → ℝ, s = fun c => (t c : EReal) :=
  ⟨fun c => (hs c).choose, funext fun c => (hs c).choose_spec⟩

/-- The maximum of a real-valued family over a nonempty finite set is a real. -/
theorem sup_real {ι : Type} (A : Finset ι) (hA : A.Nonempty) (s : ι → EReal) (hs : ∀ c, ∃ x : ℝ, s c = (x : EReal)) :
    ∃ a : ℝ, A.sup s = (a : EReal) := by
  obtain ⟨i, _, hi⟩ := Finset.exists_mem_eq_sup A hA s
  obtain ⟨x, hx⟩ := hs i
  exact ⟨x, hi.trans hx⟩

/-- Rescaling a sum of exponentials from the shift a to the shift m and adding a disjoint block at the shift m. -/
theorem real_merge {ι : Type} [DecidableEq ι] (t : ι → ℝ) (A B : Finset ι) (hAB : Disjoint A B) (a m : ℝ) :
    Real.exp (a - m) * (∑ c ∈ A, Real.exp (t c - a)) + ∑ c ∈ B, Real.exp (t c - m)
      = ∑ c ∈ A ∪ B, Real.exp (t c - m) := by
  rw [Finset.sum_union hAB, Finset.mul_sum]
  congr 1
  apply Finset.sum_congr rfl
  intro c _
  rw [← Real.exp_add]
  congr 1
  ring

/-- One streaming step, on finite sets: from the maximum and the shifted sum over A, a nonempty block B disjoint from A
    gives the maximum and the shifted sum over A ∪ B. -/
theorem merge {ι : Type} [DecidableEq ι] (s : ι → EReal) (hs : ∀ c, ∃ x : ℝ, s c = (x : EReal))
    (A B : Finset ι) (hB : B.Nonempty) (hAB : Disjoint A B) :
    Ideal.exp (A.sup s - max (A.sup s) (B.sup s)) * (∑ c ∈ A, Ideal.exp (s c - A.sup s))
        + ∑ c ∈ B, Ideal.exp (s c - max (A.sup s) (B.sup s))
      = ∑ c ∈ A ∪ B, Ideal.exp (s c - (A ∪ B).sup s) := by
  rw [Finset.sup_union]
  obtain ⟨b, hb⟩ := sup_real B hB s hs
  rcases A.eq_empty_or_nonempty with rfl | hA
  · simp [hb]
  · obtain ⟨a, ha⟩ := sup_real A hA s hs
    obtain ⟨t, rfl⟩ := exists_real_family s hs
    rw [ha, hb, coe_max]
    simp only [← EReal.coe_sub, Ideal.exp_coe, coe_sum, ← EReal.coe_mul, ← EReal.coe_add]
    rw [real_merge t A B hAB]

/-- Column q of block k, as an embedding of the 512 block columns into the 8192 columns. -/
def col (k : Fin 16) : Fin 512 ↪ Fin 8192 :=
  ⟨fun q => ⟨512 * k.val + q.val, by omega⟩, fun q q' h => by
    have h' := congrArg Fin.val h
    simp only at h'
    exact Fin.ext (by omega)⟩

theorem col_val (k : Fin 16) (q : Fin 512) : (col k q).val = 512 * k.val + q.val := rfl

/-- The columns of block k. -/
def B (k : Fin 16) : Finset (Fin 8192) := Finset.univ.map (col k)

/-- The columns before block k. -/
def A (k : ℕ) : Finset (Fin 8192) := Finset.univ.filter fun c => c.val < 512 * k

theorem B_nonempty (k : Fin 16) : (B k).Nonempty := by
  simp [B]

theorem mem_B (k : Fin 16) (c : Fin 8192) : c ∈ B k ↔ 512 * k.val ≤ c.val ∧ c.val < 512 * k.val + 512 := by
  constructor
  · intro h
    obtain ⟨q, -, rfl⟩ := Finset.mem_map.mp h
    rw [col_val]
    omega
  · intro h
    refine Finset.mem_map.mpr ⟨⟨c.val - 512 * k.val, by omega⟩, Finset.mem_univ _, ?_⟩
    apply Fin.ext
    rw [col_val]
    simp only
    omega

theorem mem_A (k : ℕ) (c : Fin 8192) : c ∈ A k ↔ c.val < 512 * k := by
  simp [A]

theorem A_zero : A 0 = ∅ := by
  ext c; simp [mem_A]

theorem A_sixteen : A 16 = Finset.univ := by
  ext c; simp only [mem_A, Finset.mem_univ, iff_true]; omega

theorem A_succ (k : ℕ) (h : k < 16) : A (k + 1) = A k ∪ B ⟨k, h⟩ := by
  ext c
  simp only [Finset.mem_union, mem_A, mem_B]
  omega

theorem A_disjoint_B (k : ℕ) (h : k < 16) : Disjoint (A k) (B ⟨k, h⟩) := by
  rw [Finset.disjoint_left]
  intro c hA hB
  rw [mem_A] at hA
  rw [mem_B] at hB
  simp only at hB
  omega

/-- The maximum of block k of a row is the maximum of the row over the block's columns. -/
theorem sup_blk (s : Fin 8192 → EReal) (k : Fin 16) : Finset.univ.sup (blk s k) = (B k).sup s := by
  rw [B, Finset.sup_map]; rfl

/-- A sum over block k of a row is the sum over the block's columns. -/
theorem sum_blk (s : Fin 8192 → EReal) (k : Fin 16) (f : EReal → EReal) :
    ∑ q : Fin 512, f (blk s k q) = ∑ c ∈ B k, f (s c) := by
  rw [B, Finset.sum_map]; rfl

/-- After k blocks the running maximum is the maximum over the columns seen and the running sum is the sum of the
    exponentials of those columns shifted by that maximum. -/
theorem online_eq (s : Fin 8192 → EReal) (hs : ∀ c, ∃ x : ℝ, s c = (x : EReal)) (k : ℕ) (hk : k ≤ 16) :
    online s k = ((A k).sup s, ∑ c ∈ A k, Ideal.exp (s c - (A k).sup s)) := by
  induction k with
  | zero => simp [online, A_zero]
  | succ k ih =>
    have h : k < 16 := by omega
    rw [online, dif_pos h, ih (by omega), step]
    simp only
    rw [sup_blk, sum_blk s ⟨k, h⟩ (fun x => Ideal.exp (x - max ((A k).sup s) ((B ⟨k, h⟩).sup s))),
      merge s hs (A k) (B ⟨k, h⟩) (B_nonempty _) (A_disjoint_B k h), A_succ k h, Finset.sup_union]

end Online

open Online

theorem online_sixteen_fst (s : Fin 8192 → EReal) (hs : ∀ c, ∃ x : ℝ, s c = (x : EReal)) :
    (online s 16).1 = rowMax s := by
  rw [online_eq s hs 16 (le_refl _), A_sixteen]; rfl

theorem online_sixteen_snd (s : Fin 8192 → EReal) (hs : ∀ c, ∃ x : ℝ, s c = (x : EReal)) :
    (online s 16).2 = rowSumExp s := by
  rw [online_eq s hs 16 (le_refl _), A_sixteen]; rfl

/-- The streamed logsumexp of a real row is its one-pass logsumexp. -/
theorem lseOnline_eq (s : Fin 8192 → EReal) (hs : ∀ c, ∃ x : ℝ, s c = (x : EReal)) : lseOnline s = lse s := by
  rw [lseOnline, lse, online_sixteen_fst s hs, online_sixteen_snd s hs]

end NTXent

end
-- ==== Proof.SpecLaws.lean ====
/-
  The two ways of writing the NT-Xent loss agree on real rows.

  * The constants: the words for 2, 1/2 and 8192 denote those reals, and the diagonal fill denotes some real; dividing
    by 1/2 is multiplying by 2, so the two score matrices are the same matrix.
  * The inner product is symmetric, and row r's partner is never r itself; so the positive-pair score — the inner
    product of the pair's lower and upper rows times 2 — is the entry of row r of the scores at its partner's column.
  * Every row of the scores is a row of reals; so its streamed logsumexp is its one-pass logsumexp, its maximum M is
    a real, and the sum of the exponentials shifted by M, a sum of positive reals, is a positive real with a real
    logarithm L.
  * With a the partner's score, the streamed summand is (M + L) − a and the one-pass summand is (a − M) − L, its
    negative; both are reals, and minus a sum of reals is the sum of the negatives.
-/
import proofs.«142451_j57836029608255_1_alg».proof.Proof.SpecOnline

noncomputable section

namespace NTXent

open Idealize.ShloMosaic

namespace Laws

open Online

/-- The f32 word 0x40000000 is the real 2. -/
theorem two_eq : two = ((2 : ℝ) : EReal) := by
  simp [two, Ideal.ofBits, Ideal.ieee, -EReal.coe_mul]; norm_num

/-- The f32 word 0x3F000000 is the real 1/2. -/
theorem half_eq : half = (((1 : ℝ) / 2 : ℝ) : EReal) := by
  simp [half, Ideal.ofBits, Ideal.ieee, -EReal.coe_mul]; norm_num

/-- The f32 word 0x46000000 is the real 8192. -/
theorem cnt_eq : cnt = ((8192 : ℝ) : EReal) := by
  simp [cnt, Ideal.ofBits, Ideal.ieee, -EReal.coe_mul]; norm_num

/-- The diagonal fill, the f32 word 0xCE6E6B28, is a real (a normal number: its exponent field is neither all zeros
    nor all ones). -/
theorem fill_real : ∃ x : ℝ, fill = (x : EReal) := by
  simp [fill, Ideal.ofBits, Ideal.ieee, -EReal.coe_mul, -EReal.coe_neg]

/-- Dividing by the temperature 1/2 is multiplying by 2, at every extended real. -/
theorem div_half (x : EReal) : Ideal.div x half = x * two := by
  have h : (1 / ((1 : ℝ) / 2)) = 2 := by norm_num
  rw [half_eq, two_eq, Ideal.div_coe (by norm_num : ((1 : ℝ) / 2) ≠ 0), h]

/-- The two score matrices are the same. -/
theorem scoreDiv_eq (Z : Fin 8192 → Fin 256 → EReal) : scoreDiv Z = scoreMul Z := by
  funext r c
  simp only [scoreDiv, scoreMul, div_half]

/-- The inner product is symmetric. -/
theorem gram_comm (Z : Fin 8192 → Fin 256 → EReal) (r c : Fin 8192) : gram Z r c = gram Z c r := by
  simp only [gram]
  exact Finset.sum_congr rfl fun d _ => mul_comm _ _

/-- The inner product of two real rows is a real. -/
theorem gram_real (Z : Fin 8192 → Fin 256 → EReal) (hZ : ∀ r d, ∃ x : ℝ, Z r d = (x : EReal)) (r c : Fin 8192) :
    ∃ x : ℝ, gram Z r c = (x : EReal) := by
  obtain ⟨t, ht⟩ : ∃ t : Fin 8192 → Fin 256 → ℝ, ∀ r d, Z r d = (t r d : EReal) :=
    ⟨fun r d => (hZ r d).choose, fun r d => (hZ r d).choose_spec⟩
  refine ⟨∑ d, t r d * t c d, ?_⟩
  simp only [gram, ht, ← EReal.coe_mul, coe_sum]

/-- A row's partner is another row. -/
theorem partner_ne (r : Fin 8192) : partner r ≠ r := by
  intro h
  have h' := congrArg Fin.val h
  simp only [partner] at h'
  omega

/-- The positive-pair score of row r is the entry of row r of the scores at its partner's column. -/
theorem posPair_eq (Z : Fin 8192 → Fin 256 → EReal) (r : Fin 8192) : posPair Z r = scoreMul Z r (partner r) := by
  rw [scoreMul, if_neg (fun h => partner_ne r h.symm), posPair]
  congr 1
  by_cases h : r.val < 4096
  · have h1 : lo r = r := Fin.ext (by simp only [lo]; omega)
    have h2 : hi r = partner r := Fin.ext (by simp only [hi, partner]; omega)
    rw [h1, h2]
  · have h1 : lo r = partner r := Fin.ext (by simp only [lo, partner]; omega)
    have h2 : hi r = r := Fin.ext (by simp only [hi]; omega)
    rw [h1, h2, gram_comm]

/-- The maximum of a real row is a real, and so is the logarithm of its sum of shifted exponentials: a sum of positive
    reals is positive. -/
theorem row_real (s : Fin 8192 → EReal) (hs : ∀ c, ∃ x : ℝ, s c = (x : EReal)) :
    ∃ M L : ℝ, rowMax s = (M : EReal) ∧ Ideal.log (rowSumExp s) = (L : EReal) := by
  obtain ⟨M, hM⟩ := sup_real Finset.univ Finset.univ_nonempty s hs
  obtain ⟨t, rfl⟩ := exists_real_family s hs
  have hpos : 0 < ∑ c : Fin 8192, Real.exp (t c - M) :=
    Finset.sum_pos (fun c _ => Real.exp_pos _) Finset.univ_nonempty
  refine ⟨M, Real.log (∑ c : Fin 8192, Real.exp (t c - M)), hM, ?_⟩
  simp only [rowSumExp, rowMax, hM, ← EReal.coe_sub, Ideal.exp_coe, coe_sum, Ideal.log_coe]
  rw [if_neg (not_le.mpr hpos)]

end Laws

open Online Laws

/-- Every row of the scores of real rows is a row of reals. -/
theorem scoreMul_real (Z : Fin 8192 → Fin 256 → EReal) (hZ : ∀ r d, ∃ x : ℝ, Z r d = (x : EReal)) (r c : Fin 8192) :
    ∃ x : ℝ, scoreMul Z r c = (x : EReal) := by
  unfold scoreMul
  split
  · exact fill_real
  · obtain ⟨g, hg⟩ := gram_real Z hZ r c
    exact ⟨g * 2, by rw [hg, two_eq, EReal.coe_mul]⟩

/-- The two losses agree on real rows. -/
theorem loss_eq (Z : Fin 8192 → Fin 256 → EReal) (hZ : ∀ r d, ∃ x : ℝ, Z r d = (x : EReal)) :
    lossStream Z = lossOnePass Z := by
  have hrow : ∀ r : Fin 8192, ∃ y : ℝ,
      lseOnline (scoreMul Z r) - posPair Z r = (y : EReal) ∧
      (scoreMul Z r (partner r) - rowMax (scoreMul Z r)) - Ideal.log (rowSumExp (scoreMul Z r)) = ((-y : ℝ) : EReal) := by
    intro r
    have hs := scoreMul_real Z hZ r
    obtain ⟨M, L, hM, hL⟩ := row_real _ hs
    obtain ⟨a, ha⟩ := hs (partner r)
    refine ⟨(M + L) - a, ?_, ?_⟩
    · rw [lseOnline_eq _ hs, lse, posPair_eq, hM, hL, ha, ← EReal.coe_add, ← EReal.coe_sub]
    · rw [hM, hL, ha, ← EReal.coe_sub, ← EReal.coe_sub]
      congr 1
      ring
  choose y hy1 hy2 using hrow
  unfold lossStream lossOnePass
  rw [scoreDiv_eq, Finset.sum_congr rfl (fun r _ => hy1 r), Finset.sum_congr rfl (fun r _ => hy2 r), coe_sum, coe_sum,
    ← EReal.coe_neg, Finset.sum_neg_distrib, neg_neg]

end NTXent

end
-- ==== Proof.KValue.lean ====
/-
  The streaming kernel's result array on the extended reals.

  Row `r = 2048 a + p` of the score matrix is met at the 16 grid points `16 a + j`, column block `j` at point `16 a + j`:
  there the row block's entry `(p, k)` is entry `(r, k)` of the normalized matrix and the column block's entry `(q, k)` is
  entry `(512 j + q, k)`, so the block of scores the body forms is block `j` of row `r` of the masked scaled Gram matrix, and
  one column step of the body is one step of the streaming recurrence. By induction on the point the running pair after
  point `16 a + j` is the recurrence after `j + 1` blocks; at `j = 15` the body writes maximum + log(sum), and the four
  write-backs (one per row block) tile the result array: entry `r` of it is the streamed logsumexp of row `r`.
-/
import proofs.«142451_j57836029608255_1_alg».proof.Proof.KChain
import proofs.«142451_j57836029608255_1_alg».proof.Proof.KLaunch
import proofs.«142451_j57836029608255_1_alg».proof.Proof.KPay
import proofs.«142451_j57836029608255_1_alg».proof.Proof.SpecLaws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx NTXent Cert.KernelIdeal.Pay

/-- Entry `(r, d)` of the normalized matrix as the region finds it. -/
def Zof (c : Dev nD) (r : Fin 8192) (d : Fin 256) : EReal := V m c main_v9 (ix2 r d)

theorem coords_facts : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

/-- The row block at point `t` holds rows `2048 (t / 16) …` of the normalized matrix. -/
theorem iblk0_apply (c : Dev nD) (t : Fin cfg0.N) (p : Fin 2048) (k : Fin 256) (r : Fin 8192) (hr : r.val = 2048 * (t.val / 16) + p.val) :
    iblk m c 0 t (ix2 p k) = Zof m c r k := by
  obtain ⟨e0, e1, -⟩ := idx_facts t
  show V m c main_v9 (((cfg0.win 0).blk t).view.emb (ix2 p k)) = V m c main_v9 (ix2 r k)
  refine congrArg (V m c main_v9) ?_
  funext a; apply Fin.ext
  match a with
  | ⟨0, _⟩ => show win0_0.index t (0 : Fin 2) * 2048 + 1 * p.val = r.val; omega
  | ⟨1, _⟩ => show win0_0.index t (1 : Fin 2) * 256 + 1 * k.val = k.val; omega

/-- The column block at point `t` holds rows `512 (t % 16) …` of the normalized matrix. -/
theorem iblk1_apply (c : Dev nD) (t : Fin cfg0.N) (q : Fin 512) (k : Fin 256) (r : Fin 8192) (hr : r.val = 512 * (t.val % 16) + q.val) :
    iblk m c 1 t (ix2 q k) = Zof m c r k := by
  obtain ⟨-, -, e0, e1, -⟩ := idx_facts t
  show V m c main_v9 (((cfg0.win 1).blk t).view.emb (ix2 q k)) = V m c main_v9 (ix2 r k)
  refine congrArg (V m c main_v9) ?_
  funext a; apply Fin.ext
  match a with
  | ⟨0, _⟩ => show win0_1.index t (0 : Fin 2) * 512 + 1 * q.val = r.val; omega
  | ⟨1, _⟩ => show win0_1.index t (1 : Fin 2) * 256 + 1 * k.val = k.val; omega

/-- The block of scores at grid point (a, j), of a row block holding rows `2048 a …` and a column block holding rows `512 j …`
    of a matrix `Z`, is block `j` of row `r = 2048 a + p` of `Z`'s masked scaled Gram matrix. -/
theorem score_blk_gen (i : grid0.Coords) (a j : ℕ) (hi0 : (i 0).val = a) (hi1 : (i 1).val = j) (hj : j < 16)
    (x0 : Vec Ideal S2048x256 .bf16) (x1 : Vec Ideal S512x256 .bf16) (Z : Fin 8192 → Fin 256 → EReal)
    (p : Fin 2048) (q : Fin 512) (r : Fin 8192) (hr : r.val = 2048 * a + p.val)
    (hx0 : ∀ k, x0 (ix2 p k) = Z r k) (hx1 : ∀ r' : Fin 8192, r'.val = 512 * j + q.val → ∀ k, x1 (ix2 q k) = Z r' k) :
    k0_pay6 (F := Ideal) i x0 x1 (ix2 p q) = blk (scoreMul Z r) ⟨j, hj⟩ q := by
  have hc : 512 * j + q.val < 8192 := by have := q.isLt; omega
  have hs : (∑ k : Fin 256, x0 (ix2 p k) * x1 (ix2 q k)) = gram Z r ⟨512 * j + q.val, hc⟩ :=
    Finset.sum_congr rfl fun k _ => by rw [hx0 k, hx1 ⟨512 * j + q.val, hc⟩ rfl k]
  refine (pay6_apply i x0 x1 p q).trans ?_
  rw [hs]
  show (if (i 0).val * 2048 + p.val = (i 1).val * 512 + q.val then fill else gram Z r ⟨512 * j + q.val, hc⟩ * two)
    = (if r = ⟨512 * j + q.val, hc⟩ then fill else gram Z r ⟨512 * j + q.val, hc⟩ * two)
  by_cases h : (i 0).val * 2048 + p.val = (i 1).val * 512 + q.val
  · rw [if_pos h, if_pos (Fin.ext (by show r.val = 512 * j + q.val; omega))]
  · rw [if_neg h, if_neg (fun e => h (by have := congrArg Fin.val e; dsimp only at this; omega))]

/-- The block of scores the body forms at point `t` is block `t % 16` of row `r` of the masked scaled Gram matrix. -/
theorem score_blk (c : Dev nD) (t : Fin cfg0.N) (p : Fin 2048) (q : Fin 512) (r : Fin 8192) (hr : r.val = 2048 * (t.val / 16) + p.val)
    (hj : t.val % 16 < 16) :
    k0_pay6 (F := Ideal) (grid0.coords t) (iblk m c 0 t) (iblk m c 1 t) (ix2 p q) = blk (scoreMul (Zof m c) r) ⟨t.val % 16, hj⟩ q :=
  score_blk_gen (grid0.coords t) (t.val / 16) (t.val % 16) (coords_facts t).1 (coords_facts t).2 hj (iblk m c 0 t) (iblk m c 1 t) (Zof m c)
    p q r hr (fun k => iblk0_apply m c t p k r hr) (fun r' hr' k => iblk1_apply m c t q k r' hr')

/-- One column step of the body at point `t` on row `p` of the row block is one step of the streaming recurrence on row `r`. -/
theorem step_eq (c : Dev nD) (t : Fin cfg0.N) (p : Fin 2048) (r : Fin 8192) (hr : r.val = 2048 * (t.val / 16) + p.val)
    (ml : Vec Ideal S2048x1 .f32 × Vec Ideal S2048x1 .f32)
    (hm : ml.1 (ix2 p 0) = (online (scoreMul (Zof m c) r) (t.val % 16)).1)
    (hl : ml.2 (ix2 p 0) = (online (scoreMul (Zof m c) r) (t.val % 16)).2) :
    (stepOf (grid0.coords t) (iblk m c 0 t) (iblk m c 1 t) ml).1 (ix2 p 0) = (online (scoreMul (Zof m c) r) (t.val % 16 + 1)).1
    ∧ (stepOf (grid0.coords t) (iblk m c 0 t) (iblk m c 1 t) ml).2 (ix2 p 0) = (online (scoreMul (Zof m c) r) (t.val % 16 + 1)).2 := by
  have hj : t.val % 16 < 16 := Nat.mod_lt _ (by decide)
  have hon : online (scoreMul (Zof m c) r) (t.val % 16 + 1) = step (blk (scoreMul (Zof m c) r) ⟨t.val % 16, hj⟩) (online (scoreMul (Zof m c) r) (t.val % 16)) := by
    show (if h : t.val % 16 < 16 then _ else _) = _; rw [dif_pos hj]
  have h7 : k0_pay7 (F := Ideal) (grid0.coords t) (iblk m c 0 t) (iblk m c 1 t) ml.1 (ix2 p 0)
      = max (online (scoreMul (Zof m c) r) (t.val % 16)).1 (Finset.univ.sup (blk (scoreMul (Zof m c) r) ⟨t.val % 16, hj⟩)) := by
    rw [pay7_apply, hm]
    refine congrArg (max _) (congrArg Finset.univ.sup (funext fun q => score_blk m c t p q r hr hj))
  rw [hon]
  unfold stepOf step
  dsimp only
  rw [pay2_eq, pay1_eq]
  refine ⟨h7, ?_⟩
  rw [pay8_apply, h7, hm, hl]
  refine congrArg (_ + ·) (Finset.sum_congr rfl fun q _ => ?_)
  rw [score_blk m c t p q r hr hj]

theorem reset_fst (j : S2048x1.Idx) : (reset (F := Ideal)).1 j = ⊥ := pay4_apply j
theorem reset_snd (j : S2048x1.Idx) : (reset (F := Ideal)).2 j = 0 := pay5_apply j
theorem online_zero (s : Fin 8192 → EReal) : online s 0 = (⊥, 0) := rfl

/-- The running pair after point `n`, on row `p` of its row block, is the streaming recurrence on row `r` after `n % 16 + 1` blocks. -/
theorem chain_online (c : Dev nD) : ∀ (n : ℕ) (h : n < cfg0.N) (p : Fin 2048) (r : Fin 8192) (hr : r.val = 2048 * (n / 16) + p.val),
    (chain m c n h).1 (ix2 p 0) = (online (scoreMul (Zof m c) r) (n % 16 + 1)).1
    ∧ (chain m c n h).2 (ix2 p 0) = (online (scoreMul (Zof m c) r) (n % 16 + 1)).2
  | 0, h, p, r, hr => by
    rw [chain_zero]
    exact step_eq m c ⟨0, h⟩ p r hr reset
      (by rw [reset_fst]; show ⊥ = (online _ 0).1; rw [online_zero])
      (by rw [reset_snd]; show 0 = (online _ 0).2; rw [online_zero])
  | n + 1, h, p, r, hr => by
    by_cases h0 : (n + 1) % 16 = 0
    · rw [chain_succ_reset m c n h h0]
      have := step_eq m c ⟨n + 1, h⟩ p r hr reset
        (by rw [reset_fst]; show ⊥ = (online _ ((n + 1) % 16)).1; rw [h0, online_zero])
        (by rw [reset_snd]; show 0 = (online _ ((n + 1) % 16)).2; rw [h0, online_zero])
      exact this
    · rw [chain_succ_step m c n h h0]
      have hd : (n + 1) / 16 = n / 16 := by omega
      have hmod : (n + 1) % 16 = n % 16 + 1 := by omega
      obtain ⟨i1, i2⟩ := chain_online c n (Nat.lt_of_succ_lt h) p r (by omega)
      exact step_eq m c ⟨n + 1, h⟩ p r hr (chain m c n (Nat.lt_of_succ_lt h))
        (by show _ = (online _ ((n + 1) % 16)).1; rw [hmod]; exact i1)
        (by show _ = (online _ ((n + 1) % 16)).2; rw [hmod]; exact i2)

/-- The result array: entry `r` is the streamed logsumexp of row `r` of the masked scaled Gram matrix. -/
def Gres (c : Dev nD) : Buf (Elt Ideal) ((c : Thread nD τ).loc main_v10) :=
  fun i : S8192x1.Idx => lseOnline (scoreMul (Zof m c) ⟨(i 0).val, (i 0).isLt⟩)

/-- What a write-back writes is its block of that array. -/
theorem flushed_eq (c : Dev nD) (t : Fin cfg0.N) (hf : (cfg0.win 2).flush t = true) :
    (dats m 0 c).flushed 2 t = ((cfg0.win 2).blk t).view.read (Elt Ideal) (Gres m c) := by
  have h15 : t.val % 16 = 15 := (flush0_2 t).mp hf
  have hN : t.val < 64 := lt_of_lt_of_eq t.isLt (show cfg0.N = 64 from N_0)
  obtain ⟨-, -, -, -, e0, e1⟩ := idx_facts t
  show (cfg0.win 2).cut (grid0.coords t) ((dats m 0 c).after 2 t) = _
  rw [after0_2, outsAt_out m c t h15]
  funext j
  obtain ⟨p, q, rfl⟩ : ∃ (p : Fin 2048) (q : Fin 1), j = ix2 p q := ⟨j 0, j 1, eq_ix2 j⟩
  obtain rfl : q = 0 := Subsingleton.elim _ _
  have hrow : 2048 * (t.val / 16) + p.val < 8192 := by have := p.isLt; omega
  obtain ⟨i1, i2⟩ := chain_online m c t.val t.isLt p ⟨2048 * (t.val / 16) + p.val, hrow⟩ rfl
  show k0_pay3 (F := Ideal) (chain m c t.val t.isLt).1 (chain m c t.val t.isLt).2 (ix2 p 0) = Gres m c (((cfg0.win 2).blk t).view.emb (ix2 p 0))
  rw [pay3_apply, i1, i2, h15]
  unfold Gres lseOnline
  have hrw : (⟨((((cfg0.win 2).blk t).view.emb (ix2 p 0)) 0).val, ((((cfg0.win 2).blk t).view.emb (ix2 p 0)) 0).isLt⟩ : Fin 8192)
      = ⟨2048 * (t.val / 16) + p.val, hrow⟩ := Fin.ext (by
    show win0_2.index t (0 : Fin 2) * 2048 + 1 * p.val = 2048 * (t.val / 16) + p.val; omega)
  rw [hrw]

theorem mem_blk2 (t : Fin cfg0.N) (i : S8192x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v10).slice (win0_2.rect t)).set ↔ _
  rw [View.set_slice_whole, Rect.mem_set_unit]
  exact Iff.rfl

/-- The four write-backs tile the result array, so it ends holding the streamed logsumexp of every row. -/
theorem final_res (c : Dev nD) : (dats m 0 c).arrAt 2 cfg0.N = Gres m c :=
  (dats m 0 c).arrAt_eq_of_cover 2 (Gres m c) (flushed_eq m c) fun i => by
    have hi0 : (i 0).val < 8192 := (i 0).isLt
    have hi1 : (i 1).val < 1 := (i 1).isLt
    have hN : cfg0.N = 64 := N_0
    refine ⟨⟨16 * ((i 0).val / 2048) + 15, by omega⟩, (flush0_2 _).mpr (by show (16 * ((i 0).val / 2048) + 15) % 16 = 15; omega), ?_⟩
    rw [mem_blk2]
    obtain ⟨-, -, -, -, e0, e1⟩ := idx_facts ⟨16 * ((i 0).val / 2048) + 15, by omega⟩
    intro a
    match a with
    | ⟨0, _⟩ => show win0_2.index _ (0 : Fin 2) * 2048 ≤ (i 0).val ∧ (i 0).val < win0_2.index _ (0 : Fin 2) * 2048 + 2048
                rw [e0]; dsimp only; omega
    | ⟨1, _⟩ => show win0_2.index _ (1 : Fin 2) * 1 ≤ (i 1).val ∧ (i 1).val < win0_2.index _ (1 : Fin 2) * 1 + 1
                rw [e1]; omega

end Cert.KernelIdeal.Hand

end
-- ==== Proof.KTail.lean ====
/-
  The host's operations after the kernel, read on the extended reals.

  From the column of streamed logsumexps L (one per row) and the normalized matrix A the host computes, for each pair
  of rows (m, m + 4096), the inner product of the two rows times 2, lays these 4096 numbers twice end to end so that both
  rows of a pair get their pair's number, subtracts them from the logsumexps, sums over the 8192 rows and divides by
  8192.  At the result's one entry this is the mean over rows of  L r − (the pair's score of r).
-/
import proofs.«142451_j57836029608255_1_alg».proof.Proof.Gen.KernelIdeal
import proofs.«142451_j57836029608255_1_alg».proof.Proof.Spec
import proofs.«142451_j57836029608255_1_alg».proof.Proof.LibLayout
import proofs.«142451_j57836029608255_1_alg».proof.Proof.LibMaxTimes
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-- The pairs' scores: for m below 4096, the sum over the row's entries of A (m, ·) · A (m + 4096, ·), times 2. -/
def tailPos (A : FVec Ideal S8192x256 .bf16) : FVec Ideal S4096 .f32 :=
  mulf
    (Host.reduceAdd (F := Ideal)
      (mulf (extractStridedSlice S4096x256 ![0, 0] (extf .f32 A bitsLt_bf16_f32) slices_S8192x256_S4096x256_0_0)
        (extractStridedSlice S4096x256 ![4096, 0] (extf .f32 A bitsLt_bf16_f32) slices_S8192x256_S4096x256_4096_0))
      (constant (F := Ideal) S_ .f32 0x00000000#32) reducesTo_S4096x256_S4096_d1 h_S_)
    (broadcastInDim S4096 ![] bcast_S_S4096 (constant (F := Ideal) S_ .f32 0x40000000#32))

/-- The host's operations after the kernel, composed: from the column of logsumexps and the normalized matrix to the loss. -/
def tail (L : FVec Ideal S8192x1 .f32) (A : FVec Ideal S8192x256 .bf16) : FVec Ideal S_ .f32 :=
  Host.divf (F := Ideal)
    (Host.reduceAdd (F := Ideal)
      (subf (shapeCast S8192 L shapeCasts_S8192x1_S8192)
        (concatenate S8192 0 [⟨S4096, tailPos A⟩, ⟨S4096, tailPos A⟩] concatenates_S4096_S4096_S8192_d0))
      (constant (F := Ideal) S_ .f32 0x00000000#32) reducesTo_S8192_S_d0 h_S_)
    (constant (F := Ideal) S_ .f32 0x46000000#32)

/-- A vector's index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The score of the pair (m, m + 4096). -/
theorem tailPos_apply (A : FVec Ideal S8192x256 .bf16) (m : Fin 4096) :
    tailPos A (ix1 m)
      = (∑ d : Fin 256, A (ix2 (⟨m.val, by omega⟩ : Fin 8192) d) * A (ix2 (⟨m.val + 4096, by omega⟩ : Fin 8192) d)) * NTXent.two := by
  unfold tailPos
  refine (mulf_apply _ _ _).trans ?_
  refine congrArg₂ (· * ·) ?_ ?_
  · refine (hostReduceAdd_apply _ _ _ _ _).trans ?_
    refine (Ideal.hostReduceAdd_single reducesTo_S4096x256_S4096_d1 (by decide : S4096x256.Reduces [1] S4096) _ _ _).trans ?_
    refine (congrArg (· + _) ((constant_apply _ _).trans Ideal.ofBits_zero_f32)).trans ?_
    refine (zero_add _).trans ?_
    refine Finset.sum_congr rfl fun d _ => ?_
    refine (congrArg (mulf _ _) (MaxTimes.lift_rows _ m d)).trans ?_
    refine (mulf_apply _ _ _).trans ?_
    refine congrArg₂ (· * ·) ?_ ?_
    · exact (slice2_axis0_apply 0 _ _ m d (⟨m.val, by omega⟩ : Fin 8192) (Nat.zero_add _).symm).trans (extf_apply _ _ _)
    · exact (slice2_axis0_apply 4096 _ _ m d (⟨m.val + 4096, by omega⟩ : Fin 8192) (Nat.add_comm _ _)).trans (extf_apply _ _ _)
  · exact (broadcastInDim_scalar_apply _ _ _).trans (constant_apply _ _)

/-- The two copies laid end to end: at row r, the score of r's pair. -/
theorem concat_tailPos_apply (A : FVec Ideal S8192x256 .bf16) (r : Fin 8192) :
    concatenate S8192 0 [⟨S4096, tailPos A⟩, ⟨S4096, tailPos A⟩] concatenates_S4096_S4096_S8192_d0 (ix1 r)
      = tailPos A (ix1 (⟨r.val % 4096, Nat.mod_lt _ (by decide)⟩ : Fin 4096)) := by
  by_cases hlt : r.val < 4096
  · exact concatenate_pair_apply_left (t := S8192) (s₁ := S4096) (s₂ := S4096) 0 (tailPos A) (tailPos A)
      concatenates_S4096_S4096_S8192_d0 (ix1 r) rfl (ix1 (⟨r.val % 4096, Nat.mod_lt _ (by decide)⟩ : Fin 4096)) (fun b => by
      match b with
      | ⟨0, _⟩ => show r.val % 4096 = r.val; omega)
  · exact concatenate_pair_apply_right (t := S8192) (s₁ := S4096) (s₂ := S4096) 0 (tailPos A) (tailPos A)
      concatenates_S4096_S4096_S8192_d0 (ix1 r) rfl rfl (ix1 (⟨r.val % 4096, Nat.mod_lt _ (by decide)⟩ : Fin 4096))
      (fun b hb => by
        match b, hb with
        | ⟨0, _⟩, hb => exact absurd rfl hb)
      (by show r.val % 4096 + 4096 = r.val; have := r.isLt; omega)

/-- The loss the host computes from the streamed logsumexps: the mean over rows of  L r − (the pair's score of r). -/
theorem tail_apply (L : FVec Ideal S8192x1 .f32) (A : FVec Ideal S8192x256 .bf16) (j : S_.Idx) :
    tail L A j = Ideal.div (∑ r : Fin 8192, (L (ix2 r 0) - NTXent.posPair (fun r d => A (ix2 r d)) r)) NTXent.cnt := by
  unfold tail
  refine (hostDivf_apply _ _ _).trans ?_
  refine congrArg₂ Ideal.div ?_ ?_
  · refine (hostReduceAdd_apply _ _ _ _ _).trans ?_
    refine (Ideal.hostReduceAdd_total reducesTo_S8192_S_d0 (fun b => b.elim0) _ _ _).trans ?_
    refine (congrArg (· + _) ((constant_apply _ _).trans Ideal.ofBits_zero_f32)).trans ?_
    refine (zero_add _).trans ?_
    refine (sum_idx1 _).trans ?_
    refine Finset.sum_congr rfl fun r _ => ?_
    refine (subf_apply _ _ _).trans ?_
    refine congrArg₂ (· - ·) ?_ ?_
    · exact Cert.LibLayout.shapeCast_a1_a_apply _ _ r
    · refine (concat_tailPos_apply A r).trans ?_
      exact tailPos_apply A _
  · exact constant_apply _ _

end Cert.KernelIdeal.Pay

end
-- ==== Proof.KResult.lean ====
/-
  The streaming program's scalar result on the extended reals.

  The sixteen host operations after the region, read back from the region's exit contents, are the composed map that
  takes the column of streamed logsumexps and the normalized matrix to the mean over rows of
  logsumexp(row) − score(row, partner); with the result array of KValue this is the streaming loss of the normalized matrix.
-/
import proofs.«142451_j57836029608255_1_alg».proof.Proof.KValue
import proofs.«142451_j57836029608255_1_alg».proof.Proof.KTail
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx NTXent Cert.KernelIdeal.Pay Idealize.ShloMosaic.StableHlo

/-- The scalar result buffer ends holding the composed host map of the result array and the normalized matrix. -/
theorem Wend_result (c : Dev nD) :
    Wend m c (Proc.devRef .tc main_v22) = tail ((dats m 0 c).arrAt 2 cfg0.N) (V m c main_v9) := by
  have w10 : Pipeline.withArrays spec1 c (V0 m c) (Aexit m c) (Proc.devRef .tc main_v10) = (dats m 0 c).arrAt 2 cfg0.N :=
    Pipeline.withArrays_arr spec1 arr_inj1 c (V0 m c) (Aexit m c) 1
  have w9 : Pipeline.withArrays spec1 c (V0 m c) (Aexit m c) (Proc.devRef .tc main_v9) = V m c main_v9 :=
    Pipeline.withArrays_arr spec1 arr_inj1 c (V0 m c) (Aexit m c) 0
  unfold Wend
  show StableHlo.after hostOps1 _ (Proc.devRef .tc main_v22) = _
  after_results
  rw [w10, w9]
  rfl

/-- The streaming program's result: the streaming loss of the normalized matrix. -/
theorem result_eq (c : Dev nD) : Wend m c (Proc.devRef .tc main_v22) = fun _ => lossStream (Zof m c) := by
  rw [Wend_result, final_res]
  funext j
  rw [tail_apply]
  unfold lossStream
  refine congrArg (Ideal.div · cnt) (Finset.sum_congr rfl fun r _ => ?_)
  rfl

end Cert.KernelIdeal.Hand

end
-- ==== Proof.LibPairScatter.lean ====
/-
  Two index-dependent host operations read at an index, for any element type.

  A scatter whose body returns the update (an `.at[…].set`) with every update the same value `c`: the result at an index
  `i` is `c` when some update lands at `i` and the operand's element otherwise. The order in which the updates are
  applied cannot matter, since all of them write the same value; so the statement holds of the row-major fold the
  operation is defined by, and the proof is an induction along that fold.

  A gather of single elements of a matrix at a list of (row, column) start indices: result element `k` is the matrix at
  the `k`-th index pair, each component read as a signed integer and clamped into its axis.
-/
import Idealize.ShloMosaic.PureOps.Ideal
import Idealize.ShloMosaic.Lib.ValueIdx

noncomputable section

namespace Cert.ReferenceIdeal.RefValue

open Idealize.ShloMosaic Idealize.ShloMosaic.ValueIdx

section Scatter
variable {α : Type} {s si u : Shape} {w : Nat}

/-- One update of a scatter: the step the operation folds over its update indices. -/
def scatStep (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (scatStep d f idx upd) x := rfl

/-- A step whose update lands at `i` leaves the body's value there. -/
theorem scatStep_hit (d : ScatterDims s si u) (f : α → α → α) (idx : IVec si w) (upd : u.Idx → α) (r : s.Idx → α)
    (n : Fin u.numel) (i : s.Idx) (h : d.resultIdx? (u.rowMajor.symm n) idx = some i) :
    scatStep d f idx upd r n i = f (r i) (upd (u.rowMajor.symm n)) := by
  unfold scatStep
  rw [h]
  exact if_pos rfl

/-- A step whose update lands elsewhere, or nowhere, leaves `i` as it was. -/
theorem scatStep_miss (d : ScatterDims s si u) (f : α → α → α) (idx : IVec si w) (upd : u.Idx → α) (r : s.Idx → α)
    (n : Fin u.numel) (i : s.Idx) (h : d.resultIdx? (u.rowMajor.symm n) idx ≠ some i) :
    scatStep d f idx upd r n i = r i := by
  unfold scatStep
  generalize d.resultIdx? (u.rowMajor.symm n) idx = q at h
  cases q with
  | none => rfl
  | some i0 =>
    have hne : i ≠ i0 := fun e => h (by rw [e])
    exact if_neg hne

/-- Steps none of which lands at `i` leave `i` as it was. -/
theorem foldl_scatStep_miss (d : ScatterDims s si u) (f : α → α → α) (idx : IVec si w) (upd : u.Idx → α) (i : s.Idx)
    (l : List (Fin u.numel)) (r : s.Idx → α) (h : ∀ n ∈ l, d.resultIdx? (u.rowMajor.symm n) idx ≠ some i) :
    l.foldl (scatStep d f idx upd) r i = r i := by
  induction l generalizing r with
  | nil => rfl
  | cons n l ih =>
    rw [List.foldl_cons, ih _ (fun m hm => h m (List.mem_cons_of_mem _ hm))]
    exact scatStep_miss d f idx upd r n i (h n List.mem_cons_self)

/-- Steps that all write the value `c`, one of which lands at `i`, leave `c` there. -/
theorem foldl_scatStep_set_const_hit (d : ScatterDims s si u) (idx : IVec si w) (c : α) (i : s.Idx)
    (l : List (Fin u.numel)) (r : s.Idx → α) (h : ∃ n ∈ l, d.resultIdx? (u.rowMajor.symm n) idx = some i) :
    l.foldl (scatStep d (fun _ b => b) idx (fun _ => c)) r i = c := by
  induction l generalizing r with
  | nil => obtain ⟨n, hn, _⟩ := h; cases hn
  | cons n l ih =>
    rw [List.foldl_cons]
    by_cases hl : ∃ m ∈ l, d.resultIdx? (u.rowMajor.symm m) idx = some i
    · exact ih _ hl
    · have hn : d.resultIdx? (u.rowMajor.symm n) idx = some i := by
        obtain ⟨m, hm, hmi⟩ := h
        rcases List.mem_cons.1 hm with rfl | hm'
        · exact hmi
        · exact absurd ⟨m, hm', hmi⟩ hl
      rw [foldl_scatStep_miss d _ idx _ i l _ (fun m hm e => hl ⟨m, hm, e⟩)]
      exact scatStep_hit d _ idx _ r n i hn

/-- A set-scatter of one value `c` at an index some update lands at: `c`. -/
theorem scatter_set_const_hit (d : ScatterDims s si u) (x : s.Idx → α) (idx : IVec si w) (c : α) (i : s.Idx)
    (h : ∃ j : u.Idx, d.resultIdx? j idx = some i) :
    Host.scatter d (fun _ b => b) x idx (fun _ => c) i = c := by
  rw [scatter_eq_foldl]
  obtain ⟨j, hj⟩ := h
  exact foldl_scatStep_set_const_hit d idx c i _ x
    ⟨u.rowMajor j, List.mem_finRange _, by rw [Equiv.symm_apply_apply]; exact hj⟩

/-- A scatter at an index no update lands at: the operand's element. -/
theorem scatter_miss (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_eq_foldl]
  exact foldl_scatStep_miss d f idx upd i _ x (fun n _ => h _)

end Scatter

section Pair
variable {α : Type} {N M R w : Nat}

/-- The index-array position of component `c` of the `k`-th index pair of an `[R, 2]` array of (row, column) pairs. -/
abbrev pairIdx (j : (⟨1, ![R]⟩ : Shape).Idx) (c : Fin 2) : (⟨2, ![R, 2]⟩ : Shape).Idx :=
  fun a => match a with | ⟨0, _⟩ => ⟨(j 0).val, (j 0).isLt⟩ | ⟨1, _⟩ => c

/-- The dimension numbers of `x.at[rows, cols].set(v)` on a matrix: both operand axes inserted, the index pair read
    along axis 1 of the `[R, 2]` index array; their conditions `wf` are decided on a program's literal shapes. -/
abbrev pairScatterDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- Update `j` of such a scatter, whose index pair holds the in-range row `p` and column `q`, lands at `(p, q)`. -/
theorem pairScatter_resultIdx (wf : ScatterDims.WF ⟨2, ![N, M]⟩ ⟨2, ![R, 2]⟩ ⟨1, ![R]⟩ [] [0, 1] [0, 1] 1)
    (idx : IVec ⟨2, ![R, 2]⟩ w) (j : (⟨1, ![R]⟩ : Shape).Idx) (p : Fin N) (q : Fin M)
    (hp : (idx (pairIdx j 0)).toInt = (p.val : Int)) (hq : (idx (pairIdx j 1)).toInt = (q.val : Int)) :
    (pairScatterDims N M R wf).resultIdx? j idx = some (ix2 p q) := by
  have hsi : ∀ (c : Fin 2) (hc : c.val < (pairScatterDims N M R wf).scatterDimsToOperandDims.length),
      (pairScatterDims N M R wf).siIdx j ⟨c.val, hc⟩ = pairIdx j c := by
    intro c hc
    funext b; refine Fin.ext ?_
    match b with
    | ⟨0, _⟩ => rfl
    | ⟨1, _⟩ => rfl
  have hs0 : (pairScatterDims N M R wf).start j idx 0 = (p.val : Int) := by
    unfold ScatterDims.start
    rw [dif_pos (show (0 : Fin 2) ∈ [(0 : Fin 2), 1] from by decide)]
    exact (congrArg (fun t => (idx t).toInt) (hsi 0 (show (0 : ℕ) < 2 by decide))).trans hp
  have hs1 : (pairScatterDims N M R wf).start j idx 1 = (q.val : Int) := by
    unfold ScatterDims.start
    rw [dif_pos (show (1 : Fin 2) ∈ [(0 : Fin 2), 1] from by decide)]
    exact (congrArg (fun t => (idx t).toInt) (hsi 1 (show (1 : ℕ) < 2 by decide))).trans hq
  have hw : ∀ a, (pairScatterDims N M R wf).window j a = 0 := by
    intro a
    unfold ScatterDims.window
    rw [dif_neg]
    have hk : ∀ b : Fin 2, b ∉ (List.finRange 2).filter (· ∉ [(0 : Fin 2), 1]) := by decide
    exact hk a
  have H : ∀ a, 0 ≤ (pairScatterDims N M R wf).start j idx a + (pairScatterDims N M R wf).window j a ∧
      (pairScatterDims N M R wf).start j idx a + (pairScatterDims N M R wf).window j a < (⟨2, ![N, M]⟩ : Shape).size a := by
    intro a
    match a with
    | ⟨0, _⟩ =>
      have h0 := hs0; have hw0 := hw 0
      show 0 ≤ (pairScatterDims N M R wf).start j idx 0 + (pairScatterDims N M R wf).window j 0 ∧
        (pairScatterDims N M R wf).start j idx 0 + (pairScatterDims N M R wf).window j 0 < (N : Int)
      rw [h0, hw0]; have := p.isLt; omega
    | ⟨1, _⟩ =>
      have h1 := hs1; have hw1 := hw 1
      show 0 ≤ (pairScatterDims N M R wf).start j idx 1 + (pairScatterDims N M R wf).window j 1 ∧
        (pairScatterDims N M R wf).start j idx 1 + (pairScatterDims N M R wf).window j 1 < (M : Int)
      rw [h1, hw1]; have := q.isLt; omega
  unfold ScatterDims.resultIdx?
  rw [dif_pos H]
  refine congrArg some (funext fun a => Fin.ext ?_)
  match a with
  | ⟨0, _⟩ =>
    show ((pairScatterDims N M R wf).start j idx 0 + (pairScatterDims N M R wf).window j 0).toNat = p.val
    rw [hs0, hw 0]; simp
  | ⟨1, _⟩ =>
    show ((pairScatterDims N M R wf).start j idx 1 + (pairScatterDims N M R wf).window j 1).toNat = q.val
    rw [hs1, hw 1]; simp

/-- The dimension numbers of `x[rows, cols]` on a matrix: single elements, both operand axes collapsed, the index pair
    read along axis 1 of the `[R, 2]` index array. -/
abbrev pairGatherDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Such a gather at `j`: the matrix at the `j`-th index pair, each component read signed and clamped into its axis. -/
theorem gather_pair_apply (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (j : (⟨1, ![R]⟩ : Shape).Idx) :
    Host.gather (pairGatherDims N M R wf) x idx j
      = x (ix2 (⟨min (idx (pairIdx j 0)).toInt.toNat (N - 1), by omega⟩ : Fin N)
               (⟨min (idx (pairIdx j 1)).toInt.toNat (M - 1), by omega⟩ : Fin M)) := by
  unfold Host.gather
  refine congrArg x (funext fun a => Fin.ext ?_)
  have hsi : ∀ (c : Fin 2) (hc : c.val < (pairGatherDims N M R wf).startIndexMap.length),
      (pairGatherDims N M R wf).siIdx j ⟨c.val, hc⟩ = pairIdx j c := by
    intro c hc
    funext b; refine Fin.ext ?_
    match b with
    | ⟨0, _⟩ => rfl
    | ⟨1, _⟩ => rfl
  have hcol : ∀ b : Fin 2, b ∈ [(0 : Fin 2), 1] := by decide
  match a with
  | ⟨0, _⟩ =>
    show (pairGatherDims N M R wf).start j idx 0 + (pairGatherDims N M R wf).batchCoord j 0
      + (pairGatherDims N M R wf).offCoord j 0 = _
    rw [GatherDims.batchCoord_eq_zero _ _ _ List.not_mem_nil,
      GatherDims.offCoord_eq_zero _ _ _ (fun h => ((GatherDims.mem_sKept _ _).mp h).1 (hcol 0))]
    simp only [Nat.add_zero]
    unfold GatherDims.start
    rw [dif_pos (show (0 : Fin 2) ∈ [(0 : Fin 2), 1] from hcol 0)]
    exact congrArg (fun t => min (idx t).toInt.toNat (N - 1)) (hsi 0 (show (0 : ℕ) < 2 by decide))
  | ⟨1, _⟩ =>
    show (pairGatherDims N M R wf).start j idx 1 + (pairGatherDims N M R wf).batchCoord j 1
      + (pairGatherDims N M R wf).offCoord j 1 = _
    rw [GatherDims.batchCoord_eq_zero _ _ _ List.not_mem_nil,
      GatherDims.offCoord_eq_zero _ _ _ (fun h => ((GatherDims.mem_sKept _ _).mp h).1 (hcol 1))]
    simp only [Nat.add_zero]
    unfold GatherDims.start
    rw [dif_pos (show (1 : Fin 2) ∈ [(0 : Fin 2), 1] from hcol 1)]
    exact congrArg (fun t => min (idx t).toInt.toNat (M - 1)) (hsi 1 (show (1 : ℕ) < 2 by decide))

end Pair

end Cert.ReferenceIdeal.RefValue

end
-- ==== Proof.RefLoss.lean ====
/-
  The reference program's value, read operation by operation at the ideal values, is the one-pass NT-Xent loss of
  its normalized rows.

  The program normalizes the 8192 rows; forms the matrix of inner products divided by the temperature 1/2; writes the
  fill on its diagonal by a scatter of 8192 equal updates at the index pairs (k, k); takes the log-softmax of every row
  (row maximum from −∞, shifted exponentials, their sum, its logarithm); gathers the entry at (r, partner r) of every row
  r; sums these, negates, divides by 8192. Each step below reads one stage of that chain at an index.
-/
import proofs.«142451_j57836029608255_1_alg».proof.Proof.RefReadCore
import proofs.«142451_j57836029608255_1_alg».proof.Proof.Spec
import proofs.«142451_j57836029608255_1_alg».proof.Proof.LibPairScatter
import proofs.«142451_j57836029608255_1_alg».proof.Proof.LibMaxTimes

noncomputable section

namespace Cert.ReferenceIdeal.RefValue

open Cert.ReferenceIdeal Cert.ReferenceIdeal.Gen Cert.ReferenceIdeal.Read Idealize.ShloMosaic Idealize.ShloMosaic.ValueIdx

/-! ## Words -/

/-- A natural number below 2^31, as a 32-bit word read signed, is itself. -/
theorem toInt_ofNat_small (k : Nat) (hk : k < 2147483648) : (BitVec.ofNat 32 k).toInt = (k : Int) := by
  have h : k % 2 ^ 32 = k := Nat.mod_eq_of_lt (by omega)
  rw [BitVec.toInt_eq_toNat_cond, BitVec.toNat_ofNat, h, if_pos (by omega)]

/-- Such a word is not negative. -/
theorem slt_zero_ofNat_small (k : Nat) (hk : k < 2147483648) : IntOp.cmpi .slt (BitVec.ofNat 32 k) 0#32 = 0#1 := by
  unfold IntOp.cmpi
  show BitVec.ofBool ((BitVec.ofNat 32 k).slt 0#32) = 0#1
  have h0 : (0#32 : BitVec 32).toInt = 0 := by decide
  have hn : ¬ ((k : Int) < 0) := by omega
  rw [BitVec.slt_eq_decide, toInt_ofNat_small k hk, h0, decide_eq_false hn]
  rfl

/-- The wrap-around of a negative index is never taken on such a word. -/
theorem select_neg_wrap (k : Nat) (hk : k < 2147483648) (a : BitVec 32) :
    Scalar.select (IntOp.cmpi .slt (BitVec.ofNat 32 k) 0#32) a (BitVec.ofNat 32 k) = BitVec.ofNat 32 k := by
  rw [slt_zero_ofNat_small k hk]; exact select_zero _ _

theorem addi_ofNat (a b : Nat) : IntOp.addi (BitVec.ofNat 32 a) (BitVec.ofNat 32 b) = BitVec.ofNat 32 (a + b) :=
  (BitVec.ofNat_add a b).symm

/-- The indices of a vector of length `n` are its coordinates. -/
def idxEquiv1 {n : Nat} : (⟨1, ![n]⟩ : Shape).Idx ≃ Fin n where
  toFun j := j 0
  invFun r := ix1 r
  left_inv j := (eq_ix1 j).symm
  right_inv _ := rfl

theorem sum_idx1 {M : Type*} [AddCommMonoid M] {n : Nat} (f : (⟨1, ![n]⟩ : Shape).Idx → M) :
    ∑ j, f j = ∑ r : Fin n, f (ix1 r) :=
  (Equiv.sum_comp (idxEquiv1 (n := n)).symm f).symm

/-! ## The normalized rows and their inner products -/

/-- The normalized rows: entry `d` of row `r`. -/
abbrev Zn (x0 x1 : (⟨S4096x256, .f32⟩ : BufTy).Contents (Elt Ideal)) : Fin 8192 → Fin 256 → EReal :=
  fun r d => val_main_v8 (F := Ideal) x0 x1 (ix2 r d)

/-- The similarity matrix: the inner product of rows `r` and `c`, divided by the temperature. -/
theorem sim_apply (x0 x1 : (⟨S4096x256, .f32⟩ : BufTy).Contents (Elt Ideal)) (r c : Fin 8192) :
    val_main_v12 (F := Ideal) x0 x1 (ix2 r c) = Ideal.div (NTXent.gram (Zn x0 x1) r c) NTXent.half := by
  rw [val_main_v12_apply, val_main_v10_apply, val_main_v11_apply, val_main_cst_1_apply]
  show Ideal.div (∑ k : Fin 256, _) (Ideal.ofBits .f32 0x3F000000#32) = _
  refine congrArg (fun t => Ideal.div t NTXent.half) (Finset.sum_congr rfl fun k _ => ?_)
  rw [val_main_v9_apply]
  have e1 : lidx_main_v10 (ix2 r c) k = ix2 r k :=
    funext fun a => Fin.ext (by match a with | ⟨0, _⟩ => rfl | ⟨1, _⟩ => rfl)
  have e2 : idx_main_v9 (ridx_main_v10 (ix2 r c) k) = ix2 c k :=
    funext fun a => Fin.ext (by match a with | ⟨0, _⟩ => rfl | ⟨1, _⟩ => rfl)
  rw [e1, e2]

/-! ## The scatter of the fill onto the diagonal -/

/-- The scatter's row indices: the iota, its negative-index wrap-around never taken. -/
theorem idx24_apply (p : Fin 8192) : val_main_v24 (F := Ideal) (ix2 p (0 : Fin 1)) = BitVec.ofNat 32 p.val := by
  have hk : p.val < 2147483648 := by have := p.isLt; omega
  rw [val_main_v24_apply, val_main_v18_apply, val_main_v15_apply, val_main_v13_apply, val_main_v14_apply,
    val_main_c_apply]
  exact select_neg_wrap _ hk _

/-- The scatter's column indices: the same iota. -/
theorem idx25_apply (p : Fin 8192) : val_main_v25 (F := Ideal) (ix2 p (0 : Fin 1)) = BitVec.ofNat 32 p.val := by
  have hk : p.val < 2147483648 := by have := p.isLt; omega
  rw [val_main_v25_apply, val_main_v23_apply, val_main_v20_apply, val_main_v13_apply, val_main_v19_apply,
    val_main_c_3_apply]
  exact select_neg_wrap _ hk _

/-- The scatter's index array holds the pair (k, k) in row k: its row component, -/
theorem idx26_row (j : S8192.Idx) : val_main_v26 (F := Ideal) (pairIdx j 0) = BitVec.ofNat 32 (j 0).val := by
  unfold val_main_v26
  exact (concatenate_pair_apply_left (t := S8192x2) (s₁ := S8192x1) (s₂ := S8192x1) (1 : Fin 2) _ _ _ (pairIdx j 0) rfl
    (ix2 (⟨(j 0).val, (j 0).isLt⟩ : Fin 8192) (0 : Fin 1))
    (fun b => by match b with | ⟨0, _⟩ => rfl | ⟨1, _⟩ => rfl)).trans (idx24_apply _)

/-- and its column component. -/
theorem idx26_col (j : S8192.Idx) : val_main_v26 (F := Ideal) (pairIdx j 1) = BitVec.ofNat 32 (j 0).val := by
  unfold val_main_v26
  exact (concatenate_pair_apply_right (t := S8192x2) (s₁ := S8192x1) (s₂ := S8192x1) (1 : Fin 2) _ _ _ (pairIdx j 1) rfl rfl
    (ix2 (⟨(j 0).val, (j 0).isLt⟩ : Fin 8192) (0 : Fin 1))
    (fun b hb => by match b with | ⟨0, _⟩ => rfl | ⟨1, _⟩ => exact absurd rfl hb) rfl).trans (idx25_apply _)

/-- The updates: every one is the fill. -/
theorem upd27_eq : val_main_v27 (F := Ideal) = fun _ => NTXent.fill := by
  funext i
  rw [val_main_v27_apply, val_main_cst_5_apply]
  rfl

/-- Update `k` of the scatter lands on the diagonal, at (k, k). -/
theorem scatter_lands (j : S8192.Idx) :
    scatter_S8192x8192_S8192x2_S8192_n_01_01_1.resultIdx? j (val_main_v26 (F := Ideal))
      = some (ix2 (⟨(j 0).val, (j 0).isLt⟩ : Fin 8192) (⟨(j 0).val, (j 0).isLt⟩ : Fin 8192)) := by
  have hj : (j 0).val < 8192 := (j 0).isLt
  have hk : (j 0).val < 2147483648 := by omega
  exact pairScatter_resultIdx _ _ j _ _
    ((congrArg BitVec.toInt (idx26_row j)).trans (toInt_ofNat_small _ hk))
    ((congrArg BitVec.toInt (idx26_col j)).trans (toInt_ofNat_small _ hk))

/-- The scores: the fill on the diagonal, the similarity elsewhere. -/
theorem scat_apply (x0 x1 : (⟨S4096x256, .f32⟩ : BufTy).Contents (Elt Ideal)) (r c : Fin 8192) :
    val_main_v28 (F := Ideal) x0 x1 (ix2 r c)
      = if r = c then NTXent.fill else val_main_v12 (F := Ideal) x0 x1 (ix2 r c) := by
  unfold val_main_v28
  rw [upd27_eq]
  by_cases h : r = c
  · subst h
    rw [if_pos rfl]
    exact scatter_set_const_hit _ _ _ _ _ ⟨ix1 r, scatter_lands (ix1 r)⟩
  · rw [if_neg h]
    refine scatter_miss _ _ _ _ _ _ (fun j hj => h ?_)
    rw [scatter_lands j] at hj
    have e := Option.some.inj hj
    have e0 : (⟨(j 0).val, (j 0).isLt⟩ : Fin 8192) = r := congrFun e 0
    have e1 : (⟨(j 0).val, (j 0).isLt⟩ : Fin 8192) = c := congrFun e 1
    exact e0.symm.trans e1

/-- The scores are the specification's. -/
theorem score_apply (x0 x1 : (⟨S4096x256, .f32⟩ : BufTy).Contents (Elt Ideal)) (r c : Fin 8192) :
    val_main_v28 (F := Ideal) x0 x1 (ix2 r c) = NTXent.scoreDiv (Zn x0 x1) r c := by
  rw [scat_apply, sim_apply]; rfl

/-! ## The log-softmax of a row -/

/-- Removing the column axis of the score matrix leaves the row axis. -/
theorem reduces_rows : S8192x8192.Reduces [(1 : Fin 2)] S8192 := by decide

/-- A supremum over the 8192 columns is the fold of `max` from −∞. -/
theorem sup_eq_fold (f : Fin 8192 → EReal) :
    Finset.univ.sup f = (Finset.univ : Finset (Fin 8192)).fold max ⊥ f := by
  unfold Finset.sup
  rfl

/-- The row maximum, from −∞. -/
theorem rowmax_apply (x0 x1 : (⟨S4096x256, .f32⟩ : BufTy).Contents (Elt Ideal)) (r : Fin 8192) :
    val_main_call0_v0 (F := Ideal) x0 x1 (ix1 r)
      = NTXent.rowMax (fun c => val_main_v28 (F := Ideal) x0 x1 (ix2 r c)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  unfold val_main_call0_v0
  generalize val_main_v28 (F := Ideal) x0 x1 = y
  refine (Host.reduce_eq_fold_single _ _ _ _ reduces_rows _ (ix1 r)).trans ?_
  have hf : (y ∘ reduces_rows.lift (ix1 r)) = fun c : Fin 8192 => y (ix2 r c) :=
    funext fun k => congrArg y (MaxTimes.lift_rows reduces_rows r k)
  rw [hf]
  unfold NTXent.rowMax
  rw [sup_eq_fold]
  exact congrArg (fun b => (Finset.univ : Finset (Fin 8192)).fold max b _) MaxTimes.ofBits_neg_inf_f32

/-- The scores of row `r`, as a function of the column. -/
theorem score_row (x0 x1 : (⟨S4096x256, .f32⟩ : BufTy).Contents (Elt Ideal)) (r : Fin 8192) :
    (fun c => val_main_v28 (F := Ideal) x0 x1 (ix2 r c)) = NTXent.scoreDiv (Zn x0 x1) r :=
  funext fun c => score_apply x0 x1 r c

/-- A score less its row's maximum. -/
theorem shifted_apply (x0 x1 : (⟨S4096x256, .f32⟩ : BufTy).Contents (Elt Ideal)) (r c : Fin 8192) :
    val_main_call0_v5 (F := Ideal) x0 x1 (ix2 r c)
      = NTXent.scoreDiv (Zn x0 x1) r c - NTXent.rowMax (NTXent.scoreDiv (Zn x0 x1) r) := by
  have e : idx_main_call0_v3 (idx_main_call0_v4 (ix2 r c)) = ix1 r :=
    funext fun a => Fin.ext (by match a with | ⟨0, _⟩ => rfl)
  rw [val_main_call0_v5_apply, val_main_call0_v4_apply, val_main_call0_v3_apply, val_main_call0_v2_apply,
    val_main_call0_v1_apply, val_main_call0_cst_0_apply, e, rowmax_apply, score_row, score_apply]
  show _ - max (Ideal.ofBits .f32 0xFF800000#32) _ = _
  rw [MaxTimes.ofBits_neg_inf_f32, max_eq_right bot_le]

/-- The sum of the shifted exponentials of a row. -/
theorem sumexp_apply (x0 x1 : (⟨S4096x256, .f32⟩ : BufTy).Contents (Elt Ideal)) (r : Fin 8192) :
    val_main_call0_v7 (F := Ideal) x0 x1 (ix1 r) = NTXent.rowSumExp (NTXent.scoreDiv (Zn x0 x1) r) := by
  rw [val_main_call0_v7_apply, val_main_call0_cst_1_apply]
  show Ideal.ofBits .f32 0x00000000#32 + _ = _
  rw [Ideal.ofBits_zero_f32, zero_add]
  unfold NTXent.rowSumExp
  refine Finset.sum_congr rfl fun k _ => ?_
  have e : idx_main_call0_v7 (ix1 r) k = ix2 r k :=
    funext fun a => Fin.ext (by match a with | ⟨0, _⟩ => rfl | ⟨1, _⟩ => rfl)
  rw [e, val_main_call0_v6_apply, shifted_apply]
  rfl

/-- The log-softmax of the scores at (r, c). -/
theorem logsoftmax_apply (x0 x1 : (⟨S4096x256, .f32⟩ : BufTy).Contents (Elt Ideal)) (r c : Fin 8192) :
    val_main_v34 (F := Ideal) x0 x1 (ix2 r c)
      = (NTXent.scoreDiv (Zn x0 x1) r c - NTXent.rowMax (NTXent.scoreDiv (Zn x0 x1) r))
        - Ideal.log (NTXent.rowSumExp (NTXent.scoreDiv (Zn x0 x1) r)) := by
  have e : idx_main_call0_v8 (idx_main_call0_v10 (ix2 r c)) = ix1 r :=
    funext fun a => Fin.ext (by match a with | ⟨0, _⟩ => rfl)
  rw [val_main_v34_apply, val_main_call0_v10_apply, val_main_call0_v9_apply, val_main_call0_v8_apply, e,
    sumexp_apply, shifted_apply]
  rfl

/-! ## The gather of the partners' entries -/

/-- The partner labels: `k + 4096` for the first 4096 rows, `k − 4096` for the rest. -/
theorem idx33_apply (r : Fin 8192) :
    val_main_v33 (F := Ideal) (ix1 r) = BitVec.ofNat 32 ((r.val + 4096) % 8192) := by
  have hr : r.val < 8192 := r.isLt
  unfold val_main_v33
  by_cases h : r.val < 4096
  · refine (concatenate_pair_apply_left (t := S8192) (s₁ := S4096) (s₂ := S4096) (0 : Fin 1) _ _ _ (ix1 r) rfl
      (ix1 (⟨r.val, h⟩ : Fin 4096)) (fun b => by match b with | ⟨0, _⟩ => rfl)).trans ?_
    rw [val_main_v31_apply, val_main_v29_apply, val_main_v30_apply, val_main_c_6_apply]
    show IntOp.addi (BitVec.ofNat 32 r.val) (BitVec.ofNat 32 4096) = _
    rw [addi_ofNat]
    refine congrArg (BitVec.ofNat 32) ?_
    omega
  · have h' : r.val - 4096 < 4096 := by omega
    refine (concatenate_pair_apply_right (t := S8192) (s₁ := S4096) (s₂ := S4096) (0 : Fin 1) _ _ _ (ix1 r) rfl rfl
      (ix1 (⟨r.val - 4096, h'⟩ : Fin 4096))
      (fun b hb => (hb (Fin.ext (by have h1 : b.val < 1 := b.isLt; show b.val = 0; omega))).elim)
      (by show r.val - 4096 + 4096 = r.val; omega)).trans ?_
    rw [val_main_v32_apply]
    show BitVec.ofNat 32 (r.val - 4096) = _
    refine congrArg (BitVec.ofNat 32) ?_
    omega

/-- The gather's row indices: the iota, its negative-index wrap-around never taken. -/
theorem idx45_apply (p : Fin 8192) : val_main_v45 (F := Ideal) (ix2 p (0 : Fin 1)) = BitVec.ofNat 32 p.val := by
  have hk : p.val < 2147483648 := by have := p.isLt; omega
  rw [val_main_v45_apply, val_main_v39_apply, val_main_v36_apply, val_main_v13_apply, val_main_v35_apply,
    val_main_c_7_apply]
  exact select_neg_wrap _ hk _

/-- The gather's column indices: the partner labels, their wrap-around never taken. -/
theorem idx46_apply (p : Fin 8192) :
    val_main_v46 (F := Ideal) (ix2 p (0 : Fin 1)) = BitVec.ofNat 32 ((p.val + 4096) % 8192) := by
  have hk : (p.val + 4096) % 8192 < 2147483648 := by omega
  have e : idx_main_v46 (ix2 p (0 : Fin 1)) = ix1 p :=
    funext fun a => Fin.ext (by match a with | ⟨0, _⟩ => rfl)
  rw [val_main_v46_apply, val_main_v44_apply, val_main_v41_apply, e, idx33_apply, val_main_v40_apply,
    val_main_c_9_apply]
  exact select_neg_wrap _ hk _

/-- The gather's index array holds the pair (k, partner k) in row k: its row component, -/
theorem idx47_row (j : S8192.Idx) : val_main_v47 (F := Ideal) (pairIdx j 0) = BitVec.ofNat 32 (j 0).val := by
  unfold val_main_v47
  exact (concatenate_pair_apply_left (t := S8192x2) (s₁ := S8192x1) (s₂ := S8192x1) (1 : Fin 2) _ _ _ (pairIdx j 0) rfl
    (ix2 (⟨(j 0).val, (j 0).isLt⟩ : Fin 8192) (0 : Fin 1))
    (fun b => by match b with | ⟨0, _⟩ => rfl | ⟨1, _⟩ => rfl)).trans (idx45_apply _)

/-- and its column component. -/
theorem idx47_col (j : S8192.Idx) :
    val_main_v47 (F := Ideal) (pairIdx j 1) = BitVec.ofNat 32 (((j 0).val + 4096) % 8192) := by
  unfold val_main_v47
  exact (concatenate_pair_apply_right (t := S8192x2) (s₁ := S8192x1) (s₂ := S8192x1) (1 : Fin 2) _ _ _ (pairIdx j 1) rfl rfl
    (ix2 (⟨(j 0).val, (j 0).isLt⟩ : Fin 8192) (0 : Fin 1))
    (fun b hb => by match b with | ⟨0, _⟩ => rfl | ⟨1, _⟩ => exact absurd rfl hb) rfl).trans (idx46_apply _)

/-- The gather reads row `r` at its partner's column. -/
theorem gather_apply (x0 x1 : (⟨S4096x256, .f32⟩ : BufTy).Contents (Elt Ideal)) (r : Fin 8192) :
    val_main_v48 (F := Ideal) x0 x1 (ix1 r) = val_main_v34 (F := Ideal) x0 x1 (ix2 r (NTXent.partner r)) := by
  have hr : r.val < 8192 := r.isLt
  unfold val_main_v48
  generalize val_main_v34 (F := Ideal) x0 x1 = y
  refine (gather_pair_apply (N := 8192) (M := 8192) (R := 8192) (by decide) (by decide) _ y _ (ix1 r)).trans ?_
  refine congrArg y (funext fun a => Fin.ext ?_)
  match a with
  | ⟨0, _⟩ =>
    show min (val_main_v47 (F := Ideal) (pairIdx (ix1 r) 0)).toInt.toNat (8192 - 1) = r.val
    rw [idx47_row, toInt_ofNat_small _ (by show r.val < 2147483648; omega)]
    show min (Int.toNat (r.val : Int)) (8192 - 1) = r.val
    rw [Int.toNat_natCast]; omega
  | ⟨1, _⟩ =>
    show min (val_main_v47 (F := Ideal) (pairIdx (ix1 r) 1)).toInt.toNat (8192 - 1) = (r.val + 4096) % 8192
    rw [idx47_col, toInt_ofNat_small _ (by show (r.val + 4096) % 8192 < 2147483648; omega)]
    show min (Int.toNat (((r.val + 4096) % 8192 : Nat) : Int)) (8192 - 1) = (r.val + 4096) % 8192
    rw [Int.toNat_natCast]; omega

/-! ## The loss -/

/-- The reference program's value is the one-pass loss of its normalized rows. -/
theorem ref_loss (x0 x1 : (⟨S4096x256, .f32⟩ : BufTy).Contents (Elt Ideal)) :
    val_main_v51 (F := Ideal) x0 x1
      = fun _ => NTXent.lossOnePass (fun r d => val_main_v8 (F := Ideal) x0 x1 (ix2 r d)) := by
  funext i
  rw [val_main_v51_apply, val_main_v50_apply, val_main_v49_apply, val_main_cst_12_apply, val_main_cst_11_apply]
  show Ideal.div (-(Ideal.ofBits .f32 0x00000000#32 + ∑ j : S8192.Idx, val_main_v48 (F := Ideal) x0 x1 j))
    (Ideal.ofBits .f32 0x46000000#32) = _
  rw [Ideal.ofBits_zero_f32, zero_add, sum_idx1]
  unfold NTXent.lossOnePass
  refine congrArg (fun t => Ideal.div (-t) NTXent.cnt) (Finset.sum_congr rfl fun r _ => ?_)
  rw [gather_apply, logsoftmax_apply]

end Cert.ReferenceIdeal.RefValue

end
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.RefLossPre.lean ====
/-
  The host's finiteness predicate on the two inputs, read back: where `all(|a| < +∞) and all(|b| < +∞)` holds,
  every entry of both arrays is a real number.
-/
import proofs.«142451_j57836029608255_1_alg».proof.Pre_finite_inputs
import proofs.«142451_j57836029608255_1_alg».proof.Proof.LibReal
import Idealize.ShloMosaic.Lib.ReduceAll
import Idealize.ShloMosaic.Lib.ValueIdx

noncomputable section

namespace Cert.ReferenceIdeal.RefValue

open Idealize.ShloMosaic

/-- The scalar shape has one index. -/
instance subsingleton_scalar_idx : Subsingleton Cert.Pre_finite_inputs.S_.Idx := ⟨fun _ _ => funext fun d => d.elim0⟩

/-- Where the finiteness predicate holds, both inputs are arrays of real numbers. -/
theorem pre_real [Cert.Pre_finite_inputs.Facts] (a b : FVec Ideal Cert.Pre_finite_inputs.S4096x256 .f32)
    (h : Cert.Pre_finite_inputs.fn (F := Ideal) a b = fun _ => 1#1) :
    (∀ i, ∃ r : ℝ, a i = (r : EReal)) ∧ (∀ i, ∃ r : ℝ, b i = (r : EReal)) := by
  have h0 := congrFun h ValueIdx.ix0
  dsimp only [Cert.Pre_finite_inputs.fn] at h0
  obtain ⟨ha, hb⟩ := IntOp.andi_eq_one.1 h0
  constructor
  · intro i
    exact Cert.LibReal.isReal_of_abs_lt_inf (a i) (Host.reduce_andi_all _ _ _ _ _ ha i)
  · intro i
    exact Cert.LibReal.isReal_of_abs_lt_inf (b i) (Host.reduce_andi_all _ _ _ _ _ hb i)

end Cert.ReferenceIdeal.RefValue

end
-- ==== Proof.RefLossReal.lean ====
/-
  The normalized rows are arrays of real numbers when the inputs are.

  An entry of a normalized row is an input entry divided by the larger of the row's norm and a small positive constant.
  With real inputs the squares are non-negative reals, so is their sum over a row, so is its square root; the larger of
  that and a positive real is a positive real; and a real divided by a positive real is a real.
-/
import proofs.«142451_j57836029608255_1_alg».proof.Proof.RefReadCore
import proofs.«142451_j57836029608255_1_alg».proof.Proof.LibReal

noncomputable section

namespace Cert.ReferenceIdeal.RefValue

open Cert.ReferenceIdeal Cert.ReferenceIdeal.Gen Cert.ReferenceIdeal.Read Idealize.ShloMosaic Idealize.ShloMosaic.ValueIdx
open Cert.LibReal

/-- The word 0x322BCC77 denotes a positive real (the f32 nearest to 10⁻⁸): 11258999 · 2⁻⁵⁰. -/
theorem eps_pos : IsPos (Ideal.ofBits .f32 0x322BCC77#32) := by
  have h1 : ((0x322BCC77#32 : BitVec 32).extractLsb' 23 8).toNat = 100 := by decide
  have h2 : ((0x322BCC77#32 : BitVec 32).extractLsb' 0 23).toNat = 2870391 := by decide
  have h3 : ((0x322BCC77#32 : BitVec 32).extractLsb' (8 + 23) 1 == 1#1) = false := by decide
  refine ⟨(11258999 : ℝ) * (2 : ℝ) ^ (-50 : Int), by positivity, ?_⟩
  show Ideal.ieee 8 23 (0x322BCC77#32 : BitVec 32) = _
  unfold Ideal.ieee
  simp only [h1, h2, h3]
  norm_num

/-- The square root of a non-negative real is a non-negative real. -/
theorem isNonneg_sqrt {x : EReal} (hx : IsNonneg x) : IsNonneg (Ideal.sqrt x) := by
  obtain ⟨r, hr, rfl⟩ := hx
  rw [Ideal.sqrt_coe, if_neg (not_lt.mpr hr)]
  exact ⟨Real.sqrt r, Real.sqrt_nonneg r, rfl⟩

/-- The larger of a non-negative real and a positive real is a positive real. -/
theorem isPos_max {x y : EReal} (hx : IsNonneg x) (hy : IsPos y) : IsPos (max x y) := by
  obtain ⟨a, _, rfl⟩ := hx; obtain ⟨b, hb, rfl⟩ := hy
  exact ⟨max a b, lt_max_of_lt_right hb, (EReal.coe_strictMono.monotone.map_max).symm⟩

/-- A real divided by a positive real is a real. -/
theorem isReal_div_pos {x y : EReal} (hx : IsReal x) (hy : IsPos y) : IsReal (Ideal.div x y) := by
  obtain ⟨b, hb, rfl⟩ := hy; exact hx.div_coe hb.ne'

section
variable (x0 x1 : (⟨S4096x256, .f32⟩ : BufTy).Contents (Elt Ideal))
  (h0 : ∀ i, ∃ r : ℝ, x0 i = (r : EReal)) (h1 : ∀ i, ∃ r : ℝ, x1 i = (r : EReal))
include h0 h1

/-- The stacked rows are real: each is a row of one of the inputs. -/
theorem v0_real (i : S8192x256.Idx) : IsReal (val_main_v0 (F := Ideal) x0 x1 i) := by
  have hi : (i 0).val < 8192 := (i 0).isLt
  unfold val_main_v0
  by_cases h : (i 0).val < 4096
  · rw [concatenate_pair_apply_left (t := S8192x256) (s₁ := S4096x256) (s₂ := S4096x256) (0 : Fin 2) _ _ _ i rfl
      (ix2 (⟨(i 0).val, h⟩ : Fin 4096) (⟨(i 1).val, (i 1).isLt⟩ : Fin 256))
      (fun b => by match b with | ⟨0, _⟩ => rfl | ⟨1, _⟩ => rfl)]
    exact h0 _
  · have h' : (i 0).val - 4096 < 4096 := by omega
    rw [concatenate_pair_apply_right (t := S8192x256) (s₁ := S4096x256) (s₂ := S4096x256) (0 : Fin 2) _ _ _ i rfl rfl
      (ix2 (⟨(i 0).val - 4096, h'⟩ : Fin 4096) (⟨(i 1).val, (i 1).isLt⟩ : Fin 256))
      (fun b hb => by
        have h2 : b.val < 2 := b.isLt
        have hne : b.val ≠ 0 := fun e => hb (Fin.ext (by show b.val = 0; exact e))
        have e1 : b = (1 : Fin 2) := Fin.ext (by show b.val = 1; omega)
        subst e1; rfl)
      (by show (i 0).val - 4096 + 4096 = (i 0).val; omega)]
    exact h1 _

/-- A row's sum of squares is a non-negative real. -/
theorem v2_nonneg (i : S8192.Idx) : IsNonneg (val_main_v2 (F := Ideal) x0 x1 i) := by
  rw [val_main_v2_apply, val_main_cst_apply]
  show IsNonneg (Ideal.ofBits .f32 0x00000000#32 + _)
  rw [Ideal.ofBits_zero_f32, zero_add]
  refine IsNonneg.sum _ _ fun k _ => ?_
  rw [val_main_v1_apply]
  exact (v0_real x0 x1 h0 h1 _).mul_self_nonneg

/-- The divisor — the larger of the row's norm and the small constant — is a positive real. -/
theorem v7_pos (i : S8192x256.Idx) : IsPos (val_main_v7 (F := Ideal) x0 x1 i) := by
  rw [val_main_v7_apply, val_main_v6_apply, val_main_v4_apply, val_main_v3_apply, val_main_v5_apply,
    val_main_cst_0_apply]
  show IsPos (max (Ideal.sqrt _) (Ideal.ofBits .f32 0x322BCC77#32))
  exact isPos_max (isNonneg_sqrt (v2_nonneg x0 x1 h0 h1 _)) eps_pos

/-- With real inputs, every entry of the normalized rows is a real number. -/
theorem zn_real : ∀ i, ∃ r : ℝ, val_main_v8 (F := Ideal) x0 x1 i = (r : EReal) := by
  intro i
  rw [val_main_v8_apply]
  exact isReal_div_pos (v0_real x0 x1 h0 h1 i) (v7_pos x0 x1 h0 h1 _)

end

end Cert.ReferenceIdeal.RefValue

end
-- ==== Proof.Bridge.lean ====
/-
  The two programs meet.

  Both programs normalize the rows by the same twelve host operations, so the matrix the streaming program's region finds
  is the one-pass program's normalized rows of the same two arguments. Under the precondition every argument entry is a
  real number, hence so is every normalized entry; for real rows the streaming loss and the one-pass loss are equal
  (the streamed logsumexp is the one-pass one; a quotient by 1/2 is a product with 2; a row's partner score is the same
  number from either row of the pair). So the streaming program's scalar result is the one-pass program's.
-/
import proofs.«142451_j57836029608255_1_alg».proof.Proof.KResult
import proofs.«142451_j57836029608255_1_alg».proof.Proof.RefLoss
import proofs.«142451_j57836029608255_1_alg».proof.Proof.RefLossPre
import proofs.«142451_j57836029608255_1_alg».proof.Proof.RefLossReal
import proofs.«142451_j57836029608255_1_alg».proof.Proof.SpecLaws
import proofs.«142451_j57836029608255_1_alg».proof.Proof.Gen.Pre_finite_inputs
import proofs.«142451_j57836029608255_1_alg».proof.Defs

set_option maxRecDepth 16384

noncomputable section

namespace Cert.Proof.Bridge

open Idealize.ShloMosaic Idealize.ShloMosaic.TcCoe Idealize.SL.Sem Idealize.ShloMosaic.StableHlo Idealize.ShloMosaic.ValueIdx

variable (m : (ℓ : Loc Cert.KernelIdeal.nD Cert.KernelIdeal.τ Cert.KernelIdeal.sig) → Buf (Elt Ideal) ℓ)

/-- The matrix the region finds is the one-pass program's normalized rows of the same arguments. -/
theorem V9_eq (c : Dev Cert.KernelIdeal.nD) :
    (Cert.KernelIdeal.Hand.V m c Cert.KernelIdeal.main_v9 : Cert.KernelIdeal.S8192x256.Idx → EReal)
      = Cert.ReferenceIdeal.Read.val_main_v8 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v9) = _
  after_results
  rfl

/-- Under the precondition the streaming program's scalar result is the one-pass program's value of the same arguments. -/
theorem result_eq_reference (c : Dev Cert.KernelIdeal.nD) (hpre : Cert.Pre_KernelIdeal m) :
    Cert.KernelIdeal.Hand.Wend m c (Proc.devRef .tc Cert.KernelIdeal.main_v22)
      = Cert.ReferenceIdeal.Read.val_main_v51 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  obtain ⟨h0, h1⟩ := Cert.ReferenceIdeal.RefValue.pre_real _ _ (hpre c)
  rw [Cert.KernelIdeal.Hand.result_eq, Cert.ReferenceIdeal.RefValue.ref_loss]
  have hZ : Cert.KernelIdeal.Hand.Zof m c = fun r d => Cert.ReferenceIdeal.Read.val_main_v8 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (ix2 r d) := by
    funext r d; unfold Cert.KernelIdeal.Hand.Zof; rw [V9_eq]
  funext _
  rw [hZ]
  exact NTXent.loss_eq _ (fun r d => Cert.ReferenceIdeal.RefValue.zn_real _ _ h0 h1 _)

end Cert.Proof.Bridge

end
-- ==== Proof.RefRunHand.lean ====
/-
  The one-pass program's run, read back stretch by stretch.

  The program is 81 host operations. Its run ends with every buffer at the fold of the operations' results over the launch
  contents; that fold is evaluated here in short stretches — the normalization, the scaled Gram matrix, the index vectors,
  the scatter of the diagonal fill (one operation), the partners' indices, the row-wise log-softmax (the row maximum; then, one operation at a time, the maximum against -∞ and its two broadcasts; the shift; the row sum's logarithm; the difference), the gather's index
  arithmetic, its index columns, their join (one operation), the gather (one operation), the sum, sign and mean — each stretch read from what the one before left at the few
  buffers it needs, so that no stage's definition is ever opened: every equation is between a stage and the operation
  applied to the stages before it.
-/
import proofs.«142451_j57836029608255_1_alg».proof.Proof.RefOps
import proofs.«142451_j57836029608255_1_alg».proof.Proof.RefReadCore

noncomputable section

namespace Cert.ReferenceIdeal.RunParts

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-- Two stretches run one after the other are their concatenation run as one. -/
theorem after_app : ∀ (l₁ l₂ : List (HloOp τ sig (Elt F))) (V : Valuation τ sig (Elt F)), after (l₁ ++ l₂) V = after l₂ (after l₁ V)
  | [], _, _ => rfl
  | op :: l, l₂, V => after_app l l₂ (op.result V)

/-- Operations 0–10 of the program: writes `main_v8`. -/
abbrev opsA : List (HloOp τ sig (Elt F)) :=
  [
    binary main_arg0 main_arg1 main_v0 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    binary main_v0 main_v0 main_v1 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v1 main_cst main_v2 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v2 main_v3 (broadcastInDim S8192x1 ![0] bcast_S8192_S8192x1_0 : (⟨S8192, .f32⟩ : BufTy).Contents (Elt F) → (⟨S8192x1, .f32⟩ : BufTy).Contents (Elt F)),
    unary main_v3 main_v4 (Host.sqrt : (⟨S8192x1, .f32⟩ : BufTy).Contents (Elt F) → (⟨S8192x1, .f32⟩ : BufTy).Contents (Elt F)),
    nullary main_cst_0 (constant S_ .f32 0x322BCC77#32),
    unary main_cst_0 main_v5 (broadcastInDim S8192x1 ![] bcast_S_S8192x1 : (⟨S_, .f32⟩ : BufTy).Contents (Elt F) → (⟨S8192x1, .f32⟩ : BufTy).Contents (Elt F)),
    binary main_v4 main_v5 main_v6 (maximumf : (⟨S8192x1, .f32⟩ : BufTy).Contents (Elt F) → (⟨S8192x1, .f32⟩ : BufTy).Contents (Elt F) → (⟨S8192x1, .f32⟩ : BufTy).Contents (Elt F)),
    unary main_v6 main_v7 (broadcastInDim S8192x256 ![0, 1] bcast_S8192x1_S8192x256_0_1 : (⟨S8192x1, .f32⟩ : BufTy).Contents (Elt F) → (⟨S8192x256, .f32⟩ : BufTy).Contents (Elt F)),
    binary main_v0 main_v7 main_v8 (Host.divf : (⟨S8192x256, .f32⟩ : BufTy).Contents (Elt F) → (⟨S8192x256, .f32⟩ : BufTy).Contents (Elt F) → (⟨S8192x256, .f32⟩ : BufTy).Contents (Elt F)) ]

set_option maxRecDepth 8192 in
theorem stepA (W : Valuation τ sig (Elt F)) (x0 x1 : (⟨S4096x256, .f32⟩ : BufTy).Contents (Elt F))
    (h_arg0 : W (Proc.devRef .tc main_arg0) = x0)
    (h_arg1 : W (Proc.devRef .tc main_arg1) = x1) :
    after opsA W (Proc.devRef .tc main_v8) = val_main_v8 (F := F) x0 x1
    ∧ after opsA W (Proc.devRef .tc main_arg0) = x0
    ∧ after opsA W (Proc.devRef .tc main_arg1) = x1 := by
  refine ⟨?_, ?_, ?_⟩
  · after_results_simp
    (try rw [h_arg0]); (try rw [h_arg1])
    simp only [val_main_v8, val_main_v7, val_main_v6, val_main_v5, val_main_cst_0, val_main_v4, val_main_v3, val_main_v2, val_main_cst, val_main_v1, val_main_v0, TRef.toBuf, TRef.ofBuf, cast_eq]
    try rfl
  · after_results_simp; exact h_arg0
  · after_results_simp; exact h_arg1

/-- Operations 11–15 of the program: writes `main_v12`. -/
abbrev opsB : List (HloOp τ sig (Elt F)) :=
  [
    unary main_v8 main_v9 ((transpose S256x8192 [1, 0] · transposes_S8192x256_S256x8192_1_0) : (⟨S8192x256, .f32⟩ : BufTy).Contents (Elt F) → (⟨S256x8192, .f32⟩ : BufTy).Contents (Elt F)),
    binary main_v8 main_v9 main_v10 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    nullary main_cst_1 (constant S_ .f32 0x3F000000#32),
    unary main_cst_1 main_v11 (broadcastInDim S8192x8192 ![] bcast_S_S8192x8192 : (⟨S_, .f32⟩ : BufTy).Contents (Elt F) → (⟨S8192x8192, .f32⟩ : BufTy).Contents (Elt F)),
    binary main_v10 main_v11 main_v12 (Host.divf : (⟨S8192x8192, .f32⟩ : BufTy).Contents (Elt F) → (⟨S8192x8192, .f32⟩ : BufTy).Contents (Elt F) → (⟨S8192x8192, .f32⟩ : BufTy).Contents (Elt F)) ]

set_option maxRecDepth 8192 in
theorem stepB (W : Valuation τ sig (Elt F)) (x0 x1 : (⟨S4096x256, .f32⟩ : BufTy).Contents (Elt F))
    (h_v8 : W (Proc.devRef .tc main_v8) = val_main_v8 (F := F) x0 x1)
    (h_arg0 : W (Proc.devRef .tc main_arg0) = x0)
    (h_arg1 : W (Proc.devRef .tc main_arg1) = x1) :
    after opsB W (Proc.devRef .tc main_v12) = val_main_v12 (F := F) x0 x1
    ∧ after opsB W (Proc.devRef .tc main_arg0) = x0
    ∧ after opsB W (Proc.devRef .tc main_arg1) = x1 := by
  refine ⟨?_, ?_, ?_⟩
  · after_results_simp
    (try rw [h_v8]); (try rw [h_arg0]); (try rw [h_arg1])
    simp only [val_main_v12, val_main_v11, val_main_cst_1, val_main_v10, val_main_v9, TRef.toBuf, TRef.ofBuf, cast_eq]
    try rfl
  · after_results_simp; exact h_arg0
  · after_results_simp; exact h_arg1

/-- Operations 16–35 of the program: writes `main_v26`, `main_v27`, `main_v13`. -/
abbrev opsC1 : List (HloOp τ sig (Elt F)) :=
  [
    nullary main_v13 (iotaInDim S8192 32 0),
    nullary main_c (constantI S_ 32 0#32),
    unary main_c main_v14 (broadcastInDim S8192 ![] bcast_S_S8192 : (⟨S_, .i32⟩ : BufTy).Contents (Elt F) → (⟨S8192, .i32⟩ : BufTy).Contents (Elt F)),
    binary main_v13 main_v14 main_v15 (cmpi .slt : (⟨S8192, .i32⟩ : BufTy).Contents (Elt F) → (⟨S8192, .i32⟩ : BufTy).Contents (Elt F) → (⟨S8192, .i1⟩ : BufTy).Contents (Elt F)),
    nullary main_c_2 (constantI S_ 32 8192#32),
    unary main_c_2 main_v16 (broadcastInDim S8192 ![] bcast_S_S8192 : (⟨S_, .i32⟩ : BufTy).Contents (Elt F) → (⟨S8192, .i32⟩ : BufTy).Contents (Elt F)),
    binary main_v13 main_v16 main_v17 (addi : (⟨S8192, .i32⟩ : BufTy).Contents (Elt F) → (⟨S8192, .i32⟩ : BufTy).Contents (Elt F) → (⟨S8192, .i32⟩ : BufTy).Contents (Elt F)),
    ternary main_v15 main_v17 main_v13 main_v18 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_3 (constantI S_ 32 0#32),
    unary main_c_3 main_v19 (broadcastInDim S8192 ![] bcast_S_S8192 : (⟨S_, .i32⟩ : BufTy).Contents (Elt F) → (⟨S8192, .i32⟩ : BufTy).Contents (Elt F)),
    binary main_v13 main_v19 main_v20 (cmpi .slt : (⟨S8192, .i32⟩ : BufTy).Contents (Elt F) → (⟨S8192, .i32⟩ : BufTy).Contents (Elt F) → (⟨S8192, .i1⟩ : BufTy).Contents (Elt F)),
    nullary main_c_4 (constantI S_ 32 8192#32),
    unary main_c_4 main_v21 (broadcastInDim S8192 ![] bcast_S_S8192 : (⟨S_, .i32⟩ : BufTy).Contents (Elt F) → (⟨S8192, .i32⟩ : BufTy).Contents (Elt F)),
    binary main_v13 main_v21 main_v22 (addi : (⟨S8192, .i32⟩ : BufTy).Contents (Elt F) → (⟨S8192, .i32⟩ : BufTy).Contents (Elt F) → (⟨S8192, .i32⟩ : BufTy).Contents (Elt F)),
    ternary main_v20 main_v22 main_v13 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v18 main_v24 (broadcastInDim S8192x1 ![0] bcast_S8192_S8192x1_0 : (⟨S8192, .i32⟩ : BufTy).Contents (Elt F) → (⟨S8192x1, .i32⟩ : BufTy).Contents (Elt F)),
    unary main_v23 main_v25 (broadcastInDim S8192x1 ![0] bcast_S8192_S8192x1_0 : (⟨S8192, .i32⟩ : BufTy).Contents (Elt F) → (⟨S8192x1, .i32⟩ : BufTy).Contents (Elt F)),
    binary main_v24 main_v25 main_v26 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    nullary main_cst_5 (constant S_ .f32 0xCE6E6B28#32),
    unary main_cst_5 main_v27 (broadcastInDim S8192 ![] bcast_S_S8192 : (⟨S_, .f32⟩ : BufTy).Contents (Elt F) → (⟨S8192, .f32⟩ : BufTy).Contents (Elt F)) ]

set_option maxRecDepth 8192 in
theorem stepC1 (W : Valuation τ sig (Elt F)) (x0 x1 : (⟨S4096x256, .f32⟩ : BufTy).Contents (Elt F))
    (h_v12 : W (Proc.devRef .tc main_v12) = val_main_v12 (F := F) x0 x1)
    (h_arg0 : W (Proc.devRef .tc main_arg0) = x0)
    (h_arg1 : W (Proc.devRef .tc main_arg1) = x1) :
    after opsC1 W (Proc.devRef .tc main_v12) = val_main_v12 (F := F) x0 x1
    ∧ after opsC1 W (Proc.devRef .tc main_v26) = val_main_v26 (F := F)
    ∧ after opsC1 W (Proc.devRef .tc main_v27) = val_main_v27 (F := F)
    ∧ after opsC1 W (Proc.devRef .tc main_v13) = val_main_v13 (F := F)
    ∧ after opsC1 W (Proc.devRef .tc main_arg0) = x0
    ∧ after opsC1 W (Proc.devRef .tc main_arg1) = x1 := by
  refine ⟨?_, ?_, ?_, ?_, ?_, ?_⟩
  · after_results_simp; exact h_v12
  · after_results_simp
    (try rw [h_v12]); (try rw [h_arg0]); (try rw [h_arg1])
    simp only [val_main_v27, val_main_cst_5, val_main_v26, val_main_v25, val_main_v24, val_main_v23, val_main_v22, val_main_v21, val_main_c_4, val_main_v20, val_main_v19, val_main_c_3, val_main_v18, val_main_v17, val_main_v16, val_main_c_2, val_main_v15, val_main_v14, val_main_c, val_main_v13, TRef.toBuf, TRef.ofBuf, cast_eq]
    try rfl
  · after_results_simp
    (try rw [h_v12]); (try rw [h_arg0]); (try rw [h_arg1])
    simp only [val_main_v27, val_main_cst_5, val_main_v26, val_main_v25, val_main_v24, val_main_v23, val_main_v22, val_main_v21, val_main_c_4, val_main_v20, val_main_v19, val_main_c_3, val_main_v18, val_main_v17, val_main_v16, val_main_c_2, val_main_v15, val_main_v14, val_main_c, val_main_v13, TRef.toBuf, TRef.ofBuf, cast_eq]
    try rfl
  · after_results_simp
    (try rw [h_v12]); (try rw [h_arg0]); (try rw [h_arg1])
    simp only [val_main_v27, val_main_cst_5, val_main_v26, val_main_v25, val_main_v24, val_main_v23, val_main_v22, val_main_v21, val_main_c_4, val_main_v20, val_main_v19, val_main_c_3, val_main_v18, val_main_v17, val_main_v16, val_main_c_2, val_main_v15, val_main_v14, val_main_c, val_main_v13, TRef.toBuf, TRef.ofBuf, cast_eq]
    try rfl
  · after_results_simp; exact h_arg0
  · after_results_simp; exact h_arg1

/-- Operation 36 of the program: writes `main_v28`. -/
abbrev opsC2 : List (HloOp τ sig (Elt F)) :=
  [
    ternary main_v12 main_v26 main_v27 main_v28 ((fun x i u => Host.scatter scatter_S8192x8192_S8192x2_S8192_n_01_01_1 (fun _ b => b) x i u) : (⟨S8192x8192, .f32⟩ : BufTy).Contents (Elt F) → (⟨S8192x2, .i32⟩ : BufTy).Contents (Elt F) → (⟨S8192, .f32⟩ : BufTy).Contents (Elt F) → (⟨S8192x8192, .f32⟩ : BufTy).Contents (Elt F)) ]

set_option maxRecDepth 8192 in
theorem stepC2 (W : Valuation τ sig (Elt F)) (x0 x1 : (⟨S4096x256, .f32⟩ : BufTy).Contents (Elt F))
    (h_v12 : W (Proc.devRef .tc main_v12) = val_main_v12 (F := F) x0 x1)
    (h_v26 : W (Proc.devRef .tc main_v26) = val_main_v26 (F := F))
    (h_v27 : W (Proc.devRef .tc main_v27) = val_main_v27 (F := F))
    (h_v13 : W (Proc.devRef .tc main_v13) = val_main_v13 (F := F))
    (h_arg0 : W (Proc.devRef .tc main_arg0) = x0)
    (h_arg1 : W (Proc.devRef .tc main_arg1) = x1) :
    after opsC2 W (Proc.devRef .tc main_v28) = val_main_v28 (F := F) x0 x1
    ∧ after opsC2 W (Proc.devRef .tc main_v13) = val_main_v13 (F := F)
    ∧ after opsC2 W (Proc.devRef .tc main_arg0) = x0
    ∧ after opsC2 W (Proc.devRef .tc main_arg1) = x1 := by
  refine ⟨?_, ?_, ?_, ?_⟩
  · after_results_simp
    (try rw [h_v12]); (try rw [h_v26]); (try rw [h_v27]); (try rw [h_v13]); (try rw [h_arg0]); (try rw [h_arg1])
    simp only [val_main_v28, TRef.toBuf, TRef.ofBuf, cast_eq]
    try rfl
  · after_results_simp; exact h_v13
  · after_results_simp; exact h_arg0
  · after_results_simp; exact h_arg1

/-- Operations 37–42 of the program: writes `main_v33`. -/
abbrev opsD : List (HloOp τ sig (Elt F)) :=
  [
    nullary main_v29 (iotaInDim S4096 32 0),
    nullary main_c_6 (constantI S_ 32 4096#32),
    unary main_c_6 main_v30 (broadcastInDim S4096 ![] bcast_S_S4096 : (⟨S_, .i32⟩ : BufTy).Contents (Elt F) → (⟨S4096, .i32⟩ : BufTy).Contents (Elt F)),
    binary main_v29 main_v30 main_v31 (addi : (⟨S4096, .i32⟩ : BufTy).Contents (Elt F) → (⟨S4096, .i32⟩ : BufTy).Contents (Elt F) → (⟨S4096, .i32⟩ : BufTy).Contents (Elt F)),
    nullary main_v32 (iotaInDim S4096 32 0),
    binary main_v31 main_v32 main_v33 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)) ]

set_option maxRecDepth 8192 in
theorem stepD (W : Valuation τ sig (Elt F)) (x0 x1 : (⟨S4096x256, .f32⟩ : BufTy).Contents (Elt F))
    (h_v28 : W (Proc.devRef .tc main_v28) = val_main_v28 (F := F) x0 x1)
    (h_v13 : W (Proc.devRef .tc main_v13) = val_main_v13 (F := F))
    (h_arg0 : W (Proc.devRef .tc main_arg0) = x0)
    (h_arg1 : W (Proc.devRef .tc main_arg1) = x1) :
    after opsD W (Proc.devRef .tc main_v28) = val_main_v28 (F := F) x0 x1
    ∧ after opsD W (Proc.devRef .tc main_v13) = val_main_v13 (F := F)
    ∧ after opsD W (Proc.devRef .tc main_v33) = val_main_v33 (F := F)
    ∧ after opsD W (Proc.devRef .tc main_arg0) = x0
    ∧ after opsD W (Proc.devRef .tc main_arg1) = x1 := by
  refine ⟨?_, ?_, ?_, ?_, ?_⟩
  · after_results_simp; exact h_v28
  · after_results_simp; exact h_v13
  · after_results_simp
    (try rw [h_v28]); (try rw [h_v13]); (try rw [h_arg0]); (try rw [h_arg1])
    simp only [val_main_v33, val_main_v32, val_main_v31, val_main_v30, val_main_c_6, val_main_v29, TRef.toBuf, TRef.ofBuf, cast_eq]
    try rfl
  · after_results_simp; exact h_arg0
  · after_results_simp; exact h_arg1

/-- Operations 43–44 of the program: writes `main_call0_v0`. -/
abbrev opsE1 : List (HloOp τ sig (Elt F)) :=
  [
    TRef.nullary (TRef.of (T := ⟨S_, .f32⟩) main_call0_cst) (constant S_ .f32 0xFF800000#32),
    TRef.binary (TRef.of (T := ⟨S8192x8192, .f32⟩) main_v28) (TRef.of (T := ⟨S_, .f32⟩) main_call0_cst) (TRef.of (T := ⟨S8192, .f32⟩) main_call0_v0) (fun x v => Host.reduce FloatOps.maximumf x v reducesTo_S8192x8192_S8192_d1 h_S_) ]

set_option maxRecDepth 8192 in
theorem stepE1 (W : Valuation τ sig (Elt F)) (x0 x1 : (⟨S4096x256, .f32⟩ : BufTy).Contents (Elt F))
    (h_v28 : W (Proc.devRef .tc main_v28) = val_main_v28 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE1 W (Proc.devRef .tc main_v28) = val_main_v28 (F := F) x0 x1
    ∧ after opsE1 W (Proc.devRef .tc main_call0_v0) = val_main_call0_v0 (F := F) x0 x1
    ∧ after opsE1 W (Proc.devRef .tc main_v13) = val_main_v13 (F := F)
    ∧ after opsE1 W (Proc.devRef .tc main_v33) = val_main_v33 (F := F)
    ∧ after opsE1 W (Proc.devRef .tc main_arg0) = x0
    ∧ after opsE1 W (Proc.devRef .tc main_arg1) = x1 := by
  refine ⟨?_, ?_, ?_, ?_, ?_, ?_⟩
  · after_results_simp; exact h_v28
  · after_results_simp
    (try rw [h_v28]); (try rw [h_v13]); (try rw [h_v33]); (try rw [h_arg0]); (try rw [h_arg1])
    simp only [val_main_call0_v0, val_main_call0_cst, TRef.toBuf, TRef.ofBuf, cast_eq]
    try rfl
  · after_results_simp; exact h_v13
  · after_results_simp; exact h_v33
  · after_results_simp; exact h_arg0
  · after_results_simp; exact h_arg1

/-- Operation 45 of the program: writes `main_call0_cst_0`. -/
abbrev opsE2a : List (HloOp τ sig (Elt F)) :=
  [
    TRef.nullary (TRef.of (T := ⟨S_, .f32⟩) main_call0_cst_0) (constant S_ .f32 0xFF800000#32) ]

set_option maxRecDepth 8192 in
theorem stepE2a (W : Valuation τ sig (Elt F)) (x0 x1 : (⟨S4096x256, .f32⟩ : BufTy).Contents (Elt F))
    (h_v28 : W (Proc.devRef .tc main_v28) = val_main_v28 (F := F) x0 x1)
    (h_call0_v0 : W (Proc.devRef .tc main_call0_v0) = val_main_call0_v0 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE2a W (Proc.devRef .tc main_v28) = val_main_v28 (F := F) x0 x1
    ∧ after opsE2a W (Proc.devRef .tc main_call0_v0) = val_main_call0_v0 (F := F) x0 x1
    ∧ after opsE2a W (Proc.devRef .tc main_call0_cst_0) = val_main_call0_cst_0 (F := F)
    ∧ after opsE2a W (Proc.devRef .tc main_v13) = val_main_v13 (F := F)
    ∧ after opsE2a W (Proc.devRef .tc main_v33) = val_main_v33 (F := F)
    ∧ after opsE2a W (Proc.devRef .tc main_arg0) = x0
    ∧ after opsE2a W (Proc.devRef .tc main_arg1) = x1 := by
  refine ⟨?_, ?_, ?_, ?_, ?_, ?_, ?_⟩
  · after_results_simp; exact h_v28
  · after_results_simp; exact h_call0_v0
  · after_results_simp
    (try rw [h_v28]); (try rw [h_call0_v0]); (try rw [h_v13]); (try rw [h_v33]); (try rw [h_arg0]); (try rw [h_arg1])
    simp only [val_main_call0_cst_0, TRef.toBuf, TRef.ofBuf, cast_eq]
    try rfl
  · after_results_simp; exact h_v13
  · after_results_simp; exact h_v33
  · after_results_simp; exact h_arg0
  · after_results_simp; exact h_arg1

/-- Operation 46 of the program: writes `main_call0_v1`. -/
abbrev opsE2b : List (HloOp τ sig (Elt F)) :=
  [
    TRef.unary (TRef.of (T := ⟨S_, .f32⟩) main_call0_cst_0) (TRef.of (T := ⟨S8192, .f32⟩) main_call0_v1) (broadcastInDim S8192 ![] bcast_S_S8192) ]

set_option maxRecDepth 8192 in
theorem stepE2b (W : Valuation τ sig (Elt F)) (x0 x1 : (⟨S4096x256, .f32⟩ : BufTy).Contents (Elt F))
    (h_v28 : W (Proc.devRef .tc main_v28) = val_main_v28 (F := F) x0 x1)
    (h_call0_v0 : W (Proc.devRef .tc main_call0_v0) = val_main_call0_v0 (F := F) x0 x1)
    (h_call0_cst_0 : W (Proc.devRef .tc main_call0_cst_0) = val_main_call0_cst_0 (F := F))
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE2b W (Proc.devRef .tc main_v28) = val_main_v28 (F := F) x0 x1
    ∧ after opsE2b W (Proc.devRef .tc main_call0_v0) = val_main_call0_v0 (F := F) x0 x1
    ∧ after opsE2b W (Proc.devRef .tc main_call0_v1) = val_main_call0_v1 (F := F)
    ∧ after opsE2b W (Proc.devRef .tc main_v13) = val_main_v13 (F := F)
    ∧ after opsE2b W (Proc.devRef .tc main_v33) = val_main_v33 (F := F)
    ∧ after opsE2b W (Proc.devRef .tc main_arg0) = x0
    ∧ after opsE2b W (Proc.devRef .tc main_arg1) = x1 := by
  refine ⟨?_, ?_, ?_, ?_, ?_, ?_, ?_⟩
  · after_results_simp; exact h_v28
  · after_results_simp; exact h_call0_v0
  · after_results_simp
    (try rw [h_v28]); (try rw [h_call0_v0]); (try rw [h_call0_cst_0]); (try rw [h_v13]); (try rw [h_v33]); (try rw [h_arg0]); (try rw [h_arg1])
    simp only [val_main_call0_v1, TRef.toBuf, TRef.ofBuf, cast_eq]
    try rfl
  · after_results_simp; exact h_v13
  · after_results_simp; exact h_v33
  · after_results_simp; exact h_arg0
  · after_results_simp; exact h_arg1

/-- Operation 47 of the program: writes `main_call0_v2`. -/
abbrev opsE2c : List (HloOp τ sig (Elt F)) :=
  [
    TRef.binary (TRef.of (T := ⟨S8192, .f32⟩) main_call0_v1) (TRef.of (T := ⟨S8192, .f32⟩) main_call0_v0) (TRef.of (T := ⟨S8192, .f32⟩) main_call0_v2) maximumf ]

set_option maxRecDepth 8192 in
theorem stepE2c (W : Valuation τ sig (Elt F)) (x0 x1 : (⟨S4096x256, .f32⟩ : BufTy).Contents (Elt F))
    (h_v28 : W (Proc.devRef .tc main_v28) = val_main_v28 (F := F) x0 x1)
    (h_call0_v0 : W (Proc.devRef .tc main_call0_v0) = val_main_call0_v0 (F := F) x0 x1)
    (h_call0_v1 : W (Proc.devRef .tc main_call0_v1) = val_main_call0_v1 (F := F))
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE2c W (Proc.devRef .tc main_v28) = val_main_v28 (F := F) x0 x1
    ∧ after opsE2c W (Proc.devRef .tc main_call0_v2) = val_main_call0_v2 (F := F) x0 x1
    ∧ after opsE2c W (Proc.devRef .tc main_v13) = val_main_v13 (F := F)
    ∧ after opsE2c W (Proc.devRef .tc main_v33) = val_main_v33 (F := F)
    ∧ after opsE2c W (Proc.devRef .tc main_arg0) = x0
    ∧ after opsE2c W (Proc.devRef .tc main_arg1) = x1 := by
  refine ⟨?_, ?_, ?_, ?_, ?_, ?_⟩
  · after_results_simp; exact h_v28
  · after_results_simp
    simp only [h_v28, h_call0_v0, h_call0_v1, h_v13, h_v33, h_arg0, h_arg1, val_main_call0_v2, TRef.toBuf, TRef.ofBuf, cast_eq]
  · after_results_simp; exact h_v13
  · after_results_simp; exact h_v33
  · after_results_simp; exact h_arg0
  · after_results_simp; exact h_arg1

/-- Operation 48 of the program: writes `main_call0_v3`. -/
abbrev opsE2d : List (HloOp τ sig (Elt F)) :=
  [
    TRef.unary (TRef.of (T := ⟨S8192, .f32⟩) main_call0_v2) (TRef.of (T := ⟨S8192x1, .f32⟩) main_call0_v3) (broadcastInDim S8192x1 ![0] bcast_S8192_S8192x1_0) ]

set_option maxRecDepth 8192 in
theorem stepE2d (W : Valuation τ sig (Elt F)) (x0 x1 : (⟨S4096x256, .f32⟩ : BufTy).Contents (Elt F))
    (h_v28 : W (Proc.devRef .tc main_v28) = val_main_v28 (F := F) x0 x1)
    (h_call0_v2 : W (Proc.devRef .tc main_call0_v2) = val_main_call0_v2 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE2d W (Proc.devRef .tc main_v28) = val_main_v28 (F := F) x0 x1
    ∧ after opsE2d W (Proc.devRef .tc main_call0_v3) = val_main_call0_v3 (F := F) x0 x1
    ∧ after opsE2d W (Proc.devRef .tc main_v13) = val_main_v13 (F := F)
    ∧ after opsE2d W (Proc.devRef .tc main_v33) = val_main_v33 (F := F)
    ∧ after opsE2d W (Proc.devRef .tc main_arg0) = x0
    ∧ after opsE2d W (Proc.devRef .tc main_arg1) = x1 := by
  refine ⟨?_, ?_, ?_, ?_, ?_, ?_⟩
  · after_results_simp; exact h_v28
  · after_results_simp
    (try rw [h_v28]); (try rw [h_call0_v2]); (try rw [h_v13]); (try rw [h_v33]); (try rw [h_arg0]); (try rw [h_arg1])
    simp only [val_main_call0_v3, TRef.toBuf, TRef.ofBuf, cast_eq]
    try rfl
  · after_results_simp; exact h_v13
  · after_results_simp; exact h_v33
  · after_results_simp; exact h_arg0
  · after_results_simp; exact h_arg1

/-- Operation 49 of the program: writes `main_call0_v4`. -/
abbrev opsE2e : List (HloOp τ sig (Elt F)) :=
  [
    TRef.unary (TRef.of (T := ⟨S8192x1, .f32⟩) main_call0_v3) (TRef.of (T := ⟨S8192x8192, .f32⟩) main_call0_v4) (broadcastInDim S8192x8192 ![0, 1] bcast_S8192x1_S8192x8192_0_1) ]

set_option maxRecDepth 8192 in
theorem stepE2e (W : Valuation τ sig (Elt F)) (x0 x1 : (⟨S4096x256, .f32⟩ : BufTy).Contents (Elt F))
    (h_v28 : W (Proc.devRef .tc main_v28) = val_main_v28 (F := F) x0 x1)
    (h_call0_v3 : W (Proc.devRef .tc main_call0_v3) = val_main_call0_v3 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE2e W (Proc.devRef .tc main_v28) = val_main_v28 (F := F) x0 x1
    ∧ after opsE2e W (Proc.devRef .tc main_call0_v4) = val_main_call0_v4 (F := F) x0 x1
    ∧ after opsE2e W (Proc.devRef .tc main_v13) = val_main_v13 (F := F)
    ∧ after opsE2e W (Proc.devRef .tc main_v33) = val_main_v33 (F := F)
    ∧ after opsE2e W (Proc.devRef .tc main_arg0) = x0
    ∧ after opsE2e W (Proc.devRef .tc main_arg1) = x1 := by
  refine ⟨?_, ?_, ?_, ?_, ?_, ?_⟩
  · after_results_simp; exact h_v28
  · after_results_simp
    (try rw [h_v28]); (try rw [h_call0_v3]); (try rw [h_v13]); (try rw [h_v33]); (try rw [h_arg0]); (try rw [h_arg1])
    simp only [val_main_call0_v4, TRef.toBuf, TRef.ofBuf, cast_eq]
    try rfl
  · after_results_simp; exact h_v13
  · after_results_simp; exact h_v33
  · after_results_simp; exact h_arg0
  · after_results_simp; exact h_arg1

/-- Operation 50 of the program: writes `main_call0_v5`. -/
abbrev opsE3 : List (HloOp τ sig (Elt F)) :=
  [
    TRef.binary (TRef.of (T := ⟨S8192x8192, .f32⟩) main_v28) (TRef.of (T := ⟨S8192x8192, .f32⟩) main_call0_v4) (TRef.of (T := ⟨S8192x8192, .f32⟩) main_call0_v5) subf ]

set_option maxRecDepth 8192 in
theorem stepE3 (W : Valuation τ sig (Elt F)) (x0 x1 : (⟨S4096x256, .f32⟩ : BufTy).Contents (Elt F))
    (h_v28 : W (Proc.devRef .tc main_v28) = val_main_v28 (F := F) x0 x1)
    (h_call0_v4 : W (Proc.devRef .tc main_call0_v4) = val_main_call0_v4 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE3 W (Proc.devRef .tc main_call0_v5) = val_main_call0_v5 (F := F) x0 x1
    ∧ after opsE3 W (Proc.devRef .tc main_v13) = val_main_v13 (F := F)
    ∧ after opsE3 W (Proc.devRef .tc main_v33) = val_main_v33 (F := F)
    ∧ after opsE3 W (Proc.devRef .tc main_arg0) = x0
    ∧ after opsE3 W (Proc.devRef .tc main_arg1) = x1 := by
  refine ⟨?_, ?_, ?_, ?_, ?_⟩
  · after_results_simp
    (try rw [h_v28]); (try rw [h_call0_v4]); (try rw [h_v13]); (try rw [h_v33]); (try rw [h_arg0]); (try rw [h_arg1])
    simp only [val_main_call0_v5, TRef.toBuf, TRef.ofBuf, cast_eq]
    try rfl
  · after_results_simp; exact h_v13
  · after_results_simp; exact h_v33
  · after_results_simp; exact h_arg0
  · after_results_simp; exact h_arg1

/-- Operations 51–56 of the program: writes `main_call0_v10`. -/
abbrev opsE4 : List (HloOp τ sig (Elt F)) :=
  [
    TRef.unary (TRef.of (T := ⟨S8192x8192, .f32⟩) main_call0_v5) (TRef.of (T := ⟨S8192x8192, .f32⟩) main_call0_v6) Host.exp,
    TRef.nullary (TRef.of (T := ⟨S_, .f32⟩) main_call0_cst_1) (constant S_ .f32 0x00000000#32),
    TRef.binary (TRef.of (T := ⟨S8192x8192, .f32⟩) main_call0_v6) (TRef.of (T := ⟨S_, .f32⟩) main_call0_cst_1) (TRef.of (T := ⟨S8192, .f32⟩) main_call0_v7) (fun x v => Host.reduceAdd x v reducesTo_S8192x8192_S8192_d1 h_S_),
    TRef.unary (TRef.of (T := ⟨S8192, .f32⟩) main_call0_v7) (TRef.of (T := ⟨S8192x1, .f32⟩) main_call0_v8) (broadcastInDim S8192x1 ![0] bcast_S8192_S8192x1_0),
    TRef.unary (TRef.of (T := ⟨S8192x1, .f32⟩) main_call0_v8) (TRef.of (T := ⟨S8192x1, .f32⟩) main_call0_v9) Host.log,
    TRef.unary (TRef.of (T := ⟨S8192x1, .f32⟩) main_call0_v9) (TRef.of (T := ⟨S8192x8192, .f32⟩) main_call0_v10) (broadcastInDim S8192x8192 ![0, 1] bcast_S8192x1_S8192x8192_0_1) ]

set_option maxRecDepth 8192 in
theorem stepE4 (W : Valuation τ sig (Elt F)) (x0 x1 : (⟨S4096x256, .f32⟩ : BufTy).Contents (Elt F))
    (h_call0_v5 : W (Proc.devRef .tc main_call0_v5) = val_main_call0_v5 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE4 W (Proc.devRef .tc main_call0_v5) = val_main_call0_v5 (F := F) x0 x1
    ∧ after opsE4 W (Proc.devRef .tc main_call0_v10) = val_main_call0_v10 (F := F) x0 x1
    ∧ after opsE4 W (Proc.devRef .tc main_v13) = val_main_v13 (F := F)
    ∧ after opsE4 W (Proc.devRef .tc main_v33) = val_main_v33 (F := F)
    ∧ after opsE4 W (Proc.devRef .tc main_arg0) = x0
    ∧ after opsE4 W (Proc.devRef .tc main_arg1) = x1 := by
  refine ⟨?_, ?_, ?_, ?_, ?_, ?_⟩
  · after_results_simp; exact h_call0_v5
  · after_results_simp
    (try rw [h_call0_v5]); (try rw [h_v13]); (try rw [h_v33]); (try rw [h_arg0]); (try rw [h_arg1])
    simp only [val_main_call0_v10, val_main_call0_v9, val_main_call0_v8, val_main_call0_v7, val_main_call0_cst_1, val_main_call0_v6, TRef.toBuf, TRef.ofBuf, cast_eq]
    try rfl
  · after_results_simp; exact h_v13
  · after_results_simp; exact h_v33
  · after_results_simp; exact h_arg0
  · after_results_simp; exact h_arg1

/-- Operation 57 of the program: writes `main_v34`. -/
abbrev opsE5 : List (HloOp τ sig (Elt F)) :=
  [
    TRef.binary (TRef.of (T := ⟨S8192x8192, .f32⟩) main_call0_v5) (TRef.of (T := ⟨S8192x8192, .f32⟩) main_call0_v10) (TRef.of (T := ⟨S8192x8192, .f32⟩) main_v34) subf ]

set_option maxRecDepth 8192 in
theorem stepE5 (W : Valuation τ sig (Elt F)) (x0 x1 : (⟨S4096x256, .f32⟩ : BufTy).Contents (Elt F))
    (h_call0_v5 : W (Proc.devRef .tc main_call0_v5) = val_main_call0_v5 (F := F) x0 x1)
    (h_call0_v10 : W (Proc.devRef .tc main_call0_v10) = val_main_call0_v10 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsE5 W (Proc.devRef .tc main_v34) = val_main_v34 (F := F) x0 x1
    ∧ after opsE5 W (Proc.devRef .tc main_v13) = val_main_v13 (F := F)
    ∧ after opsE5 W (Proc.devRef .tc main_v33) = val_main_v33 (F := F)
    ∧ after opsE5 W (Proc.devRef .tc main_arg0) = x0
    ∧ after opsE5 W (Proc.devRef .tc main_arg1) = x1 := by
  refine ⟨?_, ?_, ?_, ?_, ?_⟩
  · after_results_simp
    (try rw [h_call0_v5]); (try rw [h_call0_v10]); (try rw [h_v13]); (try rw [h_v33]); (try rw [h_arg0]); (try rw [h_arg1])
    simp only [val_main_v34, TRef.toBuf, TRef.ofBuf, cast_eq]
    try rfl
  · after_results_simp; exact h_v13
  · after_results_simp; exact h_v33
  · after_results_simp; exact h_arg0
  · after_results_simp; exact h_arg1

/-- Operations 58–71 of the program: writes `main_v39`, `main_v44`. -/
abbrev opsF1a : List (HloOp τ sig (Elt F)) :=
  [
    nullary main_c_7 (constantI S_ 32 0#32),
    unary main_c_7 main_v35 (broadcastInDim S8192 ![] bcast_S_S8192 : (⟨S_, .i32⟩ : BufTy).Contents (Elt F) → (⟨S8192, .i32⟩ : BufTy).Contents (Elt F)),
    binary main_v13 main_v35 main_v36 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v37 (broadcastInDim S8192 ![] bcast_S_S8192 : (⟨S_, .i32⟩ : BufTy).Contents (Elt F) → (⟨S8192, .i32⟩ : BufTy).Contents (Elt F)),
    binary main_v13 main_v37 main_v38 (addi : (⟨S8192, .i32⟩ : BufTy).Contents (Elt F) → (⟨S8192, .i32⟩ : BufTy).Contents (Elt F) → (⟨S8192, .i32⟩ : BufTy).Contents (Elt F)),
    ternary main_v36 main_v38 main_v13 main_v39 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_9 (constantI S_ 32 0#32),
    unary main_c_9 main_v40 (broadcastInDim S8192 ![] bcast_S_S8192 : (⟨S_, .i32⟩ : BufTy).Contents (Elt F) → (⟨S8192, .i32⟩ : BufTy).Contents (Elt F)),
    binary main_v33 main_v40 main_v41 (cmpi .slt : (⟨S8192, .i32⟩ : BufTy).Contents (Elt F) → (⟨S8192, .i32⟩ : BufTy).Contents (Elt F) → (⟨S8192, .i1⟩ : BufTy).Contents (Elt F)),
    nullary main_c_10 (constantI S_ 32 8192#32),
    unary main_c_10 main_v42 (broadcastInDim S8192 ![] bcast_S_S8192 : (⟨S_, .i32⟩ : BufTy).Contents (Elt F) → (⟨S8192, .i32⟩ : BufTy).Contents (Elt F)),
    binary main_v33 main_v42 main_v43 (addi : (⟨S8192, .i32⟩ : BufTy).Contents (Elt F) → (⟨S8192, .i32⟩ : BufTy).Contents (Elt F) → (⟨S8192, .i32⟩ : BufTy).Contents (Elt F)),
    ternary main_v41 main_v43 main_v33 main_v44 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)) ]

set_option maxRecDepth 8192 in
theorem stepF1a (W : Valuation τ sig (Elt F)) (x0 x1 : (⟨S4096x256, .f32⟩ : BufTy).Contents (Elt F))
    (h_v34 : W (Proc.devRef .tc main_v34) = val_main_v34 (F := F) x0 x1)
    (h_v13 : W (Proc.devRef .tc main_v13) = val_main_v13 (F := F))
    (h_v33 : W (Proc.devRef .tc main_v33) = val_main_v33 (F := F))
    (h_arg0 : W (Proc.devRef .tc main_arg0) = x0)
    (h_arg1 : W (Proc.devRef .tc main_arg1) = x1) :
    after opsF1a W (Proc.devRef .tc main_v34) = val_main_v34 (F := F) x0 x1
    ∧ after opsF1a W (Proc.devRef .tc main_v39) = val_main_v39 (F := F)
    ∧ after opsF1a W (Proc.devRef .tc main_v44) = val_main_v44 (F := F)
    ∧ after opsF1a W (Proc.devRef .tc main_arg0) = x0
    ∧ after opsF1a W (Proc.devRef .tc main_arg1) = x1 := by
  refine ⟨?_, ?_, ?_, ?_, ?_⟩
  · after_results_simp; exact h_v34
  · after_results_simp
    (try rw [h_v34]); (try rw [h_v13]); (try rw [h_v33]); (try rw [h_arg0]); (try rw [h_arg1])
    simp only [val_main_v44, val_main_v43, val_main_v42, val_main_c_10, val_main_v41, val_main_v40, val_main_c_9, val_main_v39, val_main_v38, val_main_v37, val_main_c_8, val_main_v36, val_main_v35, val_main_c_7, TRef.toBuf, TRef.ofBuf, cast_eq]
    try rfl
  · after_results_simp
    (try rw [h_v34]); (try rw [h_v13]); (try rw [h_v33]); (try rw [h_arg0]); (try rw [h_arg1])
    simp only [val_main_v44, val_main_v43, val_main_v42, val_main_c_10, val_main_v41, val_main_v40, val_main_c_9, val_main_v39, val_main_v38, val_main_v37, val_main_c_8, val_main_v36, val_main_v35, val_main_c_7, TRef.toBuf, TRef.ofBuf, cast_eq]
    try rfl
  · after_results_simp; exact h_arg0
  · after_results_simp; exact h_arg1

/-- Operations 72–73 of the program: writes `main_v45`, `main_v46`. -/
abbrev opsF1b : List (HloOp τ sig (Elt F)) :=
  [
    unary main_v39 main_v45 (broadcastInDim S8192x1 ![0] bcast_S8192_S8192x1_0 : (⟨S8192, .i32⟩ : BufTy).Contents (Elt F) → (⟨S8192x1, .i32⟩ : BufTy).Contents (Elt F)),
    unary main_v44 main_v46 (broadcastInDim S8192x1 ![0] bcast_S8192_S8192x1_0 : (⟨S8192, .i32⟩ : BufTy).Contents (Elt F) → (⟨S8192x1, .i32⟩ : BufTy).Contents (Elt F)) ]

set_option maxRecDepth 8192 in
theorem stepF1b (W : Valuation τ sig (Elt F)) (x0 x1 : (⟨S4096x256, .f32⟩ : BufTy).Contents (Elt F))
    (h_v34 : W (Proc.devRef .tc main_v34) = val_main_v34 (F := F) x0 x1)
    (h_v39 : W (Proc.devRef .tc main_v39) = val_main_v39 (F := F))
    (h_v44 : W (Proc.devRef .tc main_v44) = val_main_v44 (F := F))
    (h_arg0 : W (Proc.devRef .tc main_arg0) = x0)
    (h_arg1 : W (Proc.devRef .tc main_arg1) = x1) :
    after opsF1b W (Proc.devRef .tc main_v34) = val_main_v34 (F := F) x0 x1
    ∧ after opsF1b W (Proc.devRef .tc main_v45) = val_main_v45 (F := F)
    ∧ after opsF1b W (Proc.devRef .tc main_v46) = val_main_v46 (F := F)
    ∧ after opsF1b W (Proc.devRef .tc main_arg0) = x0
    ∧ after opsF1b W (Proc.devRef .tc main_arg1) = x1 := by
  refine ⟨?_, ?_, ?_, ?_, ?_⟩
  · after_results_simp; exact h_v34
  · after_results_simp
    (try rw [h_v34]); (try rw [h_v39]); (try rw [h_v44]); (try rw [h_arg0]); (try rw [h_arg1])
    simp only [val_main_v46, val_main_v45, TRef.toBuf, TRef.ofBuf, cast_eq]
    try rfl
  · after_results_simp
    (try rw [h_v34]); (try rw [h_v39]); (try rw [h_v44]); (try rw [h_arg0]); (try rw [h_arg1])
    simp only [val_main_v46, val_main_v45, TRef.toBuf, TRef.ofBuf, cast_eq]
    try rfl
  · after_results_simp; exact h_arg0
  · after_results_simp; exact h_arg1

/-- Operation 74 of the program: writes `main_v47`. -/
abbrev opsF1c : List (HloOp τ sig (Elt F)) :=
  [
    binary main_v45 main_v46 main_v47 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)) ]

set_option maxRecDepth 8192 in
theorem stepF1c (W : Valuation τ sig (Elt F)) (x0 x1 : (⟨S4096x256, .f32⟩ : BufTy).Contents (Elt F))
    (h_v34 : W (Proc.devRef .tc main_v34) = val_main_v34 (F := F) x0 x1)
    (h_v45 : W (Proc.devRef .tc main_v45) = val_main_v45 (F := F))
    (h_v46 : W (Proc.devRef .tc main_v46) = val_main_v46 (F := F))
    (h_arg0 : W (Proc.devRef .tc main_arg0) = x0)
    (h_arg1 : W (Proc.devRef .tc main_arg1) = x1) :
    after opsF1c W (Proc.devRef .tc main_v34) = val_main_v34 (F := F) x0 x1
    ∧ after opsF1c W (Proc.devRef .tc main_v47) = val_main_v47 (F := F)
    ∧ after opsF1c W (Proc.devRef .tc main_arg0) = x0
    ∧ after opsF1c W (Proc.devRef .tc main_arg1) = x1 := by
  refine ⟨?_, ?_, ?_, ?_⟩
  · after_results_simp; exact h_v34
  · after_results_simp
    (try rw [h_v34]); (try rw [h_v45]); (try rw [h_v46]); (try rw [h_arg0]); (try rw [h_arg1])
    simp only [val_main_v47, TRef.toBuf, TRef.ofBuf, cast_eq]
    try rfl
  · after_results_simp; exact h_arg0
  · after_results_simp; exact h_arg1

/-- Operation 75 of the program: writes `main_v48`. -/
abbrev opsF2 : List (HloOp τ sig (Elt F)) :=
  [
    binary main_v34 main_v47 main_v48 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]

set_option maxRecDepth 8192 in
theorem stepF2 (W : Valuation τ sig (Elt F)) (x0 x1 : (⟨S4096x256, .f32⟩ : BufTy).Contents (Elt F))
    (h_v34 : W (Proc.devRef .tc main_v34) = val_main_v34 (F := F) x0 x1)
    (h_v47 : W (Proc.devRef .tc main_v47) = val_main_v47 (F := F))
    (h_arg0 : W (Proc.devRef .tc main_arg0) = x0)
    (h_arg1 : W (Proc.devRef .tc main_arg1) = x1) :
    after opsF2 W (Proc.devRef .tc main_v48) = val_main_v48 (F := F) x0 x1
    ∧ after opsF2 W (Proc.devRef .tc main_arg0) = x0
    ∧ after opsF2 W (Proc.devRef .tc main_arg1) = x1 := by
  refine ⟨?_, ?_, ?_⟩
  · after_results_simp
    (try rw [h_v34]); (try rw [h_v47]); (try rw [h_arg0]); (try rw [h_arg1])
    simp only [val_main_v48, TRef.toBuf, TRef.ofBuf, cast_eq]
    try rfl
  · after_results_simp; exact h_arg0
  · after_results_simp; exact h_arg1

/-- Operations 76–80 of the program: writes `main_v51`. -/
abbrev opsG : List (HloOp τ sig (Elt F)) :=
  [
    nullary main_cst_11 (constant S_ .f32 0x00000000#32),
    binary main_v48 main_cst_11 main_v49 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v49 main_v50 (Host.negf : (⟨S_, .f32⟩ : BufTy).Contents (Elt F) → (⟨S_, .f32⟩ : BufTy).Contents (Elt F)),
    nullary main_cst_12 (constant S_ .f32 0x46000000#32),
    binary main_v50 main_cst_12 main_v51 (Host.divf : (⟨S_, .f32⟩ : BufTy).Contents (Elt F) → (⟨S_, .f32⟩ : BufTy).Contents (Elt F) → (⟨S_, .f32⟩ : BufTy).Contents (Elt F)) ]

set_option maxRecDepth 8192 in
theorem stepG (W : Valuation τ sig (Elt F)) (x0 x1 : (⟨S4096x256, .f32⟩ : BufTy).Contents (Elt F))
    (h_v48 : W (Proc.devRef .tc main_v48) = val_main_v48 (F := F) x0 x1)
    (h_arg0 : W (Proc.devRef .tc main_arg0) = x0)
    (h_arg1 : W (Proc.devRef .tc main_arg1) = x1) :
    after opsG W (Proc.devRef .tc main_v51) = val_main_v51 (F := F) x0 x1
    ∧ after opsG W (Proc.devRef .tc main_arg0) = x0
    ∧ after opsG W (Proc.devRef .tc main_arg1) = x1 := by
  refine ⟨?_, ?_, ?_⟩
  · after_results_simp
    (try rw [h_v48]); (try rw [h_arg0]); (try rw [h_arg1])
    simp only [val_main_v51, val_main_cst_12, val_main_v50, val_main_v49, val_main_cst_11, TRef.toBuf, TRef.ofBuf, cast_eq]
    try rfl
  · after_results_simp; exact h_arg0
  · after_results_simp; exact h_arg1

set_option maxRecDepth 8192 in
/-- The program's operations are the stretches in order. -/
theorem ops_eq : (ops : List (HloOp τ sig (Elt F))) = opsA ++ (opsB ++ (opsC1 ++ (opsC2 ++ (opsD ++ (opsE1 ++ (opsE2a ++ (opsE2b ++ (opsE2c ++ (opsE2d ++ (opsE2e ++ (opsE3 ++ (opsE4 ++ (opsE5 ++ (opsF1a ++ (opsF1b ++ (opsF1c ++ (opsF2 ++ (opsG)))))))))))))))))) := rfl

/-- The fold of all 81 operations: the result buffer at the last stage, the arguments as they were. -/
theorem after_ops (W : Valuation τ sig (Elt F)) (x0 x1 : (⟨S4096x256, .f32⟩ : BufTy).Contents (Elt F))
    (h0 : W (Proc.devRef .tc main_arg0) = x0) (h1 : W (Proc.devRef .tc main_arg1) = x1) :
    after ops W (Proc.devRef .tc main_v51) = val_main_v51 (F := F) x0 x1
    ∧ after ops W (Proc.devRef .tc main_arg0) = x0
    ∧ after ops W (Proc.devRef .tc main_arg1) = x1 := by
  rw [ops_eq]
  simp only [after_app]
  obtain ⟨sA_v8, sA_arg0, sA_arg1⟩ := stepA W x0 x1 h0 h1
  generalize after opsA W = W1 at sA_v8 sA_arg0 sA_arg1 ⊢
  obtain ⟨sB_v12, sB_arg0, sB_arg1⟩ := stepB W1 x0 x1 sA_v8 sA_arg0 sA_arg1
  generalize after opsB W1 = W2 at sB_v12 sB_arg0 sB_arg1 ⊢
  obtain ⟨sC1_v12, sC1_v26, sC1_v27, sC1_v13, sC1_arg0, sC1_arg1⟩ := stepC1 W2 x0 x1 sB_v12 sB_arg0 sB_arg1
  generalize after opsC1 W2 = W3 at sC1_v12 sC1_v26 sC1_v27 sC1_v13 sC1_arg0 sC1_arg1 ⊢
  obtain ⟨sC2_v28, sC2_v13, sC2_arg0, sC2_arg1⟩ := stepC2 W3 x0 x1 sC1_v12 sC1_v26 sC1_v27 sC1_v13 sC1_arg0 sC1_arg1
  generalize after opsC2 W3 = W4 at sC2_v28 sC2_v13 sC2_arg0 sC2_arg1 ⊢
  obtain ⟨sD_v28, sD_v13, sD_v33, sD_arg0, sD_arg1⟩ := stepD W4 x0 x1 sC2_v28 sC2_v13 sC2_arg0 sC2_arg1
  generalize after opsD W4 = W5 at sD_v28 sD_v13 sD_v33 sD_arg0 sD_arg1 ⊢
  obtain ⟨sE1_v28, sE1_call0_v0, sE1_v13, sE1_v33, sE1_arg0, sE1_arg1⟩ := stepE1 W5 x0 x1 sD_v28 sD_v13 sD_v33 sD_arg0 sD_arg1
  generalize after opsE1 W5 = W6 at sE1_v28 sE1_call0_v0 sE1_v13 sE1_v33 sE1_arg0 sE1_arg1 ⊢
  obtain ⟨sE2a_v28, sE2a_call0_v0, sE2a_call0_cst_0, sE2a_v13, sE2a_v33, sE2a_arg0, sE2a_arg1⟩ := stepE2a W6 x0 x1 sE1_v28 sE1_call0_v0 sE1_v13 sE1_v33 sE1_arg0 sE1_arg1
  generalize after opsE2a W6 = W7 at sE2a_v28 sE2a_call0_v0 sE2a_call0_cst_0 sE2a_v13 sE2a_v33 sE2a_arg0 sE2a_arg1 ⊢
  obtain ⟨sE2b_v28, sE2b_call0_v0, sE2b_call0_v1, sE2b_v13, sE2b_v33, sE2b_arg0, sE2b_arg1⟩ := stepE2b W7 x0 x1 sE2a_v28 sE2a_call0_v0 sE2a_call0_cst_0 sE2a_v13 sE2a_v33 sE2a_arg0 sE2a_arg1
  generalize after opsE2b W7 = W8 at sE2b_v28 sE2b_call0_v0 sE2b_call0_v1 sE2b_v13 sE2b_v33 sE2b_arg0 sE2b_arg1 ⊢
  obtain ⟨sE2c_v28, sE2c_call0_v2, sE2c_v13, sE2c_v33, sE2c_arg0, sE2c_arg1⟩ := stepE2c W8 x0 x1 sE2b_v28 sE2b_call0_v0 sE2b_call0_v1 sE2b_v13 sE2b_v33 sE2b_arg0 sE2b_arg1
  generalize after opsE2c W8 = W9 at sE2c_v28 sE2c_call0_v2 sE2c_v13 sE2c_v33 sE2c_arg0 sE2c_arg1 ⊢
  obtain ⟨sE2d_v28, sE2d_call0_v3, sE2d_v13, sE2d_v33, sE2d_arg0, sE2d_arg1⟩ := stepE2d W9 x0 x1 sE2c_v28 sE2c_call0_v2 sE2c_v13 sE2c_v33 sE2c_arg0 sE2c_arg1
  generalize after opsE2d W9 = W10 at sE2d_v28 sE2d_call0_v3 sE2d_v13 sE2d_v33 sE2d_arg0 sE2d_arg1 ⊢
  obtain ⟨sE2e_v28, sE2e_call0_v4, sE2e_v13, sE2e_v33, sE2e_arg0, sE2e_arg1⟩ := stepE2e W10 x0 x1 sE2d_v28 sE2d_call0_v3 sE2d_v13 sE2d_v33 sE2d_arg0 sE2d_arg1
  generalize after opsE2e W10 = W11 at sE2e_v28 sE2e_call0_v4 sE2e_v13 sE2e_v33 sE2e_arg0 sE2e_arg1 ⊢
  obtain ⟨sE3_call0_v5, sE3_v13, sE3_v33, sE3_arg0, sE3_arg1⟩ := stepE3 W11 x0 x1 sE2e_v28 sE2e_call0_v4 sE2e_v13 sE2e_v33 sE2e_arg0 sE2e_arg1
  generalize after opsE3 W11 = W12 at sE3_call0_v5 sE3_v13 sE3_v33 sE3_arg0 sE3_arg1 ⊢
  obtain ⟨sE4_call0_v5, sE4_call0_v10, sE4_v13, sE4_v33, sE4_arg0, sE4_arg1⟩ := stepE4 W12 x0 x1 sE3_call0_v5 sE3_v13 sE3_v33 sE3_arg0 sE3_arg1
  generalize after opsE4 W12 = W13 at sE4_call0_v5 sE4_call0_v10 sE4_v13 sE4_v33 sE4_arg0 sE4_arg1 ⊢
  obtain ⟨sE5_v34, sE5_v13, sE5_v33, sE5_arg0, sE5_arg1⟩ := stepE5 W13 x0 x1 sE4_call0_v5 sE4_call0_v10 sE4_v13 sE4_v33 sE4_arg0 sE4_arg1
  generalize after opsE5 W13 = W14 at sE5_v34 sE5_v13 sE5_v33 sE5_arg0 sE5_arg1 ⊢
  obtain ⟨sF1a_v34, sF1a_v39, sF1a_v44, sF1a_arg0, sF1a_arg1⟩ := stepF1a W14 x0 x1 sE5_v34 sE5_v13 sE5_v33 sE5_arg0 sE5_arg1
  generalize after opsF1a W14 = W15 at sF1a_v34 sF1a_v39 sF1a_v44 sF1a_arg0 sF1a_arg1 ⊢
  obtain ⟨sF1b_v34, sF1b_v45, sF1b_v46, sF1b_arg0, sF1b_arg1⟩ := stepF1b W15 x0 x1 sF1a_v34 sF1a_v39 sF1a_v44 sF1a_arg0 sF1a_arg1
  generalize after opsF1b W15 = W16 at sF1b_v34 sF1b_v45 sF1b_v46 sF1b_arg0 sF1b_arg1 ⊢
  obtain ⟨sF1c_v34, sF1c_v47, sF1c_arg0, sF1c_arg1⟩ := stepF1c W16 x0 x1 sF1b_v34 sF1b_v45 sF1b_v46 sF1b_arg0 sF1b_arg1
  generalize after opsF1c W16 = W17 at sF1c_v34 sF1c_v47 sF1c_arg0 sF1c_arg1 ⊢
  obtain ⟨sF2_v48, sF2_arg0, sF2_arg1⟩ := stepF2 W17 x0 x1 sF1c_v34 sF1c_v47 sF1c_arg0 sF1c_arg1
  generalize after opsF2 W17 = W18 at sF2_v48 sF2_arg0 sF2_arg1 ⊢
  exact stepG W18 x0 x1 sF2_v48 sF2_arg0 sF2_arg1

/-- On every device, for any float values, from any memory with zero counters: every weakly fair execution of @main
    terminates with the result at the program's last stage of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
        = val_main_v51 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have e := after_ops (F := F) (launchContents m c) (m ((c.tc : Thread nD τ).loc main_arg0)) (m ((c.tc : Thread nD τ).loc main_arg1)) rfl rfl
      ⟨(h c main_v51).trans e.1, (h c main_arg0).trans e.2.1, (h c main_arg1).trans e.2.2⟩)
    (run_seq scopedRefs_eq scopedSems_eq defs main (fun _ => ops) main_eq (fun _ => ops_sub) m ρ)

end Cert.ReferenceIdeal.RunParts

end
-- ==== Proof.lean ====
/-
  The certificate of the streaming NT-Xent kernel against its one-pass reference.

  The kernel streams the 8192 × 8192 masked score matrix of the normalized rows through a 4 × 16 grid, keeping a running
  maximum and a running sum per row in scratch buffers, and writes each row's logsumexp; the host then subtracts each
  row's partner score and averages. The reference forms the whole matrix, takes a row-wise log-softmax and gathers the
  partner entries. Frames: each program runs to its end, faults nowhere and leaves its two arguments unchanged — the
  kernel's, at the word level and idealized, by the launch of its one region with the normalized matrix's share split
  between the two windows that read it (KLaunch, BLaunch); the reference's by its run read back. The idealization rewrote
  nothing. On the extended reals, under the precondition that the inputs are finite, both programs compute the same
  number: the streamed logsumexp of a real row is its one-pass logsumexp, a quotient by 1/2 is a product with 2, and a
  row's partner score is the same from either row of its pair (Bridge).
-/
import proofs.«142451_j57836029608255_1_alg».proof.Defs
import proofs.«142451_j57836029608255_1_alg».proof.Proof.BLaunch
import proofs.«142451_j57836029608255_1_alg».proof.Proof.Bridge
import proofs.«142451_j57836029608255_1_alg».proof.Proof.RefRunHand
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RunParts.run (F := Ideal) m ρ)

/-- From memories agreeing on the arguments both idealized programs end with the same scalar. -/
theorem algebraic : Cert.algebraic_KernelIdeal_ReferenceIdeal := by
  intro m ρ m' ρ' hpre hagree
  refine ⟨fun c => Cert.KernelIdeal.Hand.Wend m c (Proc.devRef .tc Cert.KernelIdeal.main_v22), ?_, ?_⟩
  · exact (θ_run Cert.KernelIdeal.defs _ _).mono (fun _ h c =>
      ⟨(h c) Cert.KernelIdeal.main_v22 (by decide),
       ((h c) Cert.KernelIdeal.main_arg0 (by decide)).trans (Cert.KernelIdeal.Hand.Wend_arg m c Cert.KernelIdeal.main_arg0 (.inl rfl)),
       ((h c) Cert.KernelIdeal.main_arg1 (by decide)).trans (Cert.KernelIdeal.Hand.Wend_arg m c Cert.KernelIdeal.main_arg1 (.inr rfl))⟩)
      (Cert.KernelIdeal.Hand.run_main m ρ)
  · refine (θ_run Cert.ReferenceIdeal.defs _ _).mono (fun _ h c => ⟨(h c).1.trans ?_, (h c).2⟩)
      (Cert.ReferenceIdeal.RunParts.run (F := Ideal) m' ρ')
    rw [(hagree c).1, (hagree c).2]
    exact (Cert.Proof.Bridge.result_eq_reference m c hpre).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
